-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x1024 : Shape := ⟨3, ![1, 2048, 1024]⟩
abbrev S4096x1024 : Shape := ⟨2, ![4096, 1024]⟩
abbrev S4096 : Shape := ⟨1, ![4096]⟩
abbrev S8x8x1024 : Shape := ⟨3, ![8, 8, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S8x8x1024 : S_.BroadcastsInDim S8x8x1024 (![] : Fin 0 → Fin S8x8x1024.rank)
  reducesTo_S8x8x1024_S_d0_1_2 : S8x8x1024.ReducesTo [0, 1, 2] S_

variable [Facts]

def fn_part1 {F : FTy → Type} [FloatOps F] (main_v13 : IVec S_ 1) (main_v16 : IVec S8x8x1024 1) : IVec S_ 1 :=
  let main_c_5 : IVec S_ 1 := constantI S_ 1 1#1
  let main_v17 : IVec S_ 1 := (fun x v => Host.reduce IntOp.andi x v reducesTo_S8x8x1024_S_d0_1_2 h_S_) main_v16 main_c_5
  let main_v18 : IVec S_ 1 := andi main_v13 main_v17
  main_v18

def fn {F : FTy → Type} [FloatOps F] (main_arg0 : FVec F S1x2048x1024 .f32) (main_arg1 : FVec F S4096x1024 .f32) (main_arg2 : FVec F S4096 .f32) (main_arg3 : FVec F S8x8x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S8x8x1024 .f32 := Host.absf main_arg3
  let main_cst_4 : FVec F S_ .f32 := constant S_ .f32 0x7F800000#32
  let main_v15 : FVec F S8x8x1024 .f32 := broadcastInDim S8x8x1024 ![] bcast_S_S8x8x1024 main_cst_4
  let main_v16 : IVec S8x8x1024 1 := cmpf .olt main_v14 main_v15
  fn_part1 (F := F) main_v13 main_v16
-- ==== Kernel.lean ====
abbrev S1x2048x1024 : Shape := ⟨3, ![1, 2048, 1024]⟩
abbrev S4096x1024 : Shape := ⟨2, ![4096, 1024]⟩
abbrev S4096 : Shape := ⟨1, ![4096]⟩
abbrev S8x8x1024 : Shape := ⟨3, ![8, 8, 1024]⟩
abbrev S8x64 : Shape := ⟨2, ![8, 64]⟩
abbrev S64x8 : Shape := ⟨2, ![64, 8]⟩
abbrev S2048x1024 : Shape := ⟨2, ![2048, 1024]⟩
abbrev S64x1024 : Shape := ⟨2, ![64, 1024]⟩
abbrev S1x4096 : Shape := ⟨2, ![1, 4096]⟩
abbrev S2048x8 : Shape := ⟨2, ![2048, 8]⟩
abbrev S2048x4096 : Shape := ⟨2, ![2048, 4096]⟩
abbrev S1x2048x4096 : Shape := ⟨3, ![1, 2048, 4096]⟩
abbrev S512x1024 : Shape := ⟨2, ![512, 1024]⟩
abbrev S512x64 : Shape := ⟨2, ![512, 64]⟩
abbrev S512x8 : Shape := ⟨2, ![512, 8]⟩
abbrev S1x512 : Shape := ⟨2, ![1, 512]⟩
abbrev S2048x512 : Shape := ⟨2, ![2048, 512]⟩
abbrev S8x512 : Shape := ⟨2, ![8, 512]⟩
abbrev S512x512 : Shape := ⟨2, ![512, 512]⟩
abbrev S512x1 : Shape := ⟨2, ![512, 1]⟩

abbrev nBuf : Space → Nat
  | .hbm => 13
  | .vmem => 15
  | .smem => 0
  | _ => 0

abbrev bufTy : (tb : Table) → Fin (tcTables nBuf tb) → BufTy
  | .hbm, ⟨0, _⟩ => ⟨S1x2048x1024, .f32⟩
  | .hbm, ⟨1, _⟩ => ⟨S4096x1024, .f32⟩
  | .hbm, ⟨2, _⟩ => ⟨S4096, .f32⟩
  | .hbm, ⟨3, _⟩ => ⟨S8x8x1024, .f32⟩
  | .hbm, ⟨4, _⟩ => ⟨S8x64, .f32⟩
  | .hbm, ⟨5, _⟩ => ⟨S64x8, .f32⟩
  | .hbm, ⟨6, _⟩ => ⟨S2048x1024, .f32⟩
  | .hbm, ⟨7, _⟩ => ⟨S64x1024, .f32⟩
  | .hbm, ⟨8, _⟩ => ⟨S1x4096, .f32⟩
  | .hbm, ⟨9, _⟩ => ⟨S2048x1024, .bf16⟩
  | .hbm, ⟨10, _⟩ => ⟨S2048x8, .bf16⟩
  | .hbm, ⟨11, _⟩ => ⟨S2048x4096, .f32⟩
  | .hbm, ⟨12, _⟩ => ⟨S1x2048x4096, .f32⟩
  | .local _ .vmem, ⟨0, _⟩ => ⟨S2048x1024, .f32⟩
  | .local _ .vmem, ⟨1, _⟩ => ⟨S64x1024, .f32⟩
  | .local _ .vmem, ⟨2, _⟩ => ⟨S64x8, .f32⟩
  | .local _ .vmem, ⟨3, _⟩ => ⟨S2048x1024, .bf16⟩
  | .local _ .vmem, ⟨4, _⟩ => ⟨S2048x8, .bf16⟩
  | .local _ .vmem, ⟨5, _⟩ => ⟨S2048x1024, .bf16⟩
  | .local _ .vmem, ⟨6, _⟩ => ⟨S2048x8, .bf16⟩
  | .local _ .vmem, ⟨7, _⟩ => ⟨S512x1024, .f32⟩
  | .local _ .vmem, ⟨8, _⟩ => ⟨S512x1024, .f32⟩
  | .local _ .vmem, ⟨9, _⟩ => ⟨S1x512, .f32⟩
  | .local _ .vmem, ⟨10, _⟩ => ⟨S1x512, .f32⟩
  | .local _ .vmem, ⟨11, _⟩ => ⟨S64x1024, .f32⟩
  | .local _ .vmem, ⟨12, _⟩ => ⟨S8x64, .f32⟩
  | .local _ .vmem, ⟨13, _⟩ => ⟨S2048x512, .f32⟩
  | .local _ .vmem, ⟨14, _⟩ => ⟨S2048x512, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3_0 : Ref sig .tc := ⟨.hbm, 9, rfl⟩
abbrev main_call0_v3_1 : Ref sig .tc := ⟨.hbm, 10, rfl⟩
abbrev main_call0_v4 : Ref sig .tc := ⟨.hbm, 11, rfl⟩
abbrev main_v0 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem5_0 : DmaSem sig := 12
abbrev cc1_sem6_0 : DmaSem sig := 13
abbrev cc1_sem6_1 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x8 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x8 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2048x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S1x2048x1024_S2048x1024 : S1x2048x1024.ShapeCasts S2048x1024
  shapeCasts_S8x8x1024_S64x1024 : S8x8x1024.ShapeCasts S64x1024
  shapeCasts_S4096_S1x4096 : S4096.ShapeCasts S1x4096
  shapeCasts_S2048x4096_S1x2048x4096 : S2048x4096.ShapeCasts S1x2048x4096
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  bitsLt_bf16_f32 : FTy.bits .bf16 < FTy.bits .f32
  inb_S2048x1024_S512x1024_0_0 : ∀ a, (![0, 0] : Fin 2 → Nat) a + S512x1024.size a ≤ S2048x1024.size a
  h_S512x1024 : 0 < S512x1024.numel
  shapeCasts_S512x1024_S512x1024 : S512x1024.ShapeCasts S512x1024
  packedbf16_S2048x1024_S512x1024_0_0 : (Rect.unit (s := S2048x1024) ![0, 0] S512x1024.size inb_S2048x1024_S512x1024_0_0).PackedRows (EltTy.packing .bf16)
  natLt_1_32 : 1 < 32
  inb_S64x8_S64x8_0_0 : ∀ a, (![0, 0] : Fin 2 → Nat) a + S64x8.size a ≤ S64x8.size a
  h_S64x8 : 0 < S64x8.numel
  inb_S2048x8_S512x8_0_0 : ∀ a, (![0, 0] : Fin 2 → Nat) a + S512x8.size a ≤ S2048x8.size a
  h_S512x8 : 0 < S512x8.numel
  packedbf16_S2048x8_S512x8_0_0 : (Rect.unit (s := S2048x8) ![0, 0] S512x8.size inb_S2048x8_S512x8_0_0).PackedRows (EltTy.packing .bf16)
  inb_S2048x1024_S512x1024_512_0 : ∀ a, (![512, 0] : Fin 2 → Nat) a + S512x1024.size a ≤ S2048x1024.size a
  packedbf16_S2048x1024_S512x1024_512_0 : (Rect.unit (s := S2048x1024) ![512, 0] S512x1024.size inb_S2048x1024_S512x1024_512_0).PackedRows (EltTy.packing .bf16)
  inb_S2048x8_S512x8_512_0 : ∀ a, (![512, 0] : Fin 2 → Nat) a + S512x8.size a ≤ S2048x8.size a
  packedbf16_S2048x8_S512x8_512_0 : (Rect.unit (s := S2048x8) ![512, 0] S512x8.size inb_S2048x8_S512x8_512_0).PackedRows (EltTy.packing .bf16)
  inb_S2048x1024_S512x1024_1024_0 : ∀ a, (![1024, 0] : Fin 2 → Nat) a + S512x1024.size a ≤ S2048x1024.size a
  packedbf16_S2048x1024_S512x1024_1024_0 : (Rect.unit (s := S2048x1024) ![1024, 0] S512x1024.size inb_S2048x1024_S512x1024_1024_0).PackedRows (EltTy.packing .bf16)
  inb_S2048x8_S512x8_1024_0 : ∀ a, (![1024, 0] : Fin 2 → Nat) a + S512x8.size a ≤ S2048x8.size a
  packedbf16_S2048x8_S512x8_1024_0 : (Rect.unit (s := S2048x8) ![1024, 0] S512x8.size inb_S2048x8_S512x8_1024_0).PackedRows (EltTy.packing .bf16)
  inb_S2048x1024_S512x1024_1536_0 : ∀ a, (![1536, 0] : Fin 2 → Nat) a + S512x1024.size a ≤ S2048x1024.size a
  packedbf16_S2048x1024_S512x1024_1536_0 : (Rect.unit (s := S2048x1024) ![1536, 0] S512x1024.size inb_S2048x1024_S512x1024_1536_0).PackedRows (EltTy.packing .bf16)
  inb_S2048x8_S512x8_1536_0 : ∀ a, (![1536, 0] : Fin 2 → Nat) a + S512x8.size a ≤ S2048x8.size a
  packedbf16_S2048x8_S512x8_1536_0 : (Rect.unit (s := S2048x8) ![1536, 0] S512x8.size inb_S2048x8_S512x8_1536_0).PackedRows (EltTy.packing .bf16)
  inb_S512x1024_S512x1024_0_0 : ∀ a, (![0, 0] : Fin 2 → Nat) a + S512x1024.size a ≤ S512x1024.size a
  inb_S8x64_S8x64_0_0 : ∀ a, (![0, 0] : Fin 2 → Nat) a + S8x64.size a ≤ S8x64.size a
  h_S8x64 : 0 < S8x64.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  shapeCasts_S512x8_S512x8 : S512x8.ShapeCasts S512x8
  slices_S512x8_o0_0_S512x1 : S512x8.Slices ![0, 0] S512x1
  slices_S8x512_o0_0_S1x512 : S8x512.Slices ![0, 0] S1x512
  broadcasts_S512x1_S512x512 : S512x1.Broadcasts S512x512
  slices_S512x8_o0_1_S512x1 : S512x8.Slices ![0, 1] S512x1
  slices_S8x512_o1_0_S1x512 : S8x512.Slices ![1, 0] S1x512
  slices_S512x8_o0_2_S512x1 : S512x8.Slices ![0, 2] S512x1
  slices_S8x512_o2_0_S1x512 : S8x512.Slices ![2, 0] S1x512
  slices_S512x8_o0_3_S512x1 : S512x8.Slices ![0, 3] S512x1
  slices_S8x512_o3_0_S1x512 : S8x512.Slices ![3, 0] S1x512
  slices_S512x8_o0_4_S512x1 : S512x8.Slices ![0, 4] S512x1
  slices_S8x512_o4_0_S1x512 : S8x512.Slices ![4, 0] S1x512
  slices_S512x8_o0_5_S512x1 : S512x8.Slices ![0, 5] S512x1
  slices_S8x512_o5_0_S1x512 : S8x512.Slices ![5, 0] S1x512
  slices_S512x8_o0_6_S512x1 : S512x8.Slices ![0, 6] S512x1
  slices_S8x512_o6_0_S1x512 : S8x512.Slices ![6, 0] S1x512
  slices_S512x8_o0_7_S512x1 : S512x8.Slices ![0, 7] S512x1
  slices_S8x512_o7_0_S1x512 : S8x512.Slices ![7, 0] S1x512
  inb_S2048x512_S512x512_0_0 : ∀ a, (![0, 0] : Fin 2 → Nat) a + S512x512.size a ≤ S2048x512.size a
  h_S512x512 : 0 < S512x512.numel
  inb_S2048x512_S512x512_512_0 : ∀ a, (![512, 0] : Fin 2 → Nat) a + S512x512.size a ≤ S2048x512.size a
  inb_S2048x512_S512x512_1024_0 : ∀ a, (![1024, 0] : Fin 2 → Nat) a + S512x512.size a ≤ S2048x512.size a
  inb_S2048x512_S512x512_1536_0 : ∀ a, (![1536, 0] : Fin 2 → Nat) a + S512x512.size a ≤ S2048x512.size a
  dot_S512x1024_S64x1024_S512x64_1_1_0_0_n_n_wf : DotDims.WF S512x1024 S64x1024 S512x64 [1] [1] [0] [0] [] []
  dot_S512x64_S64x8_S512x8_1_0_0_1_n_n_wf : DotDims.WF S512x64 S64x8 S512x8 [1] [0] [0] [1] [] []
  dot_S8x64_S512x64_S8x512_1_1_0_0_n_n_wf : DotDims.WF S8x64 S512x64 S8x512 [1] [1] [0] [0] [] []
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S2048x1024.size a
  hwx0_0 : ∀ i : grid0.Coords, EltTy.bits .f32 = 32 ∨ (Rect.block (s := S2048x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .f32 = 32 ∨ (Rect.block (s := S64x1024) S64x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x8.size a ≤ S64x8.size a
  hwx0_2 : ∀ i : grid0.Coords, EltTy.bits .f32 = 32 ∨ (Rect.block (s := S64x8) S64x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x1024.size a
  hwx0_3 : ∀ i : grid0.Coords, EltTy.bits .bf16 = 32 ∨ (Rect.block (s := S2048x1024) S2048x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x8.size a ≤ S2048x8.size a
  hwx0_4 : ∀ i : grid0.Coords, EltTy.bits .bf16 = 32 ∨ (Rect.block (s := S2048x8) S2048x8.size (cc0_transform_4 i) (hinb0_4 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S2048x1024.size a
  hwx1_0 : ∀ i : grid1.Coords, EltTy.bits .bf16 = 32 ∨ (Rect.block (s := S2048x1024) S2048x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x8.size a ≤ S2048x8.size a
  hwx1_1 : ∀ i : grid1.Coords, EltTy.bits .bf16 = 32 ∨ (Rect.block (s := S2048x8) S2048x8.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S4096x1024.size a
  hwx1_2 : ∀ i : grid1.Coords, EltTy.bits .f32 = 32 ∨ (Rect.block (s := S4096x1024) S512x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x4096.size a
  hwx1_3 : ∀ i : grid1.Coords, EltTy.bits .f32 = 32 ∨ (Rect.block (s := S1x4096) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x1024.size a ≤ S64x1024.size a
  hwx1_4 : ∀ i : grid1.Coords, EltTy.bits .f32 = 32 ∨ (Rect.block (s := S64x1024) S64x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x64.size a ≤ S8x64.size a
  hwx1_5 : ∀ i : grid1.Coords, EltTy.bits .f32 = 32 ∨ (Rect.block (s := S8x64) S8x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x512.size a ≤ S2048x4096.size a
  hwx1_6 : ∀ i : grid1.Coords, EltTy.bits .f32 = 32 ∨ (Rect.block (s := S2048x4096) S2048x512.size (cc1_transform_6 i) (hinb1_6 i)).WholeWords (EltTy.packing .f32)

variable [Facts₀]

def dot_S512x1024_S64x1024_S512x64_1_1_0_0_n_n : DotDims S512x1024 S64x1024 S512x64 where
  lhsContracting := [1]
  rhsContracting := [1]
  lhsNonContracting := [0]
  rhsNonContracting := [0]
  lhsBatch := []
  rhsBatch := []
  wf := dot_S512x1024_S64x1024_S512x64_1_1_0_0_n_n_wf
def dot_S512x64_S64x8_S512x8_1_0_0_1_n_n : DotDims S512x64 S64x8 S512x8 where
  lhsContracting := [1]
  rhsContracting := [0]
  lhsNonContracting := [0]
  rhsNonContracting := [1]
  lhsBatch := []
  rhsBatch := []
  wf := dot_S512x64_S64x8_S512x8_1_0_0_1_n_n_wf
def dot_S8x64_S512x64_S8x512_1_1_0_0_n_n : DotDims S8x64 S512x64 S8x512 where
  lhsContracting := [1]
  rhsContracting := [1]
  lhsNonContracting := [0]
  rhsNonContracting := [0]
  lhsBatch := []
  rhsBatch := []
  wf := dot_S8x64_S512x64_S8x512_1_1_0_0_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_call0_v0) S2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_cst_0) S64x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3_0) S2048x1024.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3_1) S2048x8.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_call0_v3_0) S2048x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_call0_v3_1) S2048x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v2) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_call0_v1) S64x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_cst) S8x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v4) S2048x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1x2048x1024 : Shape := ⟨3, ![1, 2048, 1024]⟩
abbrev S4096x1024 : Shape := ⟨2, ![4096, 1024]⟩
abbrev S4096 : Shape := ⟨1, ![4096]⟩
abbrev S8x8x1024 : Shape := ⟨3, ![8, 8, 1024]⟩
abbrev S1x2048x8x8 : Shape := ⟨4, ![1, 2048, 8, 8]⟩
abbrev S_ : Shape := ⟨0, ![]⟩
abbrev S8 : Shape := ⟨1, ![8]⟩
abbrev S1x1x1x8 : Shape := ⟨4, ![1, 1, 1, 8]⟩
abbrev S1x2048x8 : Shape := ⟨3, ![1, 2048, 8]⟩
abbrev S4096x8x8 : Shape := ⟨3, ![4096, 8, 8]⟩
abbrev S1x1x8 : Shape := ⟨3, ![1, 1, 8]⟩
abbrev S4096x8 : Shape := ⟨2, ![4096, 8]⟩
abbrev S1x2048x1x8 : Shape := ⟨4, ![1, 2048, 1, 8]⟩
abbrev S1x1x4096x8 : Shape := ⟨4, ![1, 1, 4096, 8]⟩
abbrev S1x2048x4096x8 : Shape := ⟨4, ![1, 2048, 4096, 8]⟩
abbrev S1x2048x4096 : Shape := ⟨3, ![1, 2048, 4096]⟩
abbrev S1x1x4096 : Shape := ⟨3, ![1, 1, 4096]⟩

abbrev nBuf : Space → Nat
  | .hbm => 229
  | .vmem => 0
  | .smem => 0
  | _ => 0

abbrev hbmTy0_0 (i : Nat) : BufTy := match i % 128 with
  | 0 => ⟨S1x2048x1024, .f32⟩
  | 1 => ⟨S4096x1024, .f32⟩
  | 2 => ⟨S4096, .f32⟩
  | 3 => ⟨S8x8x1024, .f32⟩
  | 4 => ⟨S1x2048x8x8, .f32⟩
  | 5 => ⟨S_, .f32⟩
  | 6 => ⟨S1x2048x8x8, .f32⟩
  | 7 => ⟨S1x2048x8x8, .i1⟩
  | 8 => ⟨S8, .i32⟩
  | 9 => ⟨S_, .i32⟩
  | 10 => ⟨S_, .i32⟩
  | 11 => ⟨S_, .i1⟩
  | 12 => ⟨S_, .i32⟩
  | 13 => ⟨S8, .i32⟩
  | 14 => ⟨S8, .i1⟩
  | 15 => ⟨S8, .i1⟩
  | 16 => ⟨S8, .i1⟩
  | 17 => ⟨S_, .i32⟩
  | 18 => ⟨S_, .i32⟩
  | 19 => ⟨S8, .i32⟩
  | 20 => ⟨S8, .i32⟩
  | 21 => ⟨S8, .i32⟩
  | 22 => ⟨S_, .i32⟩
  | 23 => ⟨S8, .i32⟩
  | 24 => ⟨S8, .i32⟩
  | 25 => ⟨S_, .i32⟩
  | 26 => ⟨S8, .i32⟩
  | 27 => ⟨S8, .i32⟩
  | 28 => ⟨S_, .i32⟩
  | 29 => ⟨S8, .i32⟩
  | 30 => ⟨S8, .i1⟩
  | 31 => ⟨S8, .i32⟩
  | 32 => ⟨S_, .i32⟩
  | 33 => ⟨S_, .i32⟩
  | 34 => ⟨S_, .i32⟩
  | 35 => ⟨S_, .i32⟩
  | 36 => ⟨S8, .i32⟩
  | 37 => ⟨S8, .i32⟩
  | 38 => ⟨S_, .i32⟩
  | 39 => ⟨S8, .i32⟩
  | 40 => ⟨S8, .i32⟩
  | 41 => ⟨S8, .i32⟩
  | 42 => ⟨S8, .i32⟩
  | 43 => ⟨S_, .i32⟩
  | 44 => ⟨S8, .i32⟩
  | 45 => ⟨S8, .i1⟩
  | 46 => ⟨S8, .i32⟩
  | 47 => ⟨S_, .i32⟩
  | 48 => ⟨S_, .i32⟩
  | 49 => ⟨S8, .i32⟩
  | 50 => ⟨S8, .i32⟩
  | 51 => ⟨S_, .i32⟩
  | 52 => ⟨S8, .i32⟩
  | 53 => ⟨S8, .i32⟩
  | 54 => ⟨S8, .i32⟩
  | 55 => ⟨S8, .i32⟩
  | 56 => ⟨S_, .i32⟩
  | 57 => ⟨S8, .i32⟩
  | 58 => ⟨S8, .i1⟩
  | 59 => ⟨S8, .i32⟩
  | 60 => ⟨S_, .i32⟩
  | 61 => ⟨S_, .i32⟩
  | 62 => ⟨S8, .i32⟩
  | 63 => ⟨S8, .i32⟩
  | 64 => ⟨S_, .i32⟩
  | 65 => ⟨S8, .i32⟩
  | 66 => ⟨S8, .i32⟩
  | 67 => ⟨S8, .i32⟩
  | 68 => ⟨S8, .i32⟩
  | 69 => ⟨S_, .i32⟩
  | 70 => ⟨S8, .i32⟩
  | 71 => ⟨S8, .i1⟩
  | 72 => ⟨S8, .i32⟩
  | 73 => ⟨S_, .i32⟩
  | 74 => ⟨S_, .i32⟩
  | 75 => ⟨S8, .i32⟩
  | 76 => ⟨S8, .i32⟩
  | 77 => ⟨S_, .i32⟩
  | 78 => ⟨S8, .i32⟩
  | 79 => ⟨S8, .i32⟩
  | 80 => ⟨S8, .i32⟩
  | 81 => ⟨S8, .i32⟩
  | 82 => ⟨S_, .i32⟩
  | 83 => ⟨S8, .i32⟩
  | 84 => ⟨S8, .i1⟩
  | 85 => ⟨S8, .i32⟩
  | 86 => ⟨S_, .i32⟩
  | 87 => ⟨S_, .i32⟩
  | 88 => ⟨S8, .i32⟩
  | 89 => ⟨S8, .i32⟩
  | 90 => ⟨S_, .i32⟩
  | 91 => ⟨S8, .i32⟩
  | 92 => ⟨S8, .i32⟩
  | 93 => ⟨S8, .i32⟩
  | 94 => ⟨S8, .i32⟩
  | 95 => ⟨S_, .i32⟩
  | 96 => ⟨S8, .i32⟩
  | 97 => ⟨S8, .i1⟩
  | 98 => ⟨S8, .i32⟩
  | 99 => ⟨S_, .i32⟩
  | 100 => ⟨S_, .i32⟩
  | 101 => ⟨S8, .i32⟩
  | 102 => ⟨S8, .i32⟩
  | 103 => ⟨S1x2048x8x8, .i32⟩
  | 104 => ⟨S1x1x1x8, .i32⟩
  | 105 => ⟨S1x2048x8x8, .i32⟩
  | 106 => ⟨S1x2048x8x8, .i32⟩
  | 107 => ⟨S_, .i32⟩
  | 108 => ⟨S1x2048x8, .i32⟩
  | 109 => ⟨S4096x8x8, .f32⟩
  | 110 => ⟨S_, .f32⟩
  | 111 => ⟨S4096x8x8, .f32⟩
  | 112 => ⟨S4096x8x8, .i1⟩
  | 113 => ⟨S8, .i32⟩
  | 114 => ⟨S_, .i32⟩
  | 115 => ⟨S_, .i32⟩
  | 116 => ⟨S_, .i1⟩
  | 117 => ⟨S_, .i32⟩
  | 118 => ⟨S8, .i32⟩
  | 119 => ⟨S8, .i1⟩
  | 120 => ⟨S8, .i1⟩
  | 121 => ⟨S8, .i1⟩
  | 122 => ⟨S_, .i32⟩
  | 123 => ⟨S_, .i32⟩
  | 124 => ⟨S8, .i32⟩
  | 125 => ⟨S8, .i32⟩
  | 126 => ⟨S8, .i32⟩
  | 127 => ⟨S_, .i32⟩
  | _ => ⟨S1x2048x1024, .f32⟩

abbrev hbmTy0_1 (i : Nat) : BufTy := match i % 128 with
  | 0 => ⟨S8, .i32⟩
  | 1 => ⟨S8, .i32⟩
  | 2 => ⟨S_, .i32⟩
  | 3 => ⟨S8, .i32⟩
  | 4 => ⟨S8, .i32⟩
  | 5 => ⟨S_, .i32⟩
  | 6 => ⟨S8, .i32⟩
  | 7 => ⟨S8, .i1⟩
  | 8 => ⟨S8, .i32⟩
  | 9 => ⟨S_, .i32⟩
  | 10 => ⟨S_, .i32⟩
  | 11 => ⟨S_, .i32⟩
  | 12 => ⟨S_, .i32⟩
  | 13 => ⟨S8, .i32⟩
  | 14 => ⟨S8, .i32⟩
  | 15 => ⟨S_, .i32⟩
  | 16 => ⟨S8, .i32⟩
  | 17 => ⟨S8, .i32⟩
  | 18 => ⟨S8, .i32⟩
  | 19 => ⟨S8, .i32⟩
  | 20 => ⟨S_, .i32⟩
  | 21 => ⟨S8, .i32⟩
  | 22 => ⟨S8, .i1⟩
  | 23 => ⟨S8, .i32⟩
  | 24 => ⟨S_, .i32⟩
  | 25 => ⟨S_, .i32⟩
  | 26 => ⟨S8, .i32⟩
  | 27 => ⟨S8, .i32⟩
  | 28 => ⟨S_, .i32⟩
  | 29 => ⟨S8, .i32⟩
  | 30 => ⟨S8, .i32⟩
  | 31 => ⟨S8, .i32⟩
  | 32 => ⟨S8, .i32⟩
  | 33 => ⟨S_, .i32⟩
  | 34 => ⟨S8, .i32⟩
  | 35 => ⟨S8, .i1⟩
  | 36 => ⟨S8, .i32⟩
  | 37 => ⟨S_, .i32⟩
  | 38 => ⟨S_, .i32⟩
  | 39 => ⟨S8, .i32⟩
  | 40 => ⟨S8, .i32⟩
  | 41 => ⟨S_, .i32⟩
  | 42 => ⟨S8, .i32⟩
  | 43 => ⟨S8, .i32⟩
  | 44 => ⟨S8, .i32⟩
  | 45 => ⟨S8, .i32⟩
  | 46 => ⟨S_, .i32⟩
  | 47 => ⟨S8, .i32⟩
  | 48 => ⟨S8, .i1⟩
  | 49 => ⟨S8, .i32⟩
  | 50 => ⟨S_, .i32⟩
  | 51 => ⟨S_, .i32⟩
  | 52 => ⟨S8, .i32⟩
  | 53 => ⟨S8, .i32⟩
  | 54 => ⟨S_, .i32⟩
  | 55 => ⟨S8, .i32⟩
  | 56 => ⟨S8, .i32⟩
  | 57 => ⟨S8, .i32⟩
  | 58 => ⟨S8, .i32⟩
  | 59 => ⟨S_, .i32⟩
  | 60 => ⟨S8, .i32⟩
  | 61 => ⟨S8, .i1⟩
  | 62 => ⟨S8, .i32⟩
  | 63 => ⟨S_, .i32⟩
  | 64 => ⟨S_, .i32⟩
  | 65 => ⟨S8, .i32⟩
  | 66 => ⟨S8, .i32⟩
  | 67 => ⟨S_, .i32⟩
  | 68 => ⟨S8, .i32⟩
  | 69 => ⟨S8, .i32⟩
  | 70 => ⟨S8, .i32⟩
  | 71 => ⟨S8, .i32⟩
  | 72 => ⟨S_, .i32⟩
  | 73 => ⟨S8, .i32⟩
  | 74 => ⟨S8, .i1⟩
  | 75 => ⟨S8, .i32⟩
  | 76 => ⟨S_, .i32⟩
  | 77 => ⟨S_, .i32⟩
  | 78 => ⟨S8, .i32⟩
  | 79 => ⟨S8, .i32⟩
  | 80 => ⟨S4096x8x8, .i32⟩
  | 81 => ⟨S1x1x8, .i32⟩
  | 82 => ⟨S4096x8x8, .i32⟩
  | 83 => ⟨S4096x8x8, .i32⟩
  | 84 => ⟨S_, .i32⟩
  | 85 => ⟨S4096x8, .i32⟩
  | 86 => ⟨S1x2048x1x8, .i32⟩
  | 87 => ⟨S1x1x4096x8, .i32⟩
  | 88 => ⟨S1x2048x4096x8, .i32⟩
  | 89 => ⟨S1x2048x4096x8, .i32⟩
  | 90 => ⟨S1x2048x4096x8, .i1⟩
  | 91 => ⟨S_, .i1⟩
  | 92 => ⟨S1x2048x4096, .i1⟩
  | 93 => ⟨S1x2048x4096, .f32⟩
  | 94 => ⟨S1x1x4096, .f32⟩
  | 95 => ⟨S1x2048x4096, .f32⟩
  | 96 => ⟨S1x2048x4096, .f32⟩
  | 97 => ⟨S_, .f32⟩
  | 98 => ⟨S_, .f32⟩
  | 99 => ⟨S1x2048x4096, .f32⟩
  | 100 => ⟨S1x2048x4096, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_c_0 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_c_3 : Ref sig .tc := ⟨.hbm, 18, rfl⟩
abbrev main_call0_v0 : Ref sig .tc := ⟨.hbm, 19, rfl⟩
abbrev main_call0_v1 : Ref sig .tc := ⟨.hbm, 20, rfl⟩
abbrev main_v9 : Ref sig .tc := ⟨.hbm, 21, rfl⟩
abbrev main_c_4 : Ref sig .tc := ⟨.hbm, 22, rfl⟩
abbrev main_v10 : Ref sig .tc := ⟨.hbm, 23, rfl⟩
abbrev main_v11 : Ref sig .tc := ⟨.hbm, 24, rfl⟩
abbrev main_c_5 : Ref sig .tc := ⟨.hbm, 25, rfl⟩
abbrev main_v12 : Ref sig .tc := ⟨.hbm, 26, rfl⟩
abbrev main_v13 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_v14 : Ref sig .tc := ⟨.hbm, 31, rfl⟩
abbrev main_c_6 : Ref sig .tc := ⟨.hbm, 32, rfl⟩
abbrev main_c_7 : Ref sig .tc := ⟨.hbm, 33, rfl⟩
abbrev main_v15 : Ref sig .tc := ⟨.hbm, 34, rfl⟩
abbrev main_c_8 : Ref sig .tc := ⟨.hbm, 35, rfl⟩
abbrev main_v16 : Ref sig .tc := ⟨.hbm, 36, rfl⟩
abbrev main_v17 : Ref sig .tc := ⟨.hbm, 37, rfl⟩
abbrev main_c_9 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_call2_c : Ref sig .tc := ⟨.hbm, 43, rfl⟩
abbrev main_call2_v0 : Ref sig .tc := ⟨.hbm, 44, rfl⟩
abbrev main_call2_v1 : Ref sig .tc := ⟨.hbm, 45, rfl⟩
abbrev main_v22 : Ref sig .tc := ⟨.hbm, 46, rfl⟩
abbrev main_v23 : Ref sig .tc := ⟨.hbm, 47, rfl⟩
abbrev main_c_10 : Ref sig .tc := ⟨.hbm, 48, rfl⟩
abbrev main_v24 : Ref sig .tc := ⟨.hbm, 49, rfl⟩
abbrev main_v25 : Ref sig .tc := ⟨.hbm, 50, rfl⟩
abbrev main_c_11 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_call3_c : Ref sig .tc := ⟨.hbm, 56, rfl⟩
abbrev main_call3_v0 : Ref sig .tc := ⟨.hbm, 57, rfl⟩
abbrev main_call3_v1 : Ref sig .tc := ⟨.hbm, 58, rfl⟩
abbrev main_v30 : Ref sig .tc := ⟨.hbm, 59, rfl⟩
abbrev main_v31 : Ref sig .tc := ⟨.hbm, 60, rfl⟩
abbrev main_c_12 : Ref sig .tc := ⟨.hbm, 61, rfl⟩
abbrev main_v32 : Ref sig .tc := ⟨.hbm, 62, rfl⟩
abbrev main_v33 : Ref sig .tc := ⟨.hbm, 63, rfl⟩
abbrev main_c_13 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_call4_c : Ref sig .tc := ⟨.hbm, 69, rfl⟩
abbrev main_call4_v0 : Ref sig .tc := ⟨.hbm, 70, rfl⟩
abbrev main_call4_v1 : Ref sig .tc := ⟨.hbm, 71, rfl⟩
abbrev main_v38 : Ref sig .tc := ⟨.hbm, 72, rfl⟩
abbrev main_v39 : Ref sig .tc := ⟨.hbm, 73, rfl⟩
abbrev main_c_14 : Ref sig .tc := ⟨.hbm, 74, rfl⟩
abbrev main_v40 : Ref sig .tc := ⟨.hbm, 75, rfl⟩
abbrev main_v41 : Ref sig .tc := ⟨.hbm, 76, rfl⟩
abbrev main_c_15 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_call5_c : Ref sig .tc := ⟨.hbm, 82, rfl⟩
abbrev main_call5_v0 : Ref sig .tc := ⟨.hbm, 83, rfl⟩
abbrev main_call5_v1 : Ref sig .tc := ⟨.hbm, 84, rfl⟩
abbrev main_v46 : Ref sig .tc := ⟨.hbm, 85, rfl⟩
abbrev main_v47 : Ref sig .tc := ⟨.hbm, 86, rfl⟩
abbrev main_c_16 : Ref sig .tc := ⟨.hbm, 87, rfl⟩
abbrev main_v48 : Ref sig .tc := ⟨.hbm, 88, rfl⟩
abbrev main_v49 : Ref sig .tc := ⟨.hbm, 89, rfl⟩
abbrev main_c_17 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_call6_c : Ref sig .tc := ⟨.hbm, 95, rfl⟩
abbrev main_call6_v0 : Ref sig .tc := ⟨.hbm, 96, rfl⟩
abbrev main_call6_v1 : Ref sig .tc := ⟨.hbm, 97, rfl⟩
abbrev main_v54 : Ref sig .tc := ⟨.hbm, 98, rfl⟩
abbrev main_v55 : Ref sig .tc := ⟨.hbm, 99, rfl⟩
abbrev main_c_18 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_c_19 : Ref sig .tc := ⟨.hbm, 107, rfl⟩
abbrev main_v62 : Ref sig .tc := ⟨.hbm, 108, rfl⟩
abbrev main_v63 : Ref sig .tc := ⟨.hbm, 109, rfl⟩
abbrev main_cst_20 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_c_21 : Ref sig .tc := ⟨.hbm, 114, rfl⟩
abbrev main_c_22 : Ref sig .tc := ⟨.hbm, 115, rfl⟩
abbrev main_v67 : Ref sig .tc := ⟨.hbm, 116, rfl⟩
abbrev main_c_23 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_c_24 : Ref sig .tc := ⟨.hbm, 122, rfl⟩
abbrev main_c_25 : Ref sig .tc := ⟨.hbm, 123, rfl⟩
abbrev main_call7_v0 : Ref sig .tc := ⟨.hbm, 124, rfl⟩
abbrev main_call7_v1 : Ref sig .tc := ⟨.hbm, 125, rfl⟩
abbrev main_v72 : Ref sig .tc := ⟨.hbm, 126, rfl⟩
abbrev main_c_26 : Ref sig .tc := ⟨.hbm, 127, rfl⟩
abbrev main_v73 : Ref sig .tc := ⟨.hbm, 128, rfl⟩
abbrev main_v74 : Ref sig .tc := ⟨.hbm, 129, rfl⟩
abbrev main_c_27 : Ref sig .tc := ⟨.hbm, 130, rfl⟩
abbrev main_v75 : Ref sig .tc := ⟨.hbm, 131, rfl⟩
abbrev main_v76 : Ref sig .tc := ⟨.hbm, 132, rfl⟩
abbrev main_call8_c : Ref sig .tc := ⟨.hbm, 133, rfl⟩
abbrev main_call8_v0 : Ref sig .tc := ⟨.hbm, 134, rfl⟩
abbrev main_call8_v1 : Ref sig .tc := ⟨.hbm, 135, rfl⟩
abbrev main_v77 : Ref sig .tc := ⟨.hbm, 136, rfl⟩
abbrev main_c_28 : Ref sig .tc := ⟨.hbm, 137, rfl⟩
abbrev main_c_29 : Ref sig .tc := ⟨.hbm, 138, rfl⟩
abbrev main_v78 : Ref sig .tc := ⟨.hbm, 139, rfl⟩
abbrev main_c_30 : Ref sig .tc := ⟨.hbm, 140, rfl⟩
abbrev main_v79 : Ref sig .tc := ⟨.hbm, 141, rfl⟩
abbrev main_v80 : Ref sig .tc := ⟨.hbm, 142, rfl⟩
abbrev main_c_31 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_call9_c : Ref sig .tc := ⟨.hbm, 148, rfl⟩
abbrev main_call9_v0 : Ref sig .tc := ⟨.hbm, 149, rfl⟩
abbrev main_call9_v1 : Ref sig .tc := ⟨.hbm, 150, rfl⟩
abbrev main_v85 : Ref sig .tc := ⟨.hbm, 151, rfl⟩
abbrev main_v86 : Ref sig .tc := ⟨.hbm, 152, rfl⟩
abbrev main_c_32 : Ref sig .tc := ⟨.hbm, 153, rfl⟩
abbrev main_v87 : Ref sig .tc := ⟨.hbm, 154, rfl⟩
abbrev main_v88 : Ref sig .tc := ⟨.hbm, 155, rfl⟩
abbrev main_c_33 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_call10_c : Ref sig .tc := ⟨.hbm, 161, rfl⟩
abbrev main_call10_v0 : Ref sig .tc := ⟨.hbm, 162, rfl⟩
abbrev main_call10_v1 : Ref sig .tc := ⟨.hbm, 163, rfl⟩
abbrev main_v93 : Ref sig .tc := ⟨.hbm, 164, rfl⟩
abbrev main_v94 : Ref sig .tc := ⟨.hbm, 165, rfl⟩
abbrev main_c_34 : Ref sig .tc := ⟨.hbm, 166, rfl⟩
abbrev main_v95 : Ref sig .tc := ⟨.hbm, 167, rfl⟩
abbrev main_v96 : Ref sig .tc := ⟨.hbm, 168, rfl⟩
abbrev main_c_35 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_call11_c : Ref sig .tc := ⟨.hbm, 174, rfl⟩
abbrev main_call11_v0 : Ref sig .tc := ⟨.hbm, 175, rfl⟩
abbrev main_call11_v1 : Ref sig .tc := ⟨.hbm, 176, rfl⟩
abbrev main_v101 : Ref sig .tc := ⟨.hbm, 177, rfl⟩
abbrev main_v102 : Ref sig .tc := ⟨.hbm, 178, rfl⟩
abbrev main_c_36 : Ref sig .tc := ⟨.hbm, 179, rfl⟩
abbrev main_v103 : Ref sig .tc := ⟨.hbm, 180, rfl⟩
abbrev main_v104 : Ref sig .tc := ⟨.hbm, 181, rfl⟩
abbrev main_c_37 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_call12_c : Ref sig .tc := ⟨.hbm, 187, rfl⟩
abbrev main_call12_v0 : Ref sig .tc := ⟨.hbm, 188, rfl⟩
abbrev main_call12_v1 : Ref sig .tc := ⟨.hbm, 189, rfl⟩
abbrev main_v109 : Ref sig .tc := ⟨.hbm, 190, rfl⟩
abbrev main_v110 : Ref sig .tc := ⟨.hbm, 191, rfl⟩
abbrev main_c_38 : Ref sig .tc := ⟨.hbm, 192, rfl⟩
abbrev main_v111 : Ref sig .tc := ⟨.hbm, 193, rfl⟩
abbrev main_v112 : Ref sig .tc := ⟨.hbm, 194, rfl⟩
abbrev main_c_39 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩
abbrev main_v116 : Ref sig .tc := ⟨.hbm, 199, rfl⟩
abbrev main_call13_c : Ref sig .tc := ⟨.hbm, 200, rfl⟩
abbrev main_call13_v0 : Ref sig .tc := ⟨.hbm, 201, rfl⟩
abbrev main_call13_v1 : Ref sig .tc := ⟨.hbm, 202, rfl⟩
abbrev main_v117 : Ref sig .tc := ⟨.hbm, 203, rfl⟩
abbrev main_v118 : Ref sig .tc := ⟨.hbm, 204, rfl⟩
abbrev main_c_40 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_c_41 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_v129 : Ref sig .tc := ⟨.hbm, 217, rfl⟩
abbrev main_v130 : Ref sig .tc := ⟨.hbm, 218, rfl⟩
abbrev main_c_42 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_v135 : Ref sig .tc := ⟨.hbm, 224, rfl⟩
abbrev main_cst_43 : Ref sig .tc := ⟨.hbm, 225, rfl⟩
abbrev main_call14_v0 : Ref sig .tc := ⟨.hbm, 226, rfl⟩
abbrev main_call14_v1 : Ref sig .tc := ⟨.hbm, 227, rfl⟩
abbrev main_v136 : Ref sig .tc := ⟨.hbm, 228, rfl⟩

abbrev nD : Nat := 1
abbrev τ : Topo := Topo.v7x

variable {F : FTy → Type} [FloatOps F]

class Facts₀ : Prop where
  bcast_S_S1x2048x8x8 : S_.BroadcastsInDim S1x2048x8x8 (![] : Fin 0 → Fin S1x2048x8x8.rank)
  bcast_S_S8 : S_.BroadcastsInDim S8 (![] : Fin 0 → Fin S8.rank)
  natLt_1_32 : 1 < 32
  bcast_S8_S1x1x1x8_3 : S8.BroadcastsInDim S1x1x1x8 (![3] : Fin 1 → Fin S1x1x1x8.rank)
  bcast_S1x1x1x8_S1x2048x8x8_0_1_2_3 : S1x1x1x8.BroadcastsInDim S1x2048x8x8 (![0, 1, 2, 3] : Fin 4 → Fin S1x2048x8x8.rank)
  reducesTo_S1x2048x8x8_S1x2048x8_d3 : S1x2048x8x8.ReducesTo [3] S1x2048x8
  h_S_ : 0 < S_.numel
  bcast_S_S4096x8x8 : S_.BroadcastsInDim S4096x8x8 (![] : Fin 0 → Fin S4096x8x8.rank)
  bcast_S8_S1x1x8_2 : S8.BroadcastsInDim S1x1x8 (![2] : Fin 1 → Fin S1x1x8.rank)
  bcast_S1x1x8_S4096x8x8_0_1_2 : S1x1x8.BroadcastsInDim S4096x8x8 (![0, 1, 2] : Fin 3 → Fin S4096x8x8.rank)
  reducesTo_S4096x8x8_S4096x8_d2 : S4096x8x8.ReducesTo [2] S4096x8
  bcast_S1x2048x8_S1x2048x1x8_0_1_3 : S1x2048x8.BroadcastsInDim S1x2048x1x8 (![0, 1, 3] : Fin 3 → Fin S1x2048x1x8.rank)
  bcast_S4096x8_S1x1x4096x8_2_3 : S4096x8.BroadcastsInDim S1x1x4096x8 (![2, 3] : Fin 2 → Fin S1x1x4096x8.rank)
  bcast_S1x2048x1x8_S1x2048x4096x8_0_1_2_3 : S1x2048x1x8.BroadcastsInDim S1x2048x4096x8 (![0, 1, 2, 3] : Fin 4 → Fin S1x2048x4096x8.rank)
  bcast_S1x1x4096x8_S1x2048x4096x8_0_1_2_3 : S1x1x4096x8.BroadcastsInDim S1x2048x4096x8 (![0, 1, 2, 3] : Fin 4 → Fin S1x2048x4096x8.rank)
  reducesTo_S1x2048x4096x8_S1x2048x4096_d3 : S1x2048x4096x8.ReducesTo [3] S1x2048x4096
  bcast_S4096_S1x1x4096_2 : S4096.BroadcastsInDim S1x1x4096 (![2] : Fin 1 → Fin S1x1x4096.rank)
  bcast_S1x1x4096_S1x2048x4096_0_1_2 : S1x1x4096.BroadcastsInDim S1x2048x4096 (![0, 1, 2] : Fin 3 → Fin S1x2048x4096.rank)
  bcast_S_S1x2048x4096 : S_.BroadcastsInDim S1x2048x4096 (![] : Fin 0 → Fin S1x2048x4096.rank)
  dot_S1x2048x1024_S8x8x1024_S1x2048x8x8_2_2_01_01_n_n_wf : DotDims.WF S1x2048x1024 S8x8x1024 S1x2048x8x8 [2] [2] [0, 1] [0, 1] [] []
  dot_S4096x1024_S8x8x1024_S4096x8x8_1_2_0_01_n_n_wf : DotDims.WF S4096x1024 S8x8x1024 S4096x8x8 [1] [2] [0] [0, 1] [] []
  dot_S1x2048x1024_S4096x1024_S1x2048x4096_2_1_01_0_n_n_wf : DotDims.WF S1x2048x1024 S4096x1024 S1x2048x4096 [2] [1] [0, 1] [0] [] []

variable [Facts₀]

def dot_S1x2048x1024_S8x8x1024_S1x2048x8x8_2_2_01_01_n_n : DotDims S1x2048x1024 S8x8x1024 S1x2048x8x8 where
  lhsContracting := [2]
  rhsContracting := [2]
  lhsNonContracting := [0, 1]
  rhsNonContracting := [0, 1]
  lhsBatch := []
  rhsBatch := []
  wf := dot_S1x2048x1024_S8x8x1024_S1x2048x8x8_2_2_01_01_n_n_wf
def dot_S4096x1024_S8x8x1024_S4096x8x8_1_2_0_01_n_n : DotDims S4096x1024 S8x8x1024 S4096x8x8 where
  lhsContracting := [1]
  rhsContracting := [2]
  lhsNonContracting := [0]
  rhsNonContracting := [0, 1]
  lhsBatch := []
  rhsBatch := []
  wf := dot_S4096x1024_S8x8x1024_S4096x8x8_1_2_0_01_n_n_wf
def dot_S1x2048x1024_S4096x1024_S1x2048x4096_2_1_01_0_n_n : DotDims S1x2048x1024 S4096x1024 S1x2048x4096 where
  lhsContracting := [2]
  rhsContracting := [1]
  lhsNonContracting := [0, 1]
  rhsNonContracting := [0]
  lhsBatch := []
  rhsBatch := []
  wf := dot_S1x2048x1024_S4096x1024_S1x2048x4096_2_1_01_0_n_n_wf

class Facts : Prop extends Facts₀ where

variable [Facts]
-- ==== Proof.KernelArrays.lean ====
/-
  What the idealized kernel's buffers hold at the boundaries of its two regions, read off the launch memory.

  Before the first region the host reshapes the tokens [1, 2048, 1024] to [2048, 1024], the projections
  [8, 8, 1024] to [64, 1024] (row 8·t + h is projection (t, h)) and the bias [4096] to [1, 4096], and writes the two
  constant packing matrices; the weight array is not written. After the second region the host reshapes its
  [2048, 4096] result to [1, 2048, 4096]. Each is read here at an index by row-major positions.
-/
import proofs.«148647_g61529701483102_cont_9to1_m_177_19_alg».proof.Proof.Gen.KernelIdeal.Frame
import Idealize.ShloMosaic.Lib.StableHlo.Run
import Idealize.ShloMosaic.Lib.ValueIdx
import Idealize.ShloMosaic.Lib.Pipeline.Value

set_option maxRecDepth 16384

noncomputable section

namespace Cert.KernelIdeal.HashArrays

open Cert.KernelIdeal Cert.KernelIdeal.Gen
open Idealize.ShloMosaic Idealize.ShloMosaic.TcCoe Idealize.ShloMosaic.Tactic Idealize.ShloMosaic.StableHlo
open Idealize.SL Idealize.SL.Sem
open Idealize.ShloMosaic.ValueIdx

variable {F : FTy → Type} [FloatOps F]
variable (m : (ℓ : Loc nD τ sig) → Buf (Elt F) ℓ) (ρ : Dev nD → PrngReg)

/-! ## The first host stretch -/

/-- The tokens as the first region finds them: the argument reshaped to [2048, 1024]. -/
theorem V1_tokens (c : Dev nD) : (V1 m ρ c main_call0_v0 : S2048x1024.Idx → Elt F .f32)
    = shapeCast S2048x1024 (m ((c : Thread nD τ).loc main_arg0)) shapeCasts_S1x2048x1024_S2048x1024 := by
  show StableHlo.after hostOps0 (W0 m ρ c) (Proc.devRef .tc main_call0_v0) = _
  after_results
  rfl

/-- The projections as the regions find them: the argument reshaped to [64, 1024]. -/
theorem V1_proj (c : Dev nD) : (V1 m ρ c main_call0_v1 : S64x1024.Idx → Elt F .f32)
    = shapeCast S64x1024 (m ((c : Thread nD τ).loc main_arg3)) shapeCasts_S8x8x1024_S64x1024 := by
  show StableHlo.after hostOps0 (W0 m ρ c) (Proc.devRef .tc main_call0_v1) = _
  after_results
  rfl

/-- The bias as the second region finds it: the argument reshaped to one row [1, 4096]. -/
theorem V1_bias (c : Dev nD) : (V1 m ρ c main_call0_v2 : S1x4096.Idx → Elt F .f32)
    = shapeCast S1x4096 (m ((c : Thread nD τ).loc main_arg2)) shapeCasts_S4096_S1x4096 := by
  show StableHlo.after hostOps0 (W0 m ρ c) (Proc.devRef .tc main_call0_v2) = _
  after_results
  rfl

/-- The [64, 8] packing matrix: the constant's 512 words, row-major. -/
theorem V1_pack (c : Dev nD) : (V1 m ρ c main_call0_cst_0 : S64x8.Idx → Elt F .f32)
    = fun i => FloatOps.ofBits .f32 (lit1 (S64x8.rowMajor i)) := by
  show StableHlo.after hostOps0 (W0 m ρ c) (Proc.devRef .tc main_call0_cst_0) = _
  after_results
  rfl

/-- The [8, 64] packing matrix (the transpose): the constant's 512 words, row-major. -/
theorem V1_packT (c : Dev nD) : (V1 m ρ c main_call0_cst : S8x64.Idx → Elt F .f32)
    = fun i => FloatOps.ofBits .f32 (lit0 (S8x64.rowMajor i)) := by
  show StableHlo.after hostOps0 (W0 m ρ c) (Proc.devRef .tc main_call0_cst) = _
  after_results
  rfl

/-- No host operation of the first stretch writes the weight array. -/
theorem V1_weights (c : Dev nD) : V1 m ρ c main_arg1 = m ((c : Thread nD τ).loc main_arg1) := by
  show StableHlo.after hostOps0 (W0 m ρ c) (Proc.devRef .tc main_arg1) = _
  after_results

/-! ## The reshapes read at an index -/

/-- Token row `s`, entry `d`, is the argument's entry (0, s, d). -/
theorem tokens_apply (c : Dev nD) (s : Fin 2048) (d : Fin 1024) :
    (V1 m ρ c main_call0_v0 : S2048x1024.Idx → Elt F .f32) (ix2 s d) = m ((c : Thread nD τ).loc main_arg0) (ix3 (0 : Fin 1) s d) := by
  rw [V1_tokens]
  refine shapeCast_apply _ _ (ix2 s d) (ix3 (0 : Fin 1) s d) ?_
  rw [Shape.rowMajor_val_three, Shape.rowMajor_val_two]
  show (0 * 2048 + s.val) * 1024 + d.val = s.val * 1024 + d.val
  omega

/-- Row 8·t + h of the reshaped projections, entry `d`, is the argument's entry (t, h, d). -/
theorem proj_apply (c : Dev nD) (t h : Fin 8) (d : Fin 1024) :
    (V1 m ρ c main_call0_v1 : S64x1024.Idx → Elt F .f32) (ix2 (⟨8 * t.val + h.val, by have := t.isLt; have := h.isLt; omega⟩ : Fin 64) d)
      = m ((c : Thread nD τ).loc main_arg3) (ix3 t h d) := by
  rw [V1_proj]
  refine shapeCast_apply _ _ (ix2 (⟨8 * t.val + h.val, by have := t.isLt; have := h.isLt; omega⟩ : Fin 64) d) (ix3 t h d) ?_
  rw [Shape.rowMajor_val_three, Shape.rowMajor_val_two]
  show (t.val * 8 + h.val) * 1024 + d.val = (8 * t.val + h.val) * 1024 + d.val
  omega

/-- Entry (0, o) of the bias row is the argument's entry `o`. -/
theorem bias_apply (c : Dev nD) (o : Fin 4096) :
    (V1 m ρ c main_call0_v2 : S1x4096.Idx → Elt F .f32) (ix2 (0 : Fin 1) o) = m ((c : Thread nD τ).loc main_arg2) (ix1 o) := by
  rw [V1_bias]
  refine shapeCast_apply _ _ (ix2 (0 : Fin 1) o) (ix1 o) ?_
  rw [Shape.rowMajor_val_one, Shape.rowMajor_val_two]
  show o.val = 0 * 4096 + o.val
  omega

/-! ## The last host stretch -/

/-- The result buffer after the last stretch: the second region's [2048, 4096] output reshaped to [1, 2048, 4096]. -/
theorem W4_result (c : Dev nD) : (W4 m ρ c (Proc.devRef .tc main_v0) : S1x2048x4096.Idx → Elt F .f32)
    = shapeCast S1x2048x4096 (W3 m ρ c (Proc.devRef .tc main_call0_v4)) shapeCasts_S2048x4096_S1x2048x4096 := by
  show StableHlo.after hostOps2 (W3 m ρ c) (Proc.devRef .tc main_v0) = _
  after_results
  rfl

/-- Entry (0, s, o) of the result is entry (s, o) of the second region's output. -/
theorem result_apply (c : Dev nD) (i : S1x2048x4096.Idx) :
    (W4 m ρ c (Proc.devRef .tc main_v0) : S1x2048x4096.Idx → Elt F .f32) i
      = (W3 m ρ c (Proc.devRef .tc main_call0_v4) : S2048x4096.Idx → Elt F .f32) (ix2 (i 1 : Fin 2048) (i 2 : Fin 4096)) := by
  rw [W4_result]
  refine shapeCast_apply _ _ i (ix2 (i 1 : Fin 2048) (i 2 : Fin 4096)) ?_
  rw [Shape.rowMajor_val_three, Shape.rowMajor_val_two]
  have h0 : (i 0).val = 0 := by have := (i 0).isLt; simp at this; omega
  show (i 1 : Fin 2048).val * 4096 + (i 2 : Fin 4096).val = ((i 0).val * 2048 + (i 1).val) * 4096 + (i 2).val
  rw [h0]
  omega

/-! ## Between the regions: the first region's outputs are its write-backs, everything else is as the host left it -/

/-- The second region finds the token window's array at what the first region's write-backs leave in output 3. -/
theorem V2_tokens (c : Dev nD) : V2 m ρ c main_call0_v3_0 = (dat0 (V1 m ρ) c).arrAt 3 cfg0.N := W2_arr m ρ c 3
/-- The second region finds the codes window's array at what the first region's write-backs leave in output 4. -/
theorem V2_codes (c : Dev nD) : V2 m ρ c main_call0_v3_1 = (dat0 (V1 m ρ) c).arrAt 4 cfg0.N := W2_arr m ρ c 4
/-- The first region does not change the weight array, -/
theorem V2_weights (c : Dev nD) : V2 m ρ c main_arg1 = m ((c : Thread nD τ).loc main_arg1) :=
  (W2_of_ne m ρ c main_arg1 (by decide)).trans (V1_weights m ρ c)
/-- nor the bias row, -/
theorem V2_bias (c : Dev nD) : V2 m ρ c main_call0_v2 = V1 m ρ c main_call0_v2 := W2_of_ne m ρ c main_call0_v2 (by decide)
/-- nor the transposed packing matrix; -/
theorem V2_packT (c : Dev nD) : V2 m ρ c main_call0_cst = V1 m ρ c main_call0_cst := W2_of_ne m ρ c main_call0_cst (by decide)
/-- the projections it only reads. -/
theorem V2_proj (c : Dev nD) : V2 m ρ c main_call0_v1 = V1 m ρ c main_call0_v1 :=
  (W2_arr m ρ c 1).trans (((dat0 (V1 m ρ) c).arrAt_in 1 rfl _).trans (A_eq0 (V1 m ρ) c 1))

/-- The second region's output array after its run is what its write-backs leave. -/
theorem W3_out (c : Dev nD) : W3 m ρ c (Proc.devRef .tc main_call0_v4) = (dat1 (V2 m ρ) c).arrAt 6 cfg1.N := W3_arr m ρ c 6

end Cert.KernelIdeal.HashArrays

end
-- ==== Proof.HashMask.lean ====
/-
  A dense layer whose output entry (s, o) is kept only when token `s` and neuron `o` collide under a
  signed-random-projection hash, stated as ONE function of the four argument arrays on the extended reals.

  For a row `v` of 1024 entries, hash table `t` and hash `h`, the sign bit is "the inner product of `v` with
  projection (t, h) is strictly positive". A table's code is the 8 sign bits of that table; two rows collide when
  in SOME table all 8 sign bits agree (equal codes, whichever way the 8 bits are packed into a number). The dense
  value is the inner product of token `s` with weight row `o`, plus the bias of `o`; a non-colliding entry is zero.
-/
import Idealize.ShloMosaic.PureOps.Ideal
import Idealize.ShloMosaic.Lib.ValueIdx

noncomputable section

open scoped BigOperators

namespace Cert.HashMask

open Idealize.ShloMosaic Idealize.ShloMosaic.ValueIdx

/-- Sign bit `h` of table `t` for the row `v`: its inner product with projection `(t, h)` is strictly positive. -/
def bit (v : Fin 1024 → EReal) (p : Fin 8 → Fin 8 → Fin 1024 → EReal) (t h : Fin 8) : Prop :=
  0 < ∑ d : Fin 1024, v d * p t h d

/-- Rows `u` and `v` collide: in some table their 8 sign bits agree. -/
def collide (u v : Fin 1024 → EReal) (p : Fin 8 → Fin 8 → Fin 1024 → EReal) : Prop :=
  ∃ t : Fin 8, ∀ h : Fin 8, bit u p t h ↔ bit v p t h

/-- The dense value: the inner product of the two rows plus the bias. -/
def dense (u v : Fin 1024 → EReal) (β : EReal) : EReal :=
  ∑ d : Fin 1024, u d * v d + β

open Classical in
/-- The masked entry: the dense value where the rows collide, zero elsewhere. -/
def entry (u v : Fin 1024 → EReal) (β : EReal) (p : Fin 8 → Fin 8 → Fin 1024 → EReal) : EReal :=
  if collide u v p then dense u v β else 0

/-- The result array [1, 2048, 4096] as a function of the argument arrays x [1, 2048, 1024], W [4096, 1024],
    b [4096] and proj [8, 8, 1024]: entry (0, s, o) is the masked entry of token row `s` and weight row `o`. -/
def result (x : (⟨3, ![1, 2048, 1024]⟩ : Shape).Idx → EReal) (w : (⟨2, ![4096, 1024]⟩ : Shape).Idx → EReal)
    (b : (⟨1, ![4096]⟩ : Shape).Idx → EReal) (proj : (⟨3, ![8, 8, 1024]⟩ : Shape).Idx → EReal) :
    (⟨3, ![1, 2048, 4096]⟩ : Shape).Idx → EReal :=
  fun i => entry (fun d => x (ix3 (0 : Fin 1) (i 1 : Fin 2048) d)) (fun d => w (ix2 (i 2 : Fin 4096) d))
    (b (ix1 (i 2 : Fin 4096))) (fun t h d => proj (ix3 t h d))

end Cert.HashMask

end
-- ==== Proof.PackedCode.lean ====
/-
  A table's hash code packed into one number on the extended reals: the sum over the table's 8 sign bits of
  2^h where bit h is set. The packing matrix that produces it from the 64 sign bits of a row (8 tables of 8
  hashes, bit (t, h) at position 8·t + h) has the entry 2^(j mod 8) at (j, t) when j div 8 = t and zero elsewhere.
-/
import proofs.«148647_g61529701483102_cont_9to1_m_177_19_alg».proof.Proof.HashMask

noncomputable section

open scoped BigOperators

namespace Cert.HashMask

open Idealize.ShloMosaic Idealize.ShloMosaic.ValueIdx

/-- The packing weight of position `j` (of 64) for table `t`: 2^(j mod 8) on the table's own 8 positions, zero elsewhere. -/
def packWeight (j : Fin 64) (t : Fin 8) : EReal :=
  if j.val / 8 = t.val then ((2 ^ (j.val % 8) : ℕ) : EReal) else 0

open Classical in
/-- Table `t`'s code of the row `u`: the sum of 2^h over the set sign bits. -/
def fcode (u : Fin 1024 → EReal) (p : Fin 8 → Fin 8 → Fin 1024 → EReal) (t : Fin 8) : EReal :=
  ∑ h : Fin 8, if bit u p t h then ((2 ^ h.val : ℕ) : EReal) else 0

/-- The 64 rows of a [64, 1024] array read as the projections (t, h): row 8·t + h. -/
def rows64 (P : (⟨2, ![64, 1024]⟩ : Shape).Idx → EReal) : Fin 8 → Fin 8 → Fin 1024 → EReal :=
  fun t h d => P (ix2 (⟨8 * t.val + h.val, by have := t.isLt; have := h.isLt; omega⟩ : Fin 64) d)

end Cert.HashMask

end
-- ==== Proof.PackWords.lean ====
/-
  The two constant packing matrices as numbers. Entry (j, t) of the [64, 8] matrix, and entry (t, j) of its
  [8, 64] transpose, is 2^(j mod 8) when j div 8 = t and zero elsewhere: the float32 word of 2^h for h below 8 is
  the word of 1.0 with h added to its exponent field, and each constant's 512 words are that word or the zero word,
  position by position.
-/
import proofs.«148647_g61529701483102_cont_9to1_m_177_19_alg».proof.Proof.KernelArrays
import proofs.«148647_g61529701483102_cont_9to1_m_177_19_alg».proof.Proof.PackedCode

set_option maxRecDepth 16384

noncomputable section

namespace Cert.KernelIdeal.PackWords

open Cert.KernelIdeal Cert.KernelIdeal.Gen Cert.KernelIdeal.HashArrays Cert.HashMask
open Idealize.ShloMosaic Idealize.ShloMosaic.TcCoe Idealize.SL.Sem
open Idealize.ShloMosaic.ValueIdx

/-- The float32 word of 2^h for h below 8: the exponent field counts up from that of 1.0. -/
def powWord (h : Nat) : BitVec 32 := BitVec.ofNat 32 (0x3F800000 + h * 0x800000)

/-- The [64, 8] constant, word by word: position n = 8·j + t holds the word of 2^(j mod 8) when j div 8 = t (stated over the table of naturals the constant reads). -/
theorem lit1_eq : ∀ n : Fin 512, lit1t n.val = if (n.val / 8) / 8 = n.val % 8 then powWord ((n.val / 8) % 8) else 0#32 := by
  decide +kernel

/-- The [8, 64] constant, word by word: position n = 64·t + j holds the word of 2^(j mod 8) when j div 8 = t. -/
theorem lit0_eq : ∀ n : Fin 512, lit0t n.val = if (n.val % 64) / 8 = n.val / 64 then powWord ((n.val % 64) % 8) else 0#32 := by
  decide +kernel

theorem ofBits_zero : Ideal.ofBits .f32 0#32 = 0 := by
  simp [Ideal.ofBits, Ideal.ieee]

theorem ofBits_pow0 : Ideal.ofBits .f32 0x3F800000#32 = ((1 : ℝ) : EReal) := by
  simp [Ideal.ofBits, Ideal.ieee, -EReal.coe_mul]; norm_num
theorem ofBits_pow1 : Ideal.ofBits .f32 0x40000000#32 = ((2 : ℝ) : EReal) := by
  simp [Ideal.ofBits, Ideal.ieee, -EReal.coe_mul]; norm_num
theorem ofBits_pow2 : Ideal.ofBits .f32 0x40800000#32 = ((4 : ℝ) : EReal) := by
  simp [Ideal.ofBits, Ideal.ieee, -EReal.coe_mul]; norm_num
theorem ofBits_pow3 : Ideal.ofBits .f32 0x41000000#32 = ((8 : ℝ) : EReal) := by
  simp [Ideal.ofBits, Ideal.ieee, -EReal.coe_mul]; norm_num
theorem ofBits_pow4 : Ideal.ofBits .f32 0x41800000#32 = ((16 : ℝ) : EReal) := by
  simp [Ideal.ofBits, Ideal.ieee, -EReal.coe_mul]; norm_num
theorem ofBits_pow5 : Ideal.ofBits .f32 0x42000000#32 = ((32 : ℝ) : EReal) := by
  simp [Ideal.ofBits, Ideal.ieee, -EReal.coe_mul]; norm_num
theorem ofBits_pow6 : Ideal.ofBits .f32 0x42800000#32 = ((64 : ℝ) : EReal) := by
  simp [Ideal.ofBits, Ideal.ieee, -EReal.coe_mul]; norm_num
theorem ofBits_pow7 : Ideal.ofBits .f32 0x43000000#32 = ((128 : ℝ) : EReal) := by
  simp [Ideal.ofBits, Ideal.ieee, -EReal.coe_mul]; norm_num

/-- The word of 2^h denotes 2^h. -/
theorem ofBits_powWord : ∀ h : Fin 8, Ideal.ofBits .f32 (powWord h.val) = ((2 ^ h.val : ℕ) : EReal) := by
  intro h
  fin_cases h
  · show Ideal.ofBits .f32 0x3F800000#32 = _; rw [ofBits_pow0]; norm_cast
  · show Ideal.ofBits .f32 0x40000000#32 = _; rw [ofBits_pow1]; norm_cast
  · show Ideal.ofBits .f32 0x40800000#32 = _; rw [ofBits_pow2]; norm_cast
  · show Ideal.ofBits .f32 0x41000000#32 = _; rw [ofBits_pow3]; norm_cast
  · show Ideal.ofBits .f32 0x41800000#32 = _; rw [ofBits_pow4]; norm_cast
  · show Ideal.ofBits .f32 0x42000000#32 = _; rw [ofBits_pow5]; norm_cast
  · show Ideal.ofBits .f32 0x42800000#32 = _; rw [ofBits_pow6]; norm_cast
  · show Ideal.ofBits .f32 0x43000000#32 = _; rw [ofBits_pow7]; norm_cast

/-- A word that is the word of 2^(j mod 8) on the table's own positions and the zero word elsewhere denotes the packing weight. -/
theorem ofBits_weight (j : Fin 64) (t : Fin 8) :
    Ideal.ofBits .f32 (if j.val / 8 = t.val then powWord (j.val % 8) else 0#32) = packWeight j t := by
  unfold packWeight
  by_cases h : j.val / 8 = t.val
  · rw [if_pos h, if_pos h]
    exact ofBits_powWord ⟨j.val % 8, Nat.mod_lt _ (by decide)⟩
  · rw [if_neg h, if_neg h]
    exact ofBits_zero

variable (m : (ℓ : Loc nD τ sig) → Buf (Elt Ideal) ℓ) (ρ : Dev nD → PrngReg)

/-- Entry (j, t) of the [64, 8] packing matrix as the first region finds it. -/
theorem pack_apply (c : Dev nD) (j : Fin 64) (t : Fin 8) :
    (V1 m ρ c main_call0_cst_0 : S64x8.Idx → EReal) (ix2 j t) = packWeight j t := by
  rw [V1_pack]
  show Ideal.ofBits .f32 (lit1t (S64x8.rowMajor (ix2 j t)).val) = _
  have hn : (S64x8.rowMajor (ix2 j t)).val = j.val * 8 + t.val := by rw [Shape.rowMajor_val_two]; rfl
  have hj := j.isLt
  have ht := t.isLt
  have hl := lit1_eq ⟨j.val * 8 + t.val, by omega⟩
  simp only [] at hl
  rw [show (j.val * 8 + t.val) / 8 = j.val by omega, show (j.val * 8 + t.val) % 8 = t.val by omega] at hl
  rw [hn, hl]
  exact ofBits_weight j t

/-- Entry (t, j) of the [8, 64] packing matrix as the first stretch leaves it. -/
theorem packT_apply (c : Dev nD) (t : Fin 8) (j : Fin 64) :
    (V1 m ρ c main_call0_cst : S8x64.Idx → EReal) (ix2 t j) = packWeight j t := by
  rw [V1_packT]
  show Ideal.ofBits .f32 (lit0t (S8x64.rowMajor (ix2 t j)).val) = _
  have hn : (S8x64.rowMajor (ix2 t j)).val = t.val * 64 + j.val := by rw [Shape.rowMajor_val_two]; rfl
  have hj := j.isLt
  have ht := t.isLt
  have hl := lit0_eq ⟨t.val * 64 + j.val, by omega⟩
  simp only [] at hl
  rw [show (t.val * 64 + j.val) % 64 = j.val by omega, show (t.val * 64 + j.val) / 64 = t.val by omega] at hl
  rw [hn, hl]
  exact ofBits_weight j t

end Cert.KernelIdeal.PackWords

end
-- ==== Proof.PayMatmul.lean ====
/-
  The kernel's four matrix products read at an index, on the extended reals: each is the sum over the
  contraction index of the products of the two operands' entries. Three of them contract the second axis of both
  operands (rows against rows); the first kernel's packing product contracts the left operand's second axis with
  the right operand's first (rows against columns).
-/
import proofs.«148647_g61529701483102_cont_9to1_m_177_19_alg».proof.Proof.Gen.KernelIdeal.Skeleton
import Idealize.ShloMosaic.Lib.ValueIdx
import Idealize.ShloMosaic.PureOps.Ideal.Laws

noncomputable section

open scoped BigOperators

namespace Cert.PayHash

open Cert.KernelIdeal Cert.KernelIdeal.Gen Idealize.ShloMosaic Idealize.ShloMosaic.ValueIdx

/-- The left operand's non-contracted coordinate is the output's row coordinate. -/
theorem proj_lhs_keep (i : S512x64.Idx) (c : dot_S512x1024_S64x1024_S512x64_1_1_0_0_n_n.contr.Idx) :
    (dot_S512x1024_S64x1024_S512x64_1_1_0_0_n_n.lhsIdx i c 0).val = (i 0).val := by
  unfold DotDims.lhsIdx
  rw [dif_neg (show ¬(0 : Fin S512x1024.rank) ∈ dot_S512x1024_S64x1024_S512x64_1_1_0_0_n_n.lhsBatch by decide), dif_pos (show (0 : Fin S512x1024.rank) ∈ dot_S512x1024_S64x1024_S512x64_1_1_0_0_n_n.lhsNonContracting by decide)]
  rfl
/-- The left operand's contracted coordinate is the contraction index. -/
theorem proj_lhs_contr (i : S512x64.Idx) (c : dot_S512x1024_S64x1024_S512x64_1_1_0_0_n_n.contr.Idx) :
    (dot_S512x1024_S64x1024_S512x64_1_1_0_0_n_n.lhsIdx i c 1).val = (c ⟨0, by decide⟩).val :=
  dot_S512x1024_S64x1024_S512x64_1_1_0_0_n_n.lhsIdx_val_of_single rfl i c
/-- The right operand's non-contracted coordinate is the output's column coordinate. -/
theorem proj_rhs_keep (i : S512x64.Idx) (c : dot_S512x1024_S64x1024_S512x64_1_1_0_0_n_n.contr.Idx) :
    (dot_S512x1024_S64x1024_S512x64_1_1_0_0_n_n.rhsIdx i c 0).val = (i 1).val := by
  unfold DotDims.rhsIdx
  rw [dif_neg (show ¬(0 : Fin S64x1024.rank) ∈ dot_S512x1024_S64x1024_S512x64_1_1_0_0_n_n.rhsBatch by decide), dif_pos (show (0 : Fin S64x1024.rank) ∈ dot_S512x1024_S64x1024_S512x64_1_1_0_0_n_n.rhsNonContracting by decide)]
  rfl
/-- The right operand's contracted coordinate is the contraction index. -/
theorem proj_rhs_contr (i : S512x64.Idx) (c : dot_S512x1024_S64x1024_S512x64_1_1_0_0_n_n.contr.Idx) :
    (dot_S512x1024_S64x1024_S512x64_1_1_0_0_n_n.rhsIdx i c 1).val = (c ⟨0, by decide⟩).val :=
  dot_S512x1024_S64x1024_S512x64_1_1_0_0_n_n.rhsIdx_val_of_single rfl i c

/-- The projection product: entry (p, q) is the inner product of row p of the [512, 1024] operand with row q of the
    [64, 1024] operand. -/
theorem matmul_proj_apply {φ₁ φ₂ : FTy} (A : FVec Ideal S512x1024 φ₁) (B : FVec Ideal S64x1024 φ₂)
    (prec : Option ContractPrecision) (p : Fin 512) (q : Fin 64) :
    matmul dot_S512x1024_S64x1024_S512x64_1_1_0_0_n_n prec A B (constant S512x64 .f32 0x00000000#32) (ix2 p q)
      = ∑ k : Fin 1024, A (ix2 p k) * B (ix2 q k) := by
  simp only [matmul]
  rw [Ideal.matmul_constant_zero_apply,
    ← Equiv.sum_comp (contrEquiv1 dot_S512x1024_S64x1024_S512x64_1_1_0_0_n_n 1024 rfl rfl).symm]
  refine Finset.sum_congr rfl fun k _ => ?_
  have hk := contrEquiv1_symm_val dot_S512x1024_S64x1024_S512x64_1_1_0_0_n_n 1024 rfl rfl k
  have el : dot_S512x1024_S64x1024_S512x64_1_1_0_0_n_n.lhsIdx (ix2 p q) ((contrEquiv1 dot_S512x1024_S64x1024_S512x64_1_1_0_0_n_n 1024 rfl rfl).symm k) = ix2 p k :=
    funext fun a => Fin.ext (by
      match a with
      | ⟨0, _⟩ => exact proj_lhs_keep _ _
      | ⟨1, _⟩ => exact (proj_lhs_contr _ _).trans hk)
  have er : dot_S512x1024_S64x1024_S512x64_1_1_0_0_n_n.rhsIdx (ix2 p q) ((contrEquiv1 dot_S512x1024_S64x1024_S512x64_1_1_0_0_n_n 1024 rfl rfl).symm k) = ix2 q k :=
    funext fun a => Fin.ext (by
      match a with
      | ⟨0, _⟩ => exact proj_rhs_keep _ _
      | ⟨1, _⟩ => exact (proj_rhs_contr _ _).trans hk)
  rw [el, er]

/-- The left operand's non-contracted coordinate is the output's row coordinate. -/
theorem pack_lhs_keep (i : S512x8.Idx) (c : dot_S512x64_S64x8_S512x8_1_0_0_1_n_n.contr.Idx) :
    (dot_S512x64_S64x8_S512x8_1_0_0_1_n_n.lhsIdx i c 0).val = (i 0).val := by
  unfold DotDims.lhsIdx
  rw [dif_neg (show ¬(0 : Fin S512x64.rank) ∈ dot_S512x64_S64x8_S512x8_1_0_0_1_n_n.lhsBatch by decide), dif_pos (show (0 : Fin S512x64.rank) ∈ dot_S512x64_S64x8_S512x8_1_0_0_1_n_n.lhsNonContracting by decide)]
  rfl
/-- The left operand's contracted coordinate is the contraction index. -/
theorem pack_lhs_contr (i : S512x8.Idx) (c : dot_S512x64_S64x8_S512x8_1_0_0_1_n_n.contr.Idx) :
    (dot_S512x64_S64x8_S512x8_1_0_0_1_n_n.lhsIdx i c 1).val = (c ⟨0, by decide⟩).val :=
  dot_S512x64_S64x8_S512x8_1_0_0_1_n_n.lhsIdx_val_of_single rfl i c
/-- The right operand's non-contracted coordinate is the output's column coordinate. -/
theorem pack_rhs_keep (i : S512x8.Idx) (c : dot_S512x64_S64x8_S512x8_1_0_0_1_n_n.contr.Idx) :
    (dot_S512x64_S64x8_S512x8_1_0_0_1_n_n.rhsIdx i c 1).val = (i 1).val := by
  unfold DotDims.rhsIdx
  rw [dif_neg (show ¬(1 : Fin S64x8.rank) ∈ dot_S512x64_S64x8_S512x8_1_0_0_1_n_n.rhsBatch by decide), dif_pos (show (1 : Fin S64x8.rank) ∈ dot_S512x64_S64x8_S512x8_1_0_0_1_n_n.rhsNonContracting by decide)]
  rfl
/-- The right operand's contracted coordinate is the contraction index. -/
theorem pack_rhs_contr (i : S512x8.Idx) (c : dot_S512x64_S64x8_S512x8_1_0_0_1_n_n.contr.Idx) :
    (dot_S512x64_S64x8_S512x8_1_0_0_1_n_n.rhsIdx i c 0).val = (c ⟨0, by decide⟩).val :=
  dot_S512x64_S64x8_S512x8_1_0_0_1_n_n.rhsIdx_val_of_single rfl i c

/-- The first kernel's packing product: entry (p, q) is the sum over the 64 positions k of the left operand at (p, k)
    times the right operand at (k, q). -/
theorem matmul_pack_apply {φ₁ φ₂ : FTy} (A : FVec Ideal S512x64 φ₁) (B : FVec Ideal S64x8 φ₂)
    (prec : Option ContractPrecision) (p : Fin 512) (q : Fin 8) :
    matmul dot_S512x64_S64x8_S512x8_1_0_0_1_n_n prec A B (constant S512x8 .f32 0x00000000#32) (ix2 p q)
      = ∑ k : Fin 64, A (ix2 p k) * B (ix2 k q) := by
  simp only [matmul]
  rw [Ideal.matmul_constant_zero_apply,
    ← Equiv.sum_comp (contrEquiv1 dot_S512x64_S64x8_S512x8_1_0_0_1_n_n 64 rfl rfl).symm]
  refine Finset.sum_congr rfl fun k _ => ?_
  have hk := contrEquiv1_symm_val dot_S512x64_S64x8_S512x8_1_0_0_1_n_n 64 rfl rfl k
  have el : dot_S512x64_S64x8_S512x8_1_0_0_1_n_n.lhsIdx (ix2 p q) ((contrEquiv1 dot_S512x64_S64x8_S512x8_1_0_0_1_n_n 64 rfl rfl).symm k) = ix2 p k :=
    funext fun a => Fin.ext (by
      match a with
      | ⟨0, _⟩ => exact pack_lhs_keep _ _
      | ⟨1, _⟩ => exact (pack_lhs_contr _ _).trans hk)
  have er : dot_S512x64_S64x8_S512x8_1_0_0_1_n_n.rhsIdx (ix2 p q) ((contrEquiv1 dot_S512x64_S64x8_S512x8_1_0_0_1_n_n 64 rfl rfl).symm k) = ix2 k q :=
    funext fun a => Fin.ext (by
      match a with
      | ⟨1, _⟩ => exact pack_rhs_keep _ _
      | ⟨0, _⟩ => exact (pack_rhs_contr _ _).trans hk)
  rw [el, er]

/-- The left operand's non-contracted coordinate is the output's row coordinate. -/
theorem packT_lhs_keep (i : S8x512.Idx) (c : dot_S8x64_S512x64_S8x512_1_1_0_0_n_n.contr.Idx) :
    (dot_S8x64_S512x64_S8x512_1_1_0_0_n_n.lhsIdx i c 0).val = (i 0).val := by
  unfold DotDims.lhsIdx
  rw [dif_neg (show ¬(0 : Fin S8x64.rank) ∈ dot_S8x64_S512x64_S8x512_1_1_0_0_n_n.lhsBatch by decide), dif_pos (show (0 : Fin S8x64.rank) ∈ dot_S8x64_S512x64_S8x512_1_1_0_0_n_n.lhsNonContracting by decide)]
  rfl
/-- The left operand's contracted coordinate is the contraction index. -/
theorem packT_lhs_contr (i : S8x512.Idx) (c : dot_S8x64_S512x64_S8x512_1_1_0_0_n_n.contr.Idx) :
    (dot_S8x64_S512x64_S8x512_1_1_0_0_n_n.lhsIdx i c 1).val = (c ⟨0, by decide⟩).val :=
  dot_S8x64_S512x64_S8x512_1_1_0_0_n_n.lhsIdx_val_of_single rfl i c
/-- The right operand's non-contracted coordinate is the output's column coordinate. -/
theorem packT_rhs_keep (i : S8x512.Idx) (c : dot_S8x64_S512x64_S8x512_1_1_0_0_n_n.contr.Idx) :
    (dot_S8x64_S512x64_S8x512_1_1_0_0_n_n.rhsIdx i c 0).val = (i 1).val := by
  unfold DotDims.rhsIdx
  rw [dif_neg (show ¬(0 : Fin S512x64.rank) ∈ dot_S8x64_S512x64_S8x512_1_1_0_0_n_n.rhsBatch by decide), dif_pos (show (0 : Fin S512x64.rank) ∈ dot_S8x64_S512x64_S8x512_1_1_0_0_n_n.rhsNonContracting by decide)]
  rfl
/-- The right operand's contracted coordinate is the contraction index. -/
theorem packT_rhs_contr (i : S8x512.Idx) (c : dot_S8x64_S512x64_S8x512_1_1_0_0_n_n.contr.Idx) :
    (dot_S8x64_S512x64_S8x512_1_1_0_0_n_n.rhsIdx i c 1).val = (c ⟨0, by decide⟩).val :=
  dot_S8x64_S512x64_S8x512_1_1_0_0_n_n.rhsIdx_val_of_single rfl i c

/-- The second kernel's packing product, transposed: entry (p, q) is the sum over the 64 positions k of the left
    operand at (p, k) times the right operand at (q, k). -/
theorem matmul_packT_apply {φ₁ φ₂ : FTy} (A : FVec Ideal S8x64 φ₁) (B : FVec Ideal S512x64 φ₂)
    (prec : Option ContractPrecision) (p : Fin 8) (q : Fin 512) :
    matmul dot_S8x64_S512x64_S8x512_1_1_0_0_n_n prec A B (constant S8x512 .f32 0x00000000#32) (ix2 p q)
      = ∑ k : Fin 64, A (ix2 p k) * B (ix2 q k) := by
  simp only [matmul]
  rw [Ideal.matmul_constant_zero_apply,
    ← Equiv.sum_comp (contrEquiv1 dot_S8x64_S512x64_S8x512_1_1_0_0_n_n 64 rfl rfl).symm]
  refine Finset.sum_congr rfl fun k _ => ?_
  have hk := contrEquiv1_symm_val dot_S8x64_S512x64_S8x512_1_1_0_0_n_n 64 rfl rfl k
  have el : dot_S8x64_S512x64_S8x512_1_1_0_0_n_n.lhsIdx (ix2 p q) ((contrEquiv1 dot_S8x64_S512x64_S8x512_1_1_0_0_n_n 64 rfl rfl).symm k) = ix2 p k :=
    funext fun a => Fin.ext (by
      match a with
      | ⟨0, _⟩ => exact packT_lhs_keep _ _
      | ⟨1, _⟩ => exact (packT_lhs_contr _ _).trans hk)
  have er : dot_S8x64_S512x64_S8x512_1_1_0_0_n_n.rhsIdx (ix2 p q) ((contrEquiv1 dot_S8x64_S512x64_S8x512_1_1_0_0_n_n 64 rfl rfl).symm k) = ix2 q k :=
    funext fun a => Fin.ext (by
      match a with
      | ⟨0, _⟩ => exact packT_rhs_keep _ _
      | ⟨1, _⟩ => exact (packT_rhs_contr _ _).trans hk)
  rw [el, er]

/-- The left operand's non-contracted coordinate is the output's row coordinate. -/
theorem dense_lhs_keep (i : S512x512.Idx) (c : dot_S512x1024_S512x1024_S512x512_1_1_0_0_n_n.contr.Idx) :
    (dot_S512x1024_S512x1024_S512x512_1_1_0_0_n_n.lhsIdx i c 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
/-- The left operand's contracted coordinate is the contraction index. -/
theorem dense_lhs_contr (i : S512x512.Idx) (c : dot_S512x1024_S512x1024_S512x512_1_1_0_0_n_n.contr.Idx) :
    (dot_S512x1024_S512x1024_S512x512_1_1_0_0_n_n.lhsIdx i c 1).val = (c ⟨0, by decide⟩).val :=
  dot_S512x1024_S512x1024_S512x512_1_1_0_0_n_n.lhsIdx_val_of_single rfl i c
/-- The right operand's non-contracted coordinate is the output's column coordinate. -/
theorem dense_rhs_keep (i : S512x512.Idx) (c : dot_S512x1024_S512x1024_S512x512_1_1_0_0_n_n.contr.Idx) :
    (dot_S512x1024_S512x1024_S512x512_1_1_0_0_n_n.rhsIdx i c 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
/-- The right operand's contracted coordinate is the contraction index. -/
theorem dense_rhs_contr (i : S512x512.Idx) (c : dot_S512x1024_S512x1024_S512x512_1_1_0_0_n_n.contr.Idx) :
    (dot_S512x1024_S512x1024_S512x512_1_1_0_0_n_n.rhsIdx i c 1).val = (c ⟨0, by decide⟩).val :=
  dot_S512x1024_S512x1024_S512x512_1_1_0_0_n_n.rhsIdx_val_of_single rfl i c

/-- The dense product: entry (p, q) is the inner product of row p of the left [512, 1024] operand with row q of the
    right one. -/
theorem matmul_dense_apply {φ₁ φ₂ : FTy} (A : FVec Ideal S512x1024 φ₁) (B : FVec Ideal S512x1024 φ₂)
    (prec : Option ContractPrecision) (p : Fin 512) (q : Fin 512) :
    matmul dot_S512x1024_S512x1024_S512x512_1_1_0_0_n_n prec A B (constant S512x512 .f32 0x00000000#32) (ix2 p q)
      = ∑ k : Fin 1024, A (ix2 p k) * B (ix2 q k) := by
  simp only [matmul]
  rw [Ideal.matmul_constant_zero_apply,
    ← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 p q) ((contrEquiv1 dot_S512x1024_S512x1024_S512x512_1_1_0_0_n_n 1024 rfl rfl).symm k) = ix2 p k :=
    funext fun a => Fin.ext (by
      match a with
      | ⟨0, _⟩ => exact dense_lhs_keep _ _
      | ⟨1, _⟩ => exact (dense_lhs_contr _ _).trans hk)
  have er : dot_S512x1024_S512x1024_S512x512_1_1_0_0_n_n.rhsIdx (ix2 p q) ((contrEquiv1 dot_S512x1024_S512x1024_S512x512_1_1_0_0_n_n 1024 rfl rfl).symm k) = ix2 q k :=
    funext fun a => Fin.ext (by
      match a with
      | ⟨0, _⟩ => exact dense_rhs_keep _ _
      | ⟨1, _⟩ => exact (dense_rhs_contr _ _).trans hk)
  rw [el, er]

end Cert.PayHash

end
-- ==== Proof.PayBits.lean ====
/-
  Sign bits and packed codes on the extended reals.

  A comparison "s > 0" read as a one-bit word, widened to 32 bits and converted to a float, is 1 where 0 < s and 0
  elsewhere. A sum over 64 positions weighted by the packing weights (2^(j mod 8) on table t's own eight positions,
  zero elsewhere) is the sum over the table's eight positions of the entry times 2^h. Two such codes, sums of 2^h
  over the set bits, are equal exactly when the two bit patterns agree: both are natural numbers below 256 and the
  binary digits of a number determine it.
-/
import Mathlib.Data.EReal.Basic
import Mathlib.Algebra.BigOperators.Fin
import Mathlib.Logic.Equiv.Fin.Basic
import Idealize.ShloMosaic.PureOps.Ideal
import Idealize.ShloMosaic.PureOps.Ideal.Laws
import Idealize.ShloMosaic.Lib.WordArith

noncomputable section

open scoped BigOperators

namespace Cert.PayHash

open Idealize.ShloMosaic

/-! ## A sign bit as a float -/

/-- "s > 0" as a one-bit word, zero-extended to 32 bits and converted as a signed integer, is 1 or 0. -/
theorem signbit_float (s : EReal) :
    FloatOps.sitofp (F := Ideal) .f32
        ((FloatOps.cmpf (F := Ideal) (φ := .f32) .ogt s (Scalar.ofBits (F := Ideal) .f32 0x00000000#32)).setWidth 32)
      = if 0 < s then 1 else 0 := by
  show (((((Ideal.cmp .ogt s (Ideal.ofBits .f32 0x00000000#32)).setWidth 32).toInt : ℤ) : ℝ) : EReal) = _
  rw [Ideal.ofBits_zero_f32]
  unfold Ideal.cmp
  by_cases h : (0 : EReal) < s
  · simp [h]
  · simp [h]

/-! ## Sums over 64 positions as 8 tables of 8 -/

/-- Position 8·t + h of 64. -/
abbrev pos64 (t h : Fin 8) : Fin 64 := ⟨8 * t.val + h.val, by have := t.isLt; have := h.isLt; omega⟩

/-- A sum over 64 positions is the double sum over the table and the position in the table. -/
theorem sum_fin64 {M : Type*} [AddCommMonoid M] (f : Fin 64 → M) :
    ∑ j : Fin 64, f j = ∑ t : Fin 8, ∑ h : Fin 8, f (pos64 t h) := by
  rw [← Equiv.sum_comp (finProdFinEquiv : Fin 8 × Fin 8 ≃ Fin 64) f, Fintype.sum_prod_type]
  refine Finset.sum_congr rfl fun t _ => Finset.sum_congr rfl fun h _ => ?_
  refine congrArg f (Fin.ext ?_)
  show h.val + 8 * t.val = 8 * t.val + h.val
  omega

/-! ## The packing weights pick one table's eight positions -/

/-- Entries times packing weights, summed over the 64 positions, is the sum over table t's eight positions of the
    entry times 2^h: off the table's positions the weight is zero. -/
theorem pack_sum_right (b : Fin 64 → EReal) (w : Fin 64 → Fin 8 → EReal)
    (hw : ∀ j t, w j t = if j.val / 8 = t.val then ((2 ^ (j.val % 8) : ℕ) : EReal) else 0) (t : Fin 8) :
    ∑ j : Fin 64, b j * w j t = ∑ h : Fin 8, b (pos64 t h) * ((2 ^ h.val : ℕ) : EReal) := by
  rw [sum_fin64, Finset.sum_eq_single t]
  · refine Finset.sum_congr rfl fun h _ => ?_
    have h1 : (pos64 t h).val / 8 = t.val := by
      show (8 * t.val + h.val) / 8 = t.val
      have := h.isLt; omega
    have h2 : (pos64 t h).val % 8 = h.val := by
      show (8 * t.val + h.val) % 8 = h.val
      have := h.isLt; omega
    rw [hw, if_pos h1, h2]
  · intro t' _ hne
    refine Finset.sum_eq_zero fun h _ => ?_
    have h1 : ¬ (pos64 t' h).val / 8 = t.val := by
      show ¬ (8 * t'.val + h.val) / 8 = t.val
      have := h.isLt
      intro e
      exact hne (Fin.ext (by omega))
    rw [hw, if_neg h1, mul_zero]
  · intro h; exact absurd (Finset.mem_univ t) h

/-- The same with the weights on the left. -/
theorem pack_sum_left (b : Fin 64 → EReal) (w : Fin 64 → Fin 8 → EReal)
    (hw : ∀ j t, w j t = if j.val / 8 = t.val then ((2 ^ (j.val % 8) : ℕ) : EReal) else 0) (t : Fin 8) :
    ∑ j : Fin 64, w j t * b j = ∑ h : Fin 8, b (pos64 t h) * ((2 ^ h.val : ℕ) : EReal) := by
  rw [← pack_sum_right b w hw t]
  exact Finset.sum_congr rfl fun j _ => mul_comm _ _

/-- A 0/1 entry times 2^h is 2^h where the bit is set and 0 elsewhere. -/
theorem bit_mul_pow (p : Prop) [Decidable p] (n : ℕ) :
    (if p then (1 : EReal) else 0) * (n : EReal) = if p then (n : EReal) else 0 := by
  split
  · exact one_mul _
  · exact zero_mul _

/-! ## Equal codes, equal bit patterns -/

/-- A bit as a natural number 0 or 1, with the three facts linear arithmetic needs. -/
theorem bit_nat (p : Prop) [Decidable p] :
    ∃ x : ℕ, x ≤ 1 ∧ (p ↔ x = 1) ∧ ∀ n : ℕ, (if p then n else 0) = n * x := by
  by_cases hp : p
  · exact ⟨1, le_refl _, by simp [hp], fun n => by simp [hp]⟩
  · exact ⟨0, by omega, by simp [hp], fun n => by simp [hp]⟩

/-- Two sums of 2^h over set bits that are equal as natural numbers have the same bits. -/
theorem code_nat_inj (a c : Fin 8 → Prop) [DecidablePred a] [DecidablePred c]
    (h : (∑ i : Fin 8, if a i then 2 ^ i.val else 0) = ∑ i : Fin 8, if c i then 2 ^ i.val else 0) :
    ∀ i, a i ↔ c i := by
  obtain ⟨x0, hx0, ha0, e0⟩ := bit_nat (a 0)
  obtain ⟨x1, hx1, ha1, e1⟩ := bit_nat (a 1)
  obtain ⟨x2, hx2, ha2, e2⟩ := bit_nat (a 2)
  obtain ⟨x3, hx3, ha3, e3⟩ := bit_nat (a 3)
  obtain ⟨x4, hx4, ha4, e4⟩ := bit_nat (a 4)
  obtain ⟨x5, hx5, ha5, e5⟩ := bit_nat (a 5)
  obtain ⟨x6, hx6, ha6, e6⟩ := bit_nat (a 6)
  obtain ⟨x7, hx7, ha7, e7⟩ := bit_nat (a 7)
  obtain ⟨y0, hy0, hc0, f0⟩ := bit_nat (c 0)
  obtain ⟨y1, hy1, hc1, f1⟩ := bit_nat (c 1)
  obtain ⟨y2, hy2, hc2, f2⟩ := bit_nat (c 2)
  obtain ⟨y3, hy3, hc3, f3⟩ := bit_nat (c 3)
  obtain ⟨y4, hy4, hc4, f4⟩ := bit_nat (c 4)
  obtain ⟨y5, hy5, hc5, f5⟩ := bit_nat (c 5)
  obtain ⟨y6, hy6, hc6, f6⟩ := bit_nat (c 6)
  obtain ⟨y7, hy7, hc7, f7⟩ := bit_nat (c 7)
  rw [Fin.sum_univ_eight, Fin.sum_univ_eight, e0, e1, e2, e3, e4, e5, e6, e7, f0, f1, f2, f3, f4, f5, f6, f7] at h
  have v0 : ((0 : Fin 8) : ℕ) = 0 := rfl
  have v1 : ((1 : Fin 8) : ℕ) = 1 := rfl
  have v2 : ((2 : Fin 8) : ℕ) = 2 := rfl
  have v3 : ((3 : Fin 8) : ℕ) = 3 := rfl
  have v4 : ((4 : Fin 8) : ℕ) = 4 := rfl
  have v5 : ((5 : Fin 8) : ℕ) = 5 := rfl
  have v6 : ((6 : Fin 8) : ℕ) = 6 := rfl
  have v7 : ((7 : Fin 8) : ℕ) = 7 := rfl
  rw [v0, v1, v2, v3, v4, v5, v6, v7] at h
  norm_num at h
  intro i
  fin_cases i
  · show a 0 ↔ c 0
    rw [ha0, hc0]; omega
  · show a 1 ↔ c 1
    rw [ha1, hc1]; omega
  · show a 2 ↔ c 2
    rw [ha2, hc2]; omega
  · show a 3 ↔ c 3
    rw [ha3, hc3]; omega
  · show a 4 ↔ c 4
    rw [ha4, hc4]; omega
  · show a 5 ↔ c 5
    rw [ha5, hc5]; omega
  · show a 6 ↔ c 6
    rw [ha6, hc6]; omega
  · show a 7 ↔ c 7
    rw [ha7, hc7]; omega

/-- The code of a bit pattern on the extended reals is the cast of its natural-number code. -/
theorem code_cast (a : Fin 8 → Prop) [DecidablePred a] :
    (∑ i : Fin 8, if a i then ((2 ^ i.val : ℕ) : EReal) else 0)
      = ((∑ i : Fin 8, if a i then 2 ^ i.val else 0 : ℕ) : EReal) := by
  rw [Nat.cast_sum]
  refine Finset.sum_congr rfl fun i _ => ?_
  split
  · rfl
  · exact Nat.cast_zero.symm

/-- THE KEY LAW: two codes are equal on the extended reals exactly when the two bit patterns agree. -/
theorem code_eq_iff (a c : Fin 8 → Prop) [DecidablePred a] [DecidablePred c] :
    (∑ i : Fin 8, if a i then ((2 ^ i.val : ℕ) : EReal) else 0) = (∑ i : Fin 8, if c i then ((2 ^ i.val : ℕ) : EReal) else 0)
      ↔ ∀ i, a i ↔ c i := by
  constructor
  · intro h
    rw [code_cast, code_cast, EReal.natCast_eq_iff] at h
    exact code_nat_inj a c h
  · intro h
    refine Finset.sum_congr rfl fun i _ => ?_
    by_cases ha : a i
    · rw [if_pos ha, if_pos ((h i).mp ha)]
    · rw [if_neg ha, if_neg (fun hc => ha ((h i).mpr hc))]

end Cert.PayHash

end
-- ==== Proof.PayCode.lean ====
/-
  A table's packed code from the row's 64 sign bits: the sign bits (1 where the inner product with a projection row is
  strictly positive, 0 elsewhere) weighted by the packing weights and summed over the 64 positions give the table's
  code, whichever side the weights stand on. Two rows' codes for a table are equal exactly when their 8 sign bits for
  that table agree, so "some table's codes are equal" is the collision of the two rows.
-/
import proofs.«148647_g61529701483102_cont_9to1_m_177_19_alg».proof.Proof.PackedCode
import proofs.«148647_g61529701483102_cont_9to1_m_177_19_alg».proof.Proof.PayBits

noncomputable section

open scoped BigOperators

namespace Cert.PayHash

open Cert.HashMask Idealize.ShloMosaic Idealize.ShloMosaic.ValueIdx

/-- The packing weight, spelt out. -/
theorem packWeight_eq (j : Fin 64) (t : Fin 8) :
    packWeight j t = if j.val / 8 = t.val then ((2 ^ (j.val % 8) : ℕ) : EReal) else 0 := rfl

/-- The sum over table t's 8 positions of (sign bit) · 2^h is the table's code. -/
theorem sum_bits_eq_fcode (u : Fin 1024 → EReal) (P : (⟨2, ![64, 1024]⟩ : Shape).Idx → EReal) (t : Fin 8) :
    ∑ h : Fin 8, (if 0 < ∑ d : Fin 1024, u d * P (ix2 (pos64 t h) d) then (1 : EReal) else 0) * ((2 ^ h.val : ℕ) : EReal)
      = fcode u (rows64 P) t := by
  unfold fcode
  refine Finset.sum_congr rfl fun h _ => ?_
  rw [bit_mul_pow]
  by_cases hb : bit u (rows64 P) t h
  · rw [if_pos hb]; exact if_pos hb
  · rw [if_neg hb]; exact if_neg hb

/-- Sign bits times packing weights (weights on the right), summed over the 64 positions: the table's code. -/
theorem pack_right_eq_fcode (u : Fin 1024 → EReal) (P : (⟨2, ![64, 1024]⟩ : Shape).Idx → EReal) (t : Fin 8) :
    ∑ j : Fin 64, (if 0 < ∑ d : Fin 1024, u d * P (ix2 j d) then (1 : EReal) else 0) * packWeight j t
      = fcode u (rows64 P) t := by
  rw [pack_sum_right (fun j => if 0 < ∑ d : Fin 1024, u d * P (ix2 j d) then (1 : EReal) else 0) packWeight packWeight_eq t]
  exact sum_bits_eq_fcode u P t

/-- The same with the weights on the left. -/
theorem pack_left_eq_fcode (u : Fin 1024 → EReal) (P : (⟨2, ![64, 1024]⟩ : Shape).Idx → EReal) (t : Fin 8) :
    ∑ j : Fin 64, packWeight j t * (if 0 < ∑ d : Fin 1024, u d * P (ix2 j d) then (1 : EReal) else 0)
      = fcode u (rows64 P) t := by
  rw [pack_sum_left (fun j => if 0 < ∑ d : Fin 1024, u d * P (ix2 j d) then (1 : EReal) else 0) packWeight packWeight_eq t]
  exact sum_bits_eq_fcode u P t

open Classical in
/-- Two rows' codes for table t are equal exactly when their 8 sign bits for the table agree. -/
theorem fcode_eq_iff (u v : Fin 1024 → EReal) (p : Fin 8 → Fin 8 → Fin 1024 → EReal) (t : Fin 8) :
    fcode u p t = fcode v p t ↔ ∀ h : Fin 8, bit u p t h ↔ bit v p t h := by
  unfold fcode
  exact code_eq_iff (fun h => bit u p t h) (fun h => bit v p t h)

/-- Some table's codes are equal exactly when the two rows collide. -/
theorem exists_fcode_eq_iff_collide (u v : Fin 1024 → EReal) (p : Fin 8 → Fin 8 → Fin 1024 → EReal) :
    (∃ t : Fin 8, fcode u p t = fcode v p t) ↔ collide u v p := by
  unfold collide
  exact exists_congr fun t => fcode_eq_iff u v p t

end Cert.PayHash

end
-- ==== Proof.PayPrep.lean ====
/-
  The first kernel's payloads at an index. The casts are the identity on the extended reals. The code payload is: the
  projection product of the token rows with the 64 projection rows; its sign bits as floats; the packing product with the
  [64, 8] packing matrix. At (r, t) it is table t's packed code of token row r.
-/
import proofs.«148647_g61529701483102_cont_9to1_m_177_19_alg».proof.Proof.Gen.KernelIdeal.Skeleton
import proofs.«148647_g61529701483102_cont_9to1_m_177_19_alg».proof.Proof.PayMatmul
import proofs.«148647_g61529701483102_cont_9to1_m_177_19_alg».proof.Proof.PayCode
import Idealize.ShloMosaic.Lib.Pipeline.Value

noncomputable section

open scoped BigOperators

namespace Cert.PayHash

open Cert.KernelIdeal Cert.KernelIdeal.Gen Cert.HashMask Idealize.ShloMosaic Idealize.ShloMosaic.ValueIdx

/-! ## The casts -/

/-- The cast of the projection rows is the identity. -/
theorem k0_pay5_eq (P : Vec Ideal S64x1024 .f32) : k0_pay5 (F := Ideal) P = P := by
  unfold k0_pay5
  funext i
  simp only [truncf_apply, shapeCast_self]

/-- The cast of the first token chunk is the identity. -/
theorem k0_pay6_eq (X : Vec Ideal S512x1024 .f32) : k0_pay6 (F := Ideal) X = X := by
  unfold k0_pay6
  funext i
  simp only [truncf_apply, shapeCast_self]

/-- The cast of the second token chunk is the identity. -/
theorem k0_pay8_eq (X : Vec Ideal S512x1024 .f32) : k0_pay8 (F := Ideal) X = X := by
  unfold k0_pay8
  funext i
  simp only [truncf_apply, shapeCast_self]

/-- The cast of the third token chunk is the identity. -/
theorem k0_pay1_eq (X : Vec Ideal S512x1024 .f32) : k0_pay1 (F := Ideal) X = X := by
  unfold k0_pay1
  funext i
  simp only [truncf_apply, shapeCast_self]

/-- The cast of the fourth token chunk is the identity. -/
theorem k0_pay3_eq (X : Vec Ideal S512x1024 .f32) : k0_pay3 (F := Ideal) X = X := by
  unfold k0_pay3
  funext i
  simp only [truncf_apply, shapeCast_self]

theorem k0_pay5_apply (P : Vec Ideal S64x1024 .f32) (j : Fin 64) (d : Fin 1024) :
    k0_pay5 (F := Ideal) P (ix2 j d) = P (ix2 j d) := congrFun (k0_pay5_eq P) _
theorem k0_pay6_apply (X : Vec Ideal S512x1024 .f32) (r : Fin 512) (d : Fin 1024) :
    k0_pay6 (F := Ideal) X (ix2 r d) = X (ix2 r d) := congrFun (k0_pay6_eq X) _
theorem k0_pay8_apply (X : Vec Ideal S512x1024 .f32) (r : Fin 512) (d : Fin 1024) :
    k0_pay8 (F := Ideal) X (ix2 r d) = X (ix2 r d) := congrFun (k0_pay8_eq X) _
theorem k0_pay1_apply (X : Vec Ideal S512x1024 .f32) (r : Fin 512) (d : Fin 1024) :
    k0_pay1 (F := Ideal) X (ix2 r d) = X (ix2 r d) := congrFun (k0_pay1_eq X) _
theorem k0_pay3_apply (X : Vec Ideal S512x1024 .f32) (r : Fin 512) (d : Fin 1024) :
    k0_pay3 (F := Ideal) X (ix2 r d) = X (ix2 r d) := congrFun (k0_pay3_eq X) _

/-! ## Sign bits of a projection product -/

/-- The sign bits of the rows of `A` projected on the rows of `B`, as floats: at (r, j), 1 where the inner product of row r
    of `A` with row j of `B` is strictly positive, 0 elsewhere. -/
theorem signbits_apply {φ₁ φ₂ : FTy} (A : FVec Ideal S512x1024 φ₁) (B : FVec Ideal S64x1024 φ₂) (r : Fin 512) (j : Fin 64) :
    sitofp (F := Ideal) .f32
        (extui 32 (cmpf .ogt
          (matmul dot_S512x1024_S64x1024_S512x64_1_1_0_0_n_n none A B (constant S512x64 .f32 0x00000000#32))
          (broadcast S512x64 (Scalar.ofBits (F := Ideal) .f32 0x00000000#32))) natLt_1_32) (ix2 r j)
      = if 0 < ∑ d : Fin 1024, A (ix2 r d) * B (ix2 j d) then 1 else 0 := by
  rw [sitofp_apply, extui_apply, cmpf_apply, broadcast_apply, matmul_proj_apply]
  exact signbit_float _

/-! ## The code payload -/

/-- The first kernel's codes of a chunk: projection product, sign bits, packing product. -/
def prepCodes (A : FVec Ideal S512x1024 .bf16) (B : FVec Ideal S64x1024 .bf16) (pk : FVec Ideal S64x8 .f32) :
    FVec Ideal S512x8 .bf16 :=
  truncf .bf16
    (matmul (φ₁ := .f32) (φ₂ := .f32) dot_S512x64_S64x8_S512x8_1_0_0_1_n_n (some .fp32)
      (sitofp (F := Ideal) .f32
        (extui 32 (cmpf .ogt
          (matmul dot_S512x1024_S64x1024_S512x64_1_1_0_0_n_n none A B (constant S512x64 .f32 0x00000000#32))
          (broadcast S512x64 (Scalar.ofBits (F := Ideal) .f32 0x00000000#32))) natLt_1_32))
      pk (constant S512x8 .f32 0x00000000#32))
    bitsLt_bf16_f32

/-- At (r, t) the codes are table t's packed code of row r of `A` under the projection rows `B`. -/
theorem prepCodes_apply (A : FVec Ideal S512x1024 .bf16) (B : FVec Ideal S64x1024 .bf16) (pk : FVec Ideal S64x8 .f32)
    (hpk : ∀ (j : Fin 64) (t : Fin 8), pk (ix2 j t) = packWeight j t) (r : Fin 512) (t : Fin 8) :
    prepCodes A B pk (ix2 r t) = fcode (fun d => A (ix2 r d)) (rows64 B) t := by
  unfold prepCodes
  rw [truncf_apply, matmul_pack_apply, ← pack_right_eq_fcode]
  refine Finset.sum_congr rfl fun j _ => ?_
  rw [signbits_apply, hpk]

/-- The four code payloads are that chain. -/
theorem k0_pay7_eq (P : Vec Ideal S64x1024 .f32) (X : Vec Ideal S512x1024 .f32) (pk : Vec Ideal S64x8 .f32) :
    k0_pay7 (F := Ideal) P X pk = prepCodes (k0_pay6 X) (k0_pay5 P) pk := rfl
theorem k0_pay9_eq (P : Vec Ideal S64x1024 .f32) (X : Vec Ideal S512x1024 .f32) (pk : Vec Ideal S64x8 .f32) :
    k0_pay9 (F := Ideal) P X pk = prepCodes (k0_pay8 X) (k0_pay5 P) pk := rfl
theorem k0_pay2_eq (B : FVec Ideal S64x1024 .bf16) (X : Vec Ideal S512x1024 .f32) (pk : Vec Ideal S64x8 .f32) :
    k0_pay2 (F := Ideal) B X pk = prepCodes (k0_pay1 X) B pk := rfl
theorem k0_pay4_eq (B : FVec Ideal S64x1024 .bf16) (X : Vec Ideal S512x1024 .f32) (pk : Vec Ideal S64x8 .f32) :
    k0_pay4 (F := Ideal) B X pk = prepCodes (k0_pay3 X) B pk := rfl

/-- The first chunk's codes. -/
theorem k0_pay7_apply (P : Vec Ideal S64x1024 .f32) (X : Vec Ideal S512x1024 .f32) (pk : Vec Ideal S64x8 .f32)
    (hpk : ∀ (j : Fin 64) (t : Fin 8), pk (ix2 j t) = packWeight j t) (r : Fin 512) (t : Fin 8) :
    k0_pay7 (F := Ideal) P X pk (ix2 r t) = fcode (fun d => X (ix2 r d)) (rows64 P) t := by
  rw [k0_pay7_eq, prepCodes_apply _ _ _ hpk, k0_pay6_eq, k0_pay5_eq]

/-- The second chunk's codes. -/
theorem k0_pay9_apply (P : Vec Ideal S64x1024 .f32) (X : Vec Ideal S512x1024 .f32) (pk : Vec Ideal S64x8 .f32)
    (hpk : ∀ (j : Fin 64) (t : Fin 8), pk (ix2 j t) = packWeight j t) (r : Fin 512) (t : Fin 8) :
    k0_pay9 (F := Ideal) P X pk (ix2 r t) = fcode (fun d => X (ix2 r d)) (rows64 P) t := by
  rw [k0_pay9_eq, prepCodes_apply _ _ _ hpk, k0_pay8_eq, k0_pay5_eq]

/-- The third chunk's codes. -/
theorem k0_pay2_apply (P : Vec Ideal S64x1024 .f32) (X : Vec Ideal S512x1024 .f32) (pk : Vec Ideal S64x8 .f32)
    (hpk : ∀ (j : Fin 64) (t : Fin 8), pk (ix2 j t) = packWeight j t) (r : Fin 512) (t : Fin 8) :
    k0_pay2 (F := Ideal) (k0_pay5 P) X pk (ix2 r t) = fcode (fun d => X (ix2 r d)) (rows64 P) t := by
  rw [k0_pay2_eq, prepCodes_apply _ _ _ hpk, k0_pay1_eq, k0_pay5_eq]

/-- The fourth chunk's codes. -/
theorem k0_pay4_apply (P : Vec Ideal S64x1024 .f32) (X : Vec Ideal S512x1024 .f32) (pk : Vec Ideal S64x8 .f32)
    (hpk : ∀ (j : Fin 64) (t : Fin 8), pk (ix2 j t) = packWeight j t) (r : Fin 512) (t : Fin 8) :
    k0_pay4 (F := Ideal) (k0_pay5 P) X pk (ix2 r t) = fcode (fun d => X (ix2 r d)) (rows64 P) t := by
  rw [k0_pay4_eq, prepCodes_apply _ _ _ hpk, k0_pay3_eq, k0_pay5_eq]

end Cert.PayHash

end
-- ==== Proof.PayMask.lean ====
/-
  One chunk of the second kernel's output in a canonical form: for each of the 8 tables, column t of the token
  codes (broadcast along the rows) compared for equality with row t of the weight codes (broadcast along the columns);
  the 8 one-bit results joined by a balanced tree of ORs; and the dense block kept where the result is set, the
  constant 0.0 elsewhere. Read at (r, q): the dense entry if in some table the token's code equals the weight's, 0
  otherwise.
-/
import proofs.«148647_g61529701483102_cont_9to1_m_177_19_alg».proof.Proof.Gen.KernelIdeal.Skeleton
import Idealize.ShloMosaic.Lib.ValueIdx
import Idealize.ShloMosaic.Lib.Pipeline.Value
import Idealize.ShloMosaic.Lib.ValueLayout
import Idealize.ShloMosaic.Lib.WordArith
import Idealize.ShloMosaic.PureOps.Ideal.Laws

noncomputable section

open scoped BigOperators

namespace Cert.PayHash

open Cert.KernelIdeal Cert.KernelIdeal.Gen Idealize.ShloMosaic Idealize.ShloMosaic.ValueIdx

/-! ## Layout operations at an index -/

/-- A `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bitwise OR of two one-bit vectors at an index. -/
theorem ori_apply {s : Shape} {w : ℕ} (x y : IVec s w) (i : s.Idx) : ori x y i = IntOp.ori (x i) (y i) := rfl

/-- Table `o`'s comparison at (r, q): column `o` of the token codes at row r against row `o` of the weight codes at
    column q, as the one-bit word of their equality. -/
theorem cmp_table_apply (o : ℕ) (ho : o < 8) (C : FVec Ideal S512x8 .bf16) (wct : FVec Ideal S8x512 .bf16)
    (hs1 : S512x8.Slices ![0, o] S512x1) (hs2 : S8x512.Slices ![o, 0] S1x512)
    (hb1 : S512x1.Broadcasts S512x512) (hb2 : S1x512.Broadcasts S512x512) (r q : Fin 512) :
    cmpf .oeq (broadcastTo S512x512 (extractStridedSlice S512x1 ![0, o] C hs1) hb1)
        (broadcastTo S512x512 (extractStridedSlice S1x512 ![o, 0] wct hs2) hb2) (ix2 r q)
      = BitVec.ofBool (decide (C (ix2 r (⟨o, ho⟩ : Fin 8)) = wct (ix2 (⟨o, ho⟩ : Fin 8) q))) := by
  rw [cmpf_apply, Ideal.cmpf_def]
  rw [broadcastTo_a1_ab_apply (a := 512) (b := 512) _ hb1 r q, broadcastTo_1b_ab_apply (a := 512) (b := 512) _ hb2 r q]
  rw [slice2_axis1_apply (n0 := 512) (n1 := 8) (m := 1) o C hs1 r (0 : Fin 1) (⟨o, ho⟩ : Fin 8) rfl,
    slice2_axis0_apply (n0 := 8) (n1 := 512) (m := 1) o wct hs2 (0 : Fin 1) q (⟨o, ho⟩ : Fin 8) rfl]
  rfl

/-! ## The canonical chunk -/

/-- The chunk: 8 comparisons, the balanced OR tree, the select against the splat 0.0. -/
def maskedChunk (wct : FVec Ideal S8x512 .bf16) (d : FVec Ideal S512x512 .f32) (C : FVec Ideal S512x8 .bf16) :
    FVec Ideal S512x512 .f32 :=
  select
    (ori
      (ori (ori (cmpf .oeq
    (broadcastTo S512x512 (extractStridedSlice S512x1 ![0, 0] C slices_S512x8_o0_0_S512x1) broadcasts_S512x1_S512x512)
    (broadcastTo S512x512 (extractStridedSlice S1x512 ![0, 0] wct slices_S8x512_o0_0_S1x512) broadcasts_S1x512_S512x512)) (cmpf .oeq
    (broadcastTo S512x512 (extractStridedSlice S512x1 ![0, 1] C slices_S512x8_o0_1_S512x1) broadcasts_S512x1_S512x512)
    (broadcastTo S512x512 (extractStridedSlice S1x512 ![1, 0] wct slices_S8x512_o1_0_S1x512) broadcasts_S1x512_S512x512)))
        (ori (cmpf .oeq
    (broadcastTo S512x512 (extractStridedSlice S512x1 ![0, 2] C slices_S512x8_o0_2_S512x1) broadcasts_S512x1_S512x512)
    (broadcastTo S512x512 (extractStridedSlice S1x512 ![2, 0] wct slices_S8x512_o2_0_S1x512) broadcasts_S1x512_S512x512)) (cmpf .oeq
    (broadcastTo S512x512 (extractStridedSlice S512x1 ![0, 3] C slices_S512x8_o0_3_S512x1) broadcasts_S512x1_S512x512)
    (broadcastTo S512x512 (extractStridedSlice S1x512 ![3, 0] wct slices_S8x512_o3_0_S1x512) broadcasts_S1x512_S512x512))))
      (ori (ori (cmpf .oeq
    (broadcastTo S512x512 (extractStridedSlice S512x1 ![0, 4] C slices_S512x8_o0_4_S512x1) broadcasts_S512x1_S512x512)
    (broadcastTo S512x512 (extractStridedSlice S1x512 ![4, 0] wct slices_S8x512_o4_0_S1x512) broadcasts_S1x512_S512x512)) (cmpf .oeq
    (broadcastTo S512x512 (extractStridedSlice S512x1 ![0, 5] C slices_S512x8_o0_5_S512x1) broadcasts_S512x1_S512x512)
    (broadcastTo S512x512 (extractStridedSlice S1x512 ![5, 0] wct slices_S8x512_o5_0_S1x512) broadcasts_S1x512_S512x512)))
        (ori (cmpf .oeq
    (broadcastTo S512x512 (extractStridedSlice S512x1 ![0, 6] C slices_S512x8_o0_6_S512x1) broadcasts_S512x1_S512x512)
    (broadcastTo S512x512 (extractStridedSlice S1x512 ![6, 0] wct slices_S8x512_o6_0_S1x512) broadcasts_S1x512_S512x512)) (cmpf .oeq
    (broadcastTo S512x512 (extractStridedSlice S512x1 ![0, 7] C slices_S512x8_o0_7_S512x1) broadcasts_S512x1_S512x512)
    (broadcastTo S512x512 (extractStridedSlice S1x512 ![7, 0] wct slices_S8x512_o7_0_S1x512) broadcasts_S1x512_S512x512)))))
    d (broadcast S512x512 (Scalar.ofBits (F := Ideal) .f32 0x00000000#32))

/-- The chunk at (r, q) with the 8 comparisons read as Booleans. -/
theorem maskedChunk_apply (wct : FVec Ideal S8x512 .bf16) (d : FVec Ideal S512x512 .f32) (C : FVec Ideal S512x8 .bf16)
    (r q : Fin 512) :
    maskedChunk wct d C (ix2 r q)
      = Scalar.select (BitVec.ofBool
          (((decide (C (ix2 r (⟨0, by decide⟩ : Fin 8)) = wct (ix2 (⟨0, by decide⟩ : Fin 8) q))
              || decide (C (ix2 r (⟨1, by decide⟩ : Fin 8)) = wct (ix2 (⟨1, by decide⟩ : Fin 8) q)))
            || (decide (C (ix2 r (⟨2, by decide⟩ : Fin 8)) = wct (ix2 (⟨2, by decide⟩ : Fin 8) q))
              || decide (C (ix2 r (⟨3, by decide⟩ : Fin 8)) = wct (ix2 (⟨3, by decide⟩ : Fin 8) q))))
          || ((decide (C (ix2 r (⟨4, by decide⟩ : Fin 8)) = wct (ix2 (⟨4, by decide⟩ : Fin 8) q))
              || decide (C (ix2 r (⟨5, by decide⟩ : Fin 8)) = wct (ix2 (⟨5, by decide⟩ : Fin 8) q)))
            || (decide (C (ix2 r (⟨6, by decide⟩ : Fin 8)) = wct (ix2 (⟨6, by decide⟩ : Fin 8) q))
              || decide (C (ix2 r (⟨7, by decide⟩ : Fin 8)) = wct (ix2 (⟨7, by decide⟩ : Fin 8) q))))))
          (d (ix2 r q)) (Ideal.ofBits .f32 0x00000000#32) := by
  unfold maskedChunk
  rw [select_apply, broadcast_apply]
  simp only [ori_apply]
  rw [cmp_table_apply 0 (by decide), cmp_table_apply 1 (by decide), cmp_table_apply 2 (by decide),
    cmp_table_apply 3 (by decide), cmp_table_apply 4 (by decide), cmp_table_apply 5 (by decide),
    cmp_table_apply 6 (by decide), cmp_table_apply 7 (by decide)]
  simp only [WordArith.ori_ofBool]
  rfl

/-- A select on a Boolean's one-bit word is the `if` on the Boolean. -/
theorem select_ofBool {α : Type} (b : Bool) (x y : α) : Scalar.select (BitVec.ofBool b) x y = if b then x else y := by
  cases b
  · exact select_zero x y
  · exact select_one x y

/-- Where in some table the token's code equals the weight's, the chunk keeps the dense entry. -/
theorem maskedChunk_hit (wct : FVec Ideal S8x512 .bf16) (d : FVec Ideal S512x512 .f32) (C : FVec Ideal S512x8 .bf16)
    (r q : Fin 512) (h : ∃ t : Fin 8, C (ix2 r t) = wct (ix2 t q)) :
    maskedChunk wct d C (ix2 r q) = d (ix2 r q) := by
  rw [maskedChunk_apply, select_ofBool, if_pos]
  obtain ⟨t, ht⟩ := h
  match t, ht with
  | ⟨0, _⟩, ht => simp only [decide_eq_true ht, Bool.true_or, Bool.or_true]
  | ⟨1, _⟩, ht => simp only [decide_eq_true ht, Bool.true_or, Bool.or_true]
  | ⟨2, _⟩, ht => simp only [decide_eq_true ht, Bool.true_or, Bool.or_true]
  | ⟨3, _⟩, ht => simp only [decide_eq_true ht, Bool.true_or, Bool.or_true]
  | ⟨4, _⟩, ht => simp only [decide_eq_true ht, Bool.true_or, Bool.or_true]
  | ⟨5, _⟩, ht => simp only [decide_eq_true ht, Bool.true_or, Bool.or_true]
  | ⟨6, _⟩, ht => simp only [decide_eq_true ht, Bool.true_or, Bool.or_true]
  | ⟨7, _⟩, ht => simp only [decide_eq_true ht, Bool.true_or, Bool.or_true]

/-- Where in no table the codes are equal, the chunk is zero. -/
theorem maskedChunk_miss (wct : FVec Ideal S8x512 .bf16) (d : FVec Ideal S512x512 .f32) (C : FVec Ideal S512x8 .bf16)
    (r q : Fin 512) (h : ¬ ∃ t : Fin 8, C (ix2 r t) = wct (ix2 t q)) :
    maskedChunk wct d C (ix2 r q) = 0 := by
  have hn : ∀ t : Fin 8, decide (C (ix2 r t) = wct (ix2 t q)) = false := fun t =>
    decide_eq_false fun e => h ⟨t, e⟩
  rw [maskedChunk_apply, select_ofBool, hn ⟨0, by decide⟩, hn ⟨1, by decide⟩, hn ⟨2, by decide⟩, hn ⟨3, by decide⟩,
    hn ⟨4, by decide⟩, hn ⟨5, by decide⟩, hn ⟨6, by decide⟩, hn ⟨7, by decide⟩]
  exact Ideal.ofBits_zero_f32

end Cert.PayHash

end
-- ==== Proof.PayMain.lean ====
/-
  The second kernel's payloads at an index. The weight codes (transposed): at (t, q), table t's packed code of weight
  row q. The dense block: at (r, q), the inner product of token row r with weight row q plus the bias of q. Each of
  the four chunk stores is the canonical chunk of the weight codes, a dense block and the chunk's token codes, so at
  (r, q) it is the dense entry where token row r and weight row q collide and zero elsewhere.
-/
import proofs.«148647_g61529701483102_cont_9to1_m_177_19_alg».proof.Proof.Gen.KernelIdeal.Skeleton
import proofs.«148647_g61529701483102_cont_9to1_m_177_19_alg».proof.Proof.PayMatmul
import proofs.«148647_g61529701483102_cont_9to1_m_177_19_alg».proof.Proof.PayCode
import proofs.«148647_g61529701483102_cont_9to1_m_177_19_alg».proof.Proof.PayPrep
import proofs.«148647_g61529701483102_cont_9to1_m_177_19_alg».proof.Proof.PayMask

noncomputable section

open scoped BigOperators

namespace Cert.PayHash

open Cert.KernelIdeal Cert.KernelIdeal.Gen Cert.HashMask Idealize.ShloMosaic Idealize.ShloMosaic.ValueIdx

/-! ## The casts and same-shape casts -/

/-- The cast of the weight block is the identity. -/
theorem k1_pay2_eq (Wb : Vec Ideal S512x1024 .f32) : k1_pay2 (F := Ideal) Wb = Wb := rfl

/-- The same-shape cast of the bias block is the identity. -/
theorem k1_pay4_eq (bias : Vec Ideal S1x512 .f32) : k1_pay4 (F := Ideal) bias = bias := by
  unfold k1_pay4
  exact shapeCast_self _ _

/-- The same-shape cast of each chunk's token codes is the identity. -/
theorem k1_pay6_eq (Cc : Vec Ideal S512x8 .bf16) : k1_pay6 (F := Ideal) Cc = Cc := by
  unfold k1_pay6
  exact shapeCast_self _ _
theorem k1_pay14_eq (Cc : Vec Ideal S512x8 .bf16) : k1_pay14 (F := Ideal) Cc = Cc := by
  unfold k1_pay14
  exact shapeCast_self _ _
theorem k1_pay20_eq (Cc : Vec Ideal S512x8 .bf16) : k1_pay20 (F := Ideal) Cc = Cc := by
  unfold k1_pay20
  exact shapeCast_self _ _
theorem k1_pay26_eq (Cc : Vec Ideal S512x8 .bf16) : k1_pay26 (F := Ideal) Cc = Cc := by
  unfold k1_pay26
  exact shapeCast_self _ _

/-! ## The weight codes -/

/-- The second kernel's weight codes, transposed: projection product of the weight rows, sign bits, packing product with
    the transposed packing matrix on the left. -/
def mainCodes (A : FVec Ideal S512x1024 .bf16) (B : FVec Ideal S64x1024 .bf16) (pkt : FVec Ideal S8x64 .f32) :
    FVec Ideal S8x512 .bf16 :=
  truncf .bf16
    (matmul (φ₁ := .f32) (φ₂ := .f32) dot_S8x64_S512x64_S8x512_1_1_0_0_n_n (some .fp32) pkt
      (sitofp (F := Ideal) .f32
        (extui 32 (cmpf .ogt
          (matmul dot_S512x1024_S64x1024_S512x64_1_1_0_0_n_n none A B (constant S512x64 .f32 0x00000000#32))
          (broadcast S512x64 (Scalar.ofBits (F := Ideal) .f32 0x00000000#32))) natLt_1_32))
      (constant S8x512 .f32 0x00000000#32))
    bitsLt_bf16_f32

/-- At (t, q) the weight codes are table t's packed code of row q of `A` under the projection rows `B`. -/
theorem mainCodes_apply (A : FVec Ideal S512x1024 .bf16) (B : FVec Ideal S64x1024 .bf16) (pkt : FVec Ideal S8x64 .f32)
    (hpkt : ∀ (t : Fin 8) (j : Fin 64), pkt (ix2 t j) = packWeight j t) (t : Fin 8) (q : Fin 512) :
    mainCodes A B pkt (ix2 t q) = fcode (fun d => A (ix2 q d)) (rows64 B) t := by
  unfold mainCodes
  rw [truncf_apply, matmul_packT_apply, ← pack_left_eq_fcode]
  refine Finset.sum_congr rfl fun j _ => ?_
  rw [signbits_apply, hpkt]

/-- The weight-code payload is that chain. -/
theorem k1_pay3_eq (P : Vec Ideal S64x1024 .f32) (Wb : Vec Ideal S512x1024 .f32) (pkt : Vec Ideal S8x64 .f32) :
    k1_pay3 (F := Ideal) P Wb pkt = mainCodes (k1_pay2 Wb) (k0_pay5 P) pkt := rfl

/-- The weight codes at (t, q): table t's packed code of weight row q. -/
theorem k1_pay3_apply (P : Vec Ideal S64x1024 .f32) (Wb : Vec Ideal S512x1024 .f32) (pkt : Vec Ideal S8x64 .f32)
    (hpkt : ∀ (t : Fin 8) (j : Fin 64), pkt (ix2 t j) = packWeight j t) (t : Fin 8) (q : Fin 512) :
    k1_pay3 (F := Ideal) P Wb pkt (ix2 t q) = fcode (fun d => Wb (ix2 q d)) (rows64 P) t := by
  rw [k1_pay3_eq, mainCodes_apply _ _ _ hpkt, k1_pay2_eq, k0_pay5_eq]

/-! ## The dense block -/

/-- A chunk's dense block: the product of the token rows with the weight rows plus the bias broadcast along the rows. -/
def denseBlock (A : FVec Ideal S512x1024 .bf16) (W : FVec Ideal S512x1024 .bf16) (b : FVec Ideal S1x512 .f32) :
    FVec Ideal S512x512 .f32 :=
  addf (matmul dot_S512x1024_S512x1024_S512x512_1_1_0_0_n_n none A W (constant S512x512 .f32 0x00000000#32))
    (broadcastTo S512x512 b broadcasts_S1x512_S512x512)

/-- At (r, q): the inner product of row r of `A` with row q of `W`, plus `b` at q. -/
theorem denseBlock_apply (A : FVec Ideal S512x1024 .bf16) (W : FVec Ideal S512x1024 .bf16) (b : FVec Ideal S1x512 .f32)
    (r q : Fin 512) :
    denseBlock A W b (ix2 r q) = dense (fun d => A (ix2 r d)) (fun d => W (ix2 q d)) (b (ix2 (0 : Fin 1) q)) := by
  unfold denseBlock dense
  rw [addf_apply, matmul_dense_apply, broadcastTo_1b_ab_apply (a := 512) (b := 512)]

/-- The four dense payloads are that block of the chunk's tokens (through a same-shape cast), the weight block and the
    bias block. -/
theorem k1_pay5_eq (Wb : Vec Ideal S512x1024 .f32) (bias : Vec Ideal S1x512 .f32) (Xc : Vec Ideal S512x1024 .bf16) :
    k1_pay5 (F := Ideal) Wb bias Xc
      = denseBlock (shapeCast S512x1024 Xc shapeCasts_S512x1024_S512x1024) (k1_pay2 Wb) (k1_pay4 bias) := rfl
theorem k1_pay13_eq (W : FVec Ideal S512x1024 .bf16) (b : FVec Ideal S1x512 .f32) (Xc : Vec Ideal S512x1024 .bf16) :
    k1_pay13 (F := Ideal) W b Xc = denseBlock (shapeCast S512x1024 Xc shapeCasts_S512x1024_S512x1024) W b := rfl
theorem k1_pay19_eq (W : FVec Ideal S512x1024 .bf16) (b : FVec Ideal S1x512 .f32) (Xc : Vec Ideal S512x1024 .bf16) :
    k1_pay19 (F := Ideal) W b Xc = denseBlock (shapeCast S512x1024 Xc shapeCasts_S512x1024_S512x1024) W b := rfl
theorem k1_pay25_eq (W : FVec Ideal S512x1024 .bf16) (b : FVec Ideal S1x512 .f32) (Xc : Vec Ideal S512x1024 .bf16) :
    k1_pay25 (F := Ideal) W b Xc = denseBlock (shapeCast S512x1024 Xc shapeCasts_S512x1024_S512x1024) W b := rfl

/-- The first chunk's dense block at (r, q). -/
theorem k1_pay5_apply (Wb : Vec Ideal S512x1024 .f32) (bias : Vec Ideal S1x512 .f32) (Xc : Vec Ideal S512x1024 .bf16)
    (r q : Fin 512) :
    k1_pay5 (F := Ideal) Wb bias Xc (ix2 r q)
      = dense (fun d => Xc (ix2 r d)) (fun d => Wb (ix2 q d)) (bias (ix2 (0 : Fin 1) q)) := by
  rw [k1_pay5_eq, denseBlock_apply, shapeCast_self, k1_pay2_eq, k1_pay4_eq]

/-- The second chunk's dense block at (r, q). -/
theorem k1_pay13_apply (Wb : Vec Ideal S512x1024 .f32) (bias : Vec Ideal S1x512 .f32) (Xc : Vec Ideal S512x1024 .bf16)
    (r q : Fin 512) :
    k1_pay13 (F := Ideal) (k1_pay2 Wb) (k1_pay4 bias) Xc (ix2 r q)
      = dense (fun d => Xc (ix2 r d)) (fun d => Wb (ix2 q d)) (bias (ix2 (0 : Fin 1) q)) := by
  rw [k1_pay13_eq, denseBlock_apply, shapeCast_self, k1_pay2_eq, k1_pay4_eq]

/-- The third chunk's dense block at (r, q). -/
theorem k1_pay19_apply (Wb : Vec Ideal S512x1024 .f32) (bias : Vec Ideal S1x512 .f32) (Xc : Vec Ideal S512x1024 .bf16)
    (r q : Fin 512) :
    k1_pay19 (F := Ideal) (k1_pay2 Wb) (k1_pay4 bias) Xc (ix2 r q)
      = dense (fun d => Xc (ix2 r d)) (fun d => Wb (ix2 q d)) (bias (ix2 (0 : Fin 1) q)) := by
  rw [k1_pay19_eq, denseBlock_apply, shapeCast_self, k1_pay2_eq, k1_pay4_eq]

/-- The fourth chunk's dense block at (r, q). -/
theorem k1_pay25_apply (Wb : Vec Ideal S512x1024 .f32) (bias : Vec Ideal S1x512 .f32) (Xc : Vec Ideal S512x1024 .bf16)
    (r q : Fin 512) :
    k1_pay25 (F := Ideal) (k1_pay2 Wb) (k1_pay4 bias) Xc (ix2 r q)
      = dense (fun d => Xc (ix2 r d)) (fun d => Wb (ix2 q d)) (bias (ix2 (0 : Fin 1) q)) := by
  rw [k1_pay25_eq, denseBlock_apply, shapeCast_self, k1_pay2_eq, k1_pay4_eq]

/-! ## A canonical chunk of codes and dense values is the masked entry -/

/-- When the token codes, the weight codes and the dense block read as the packed codes and the dense value of rows
    `u r` and `v q`, the canonical chunk at (r, q) is the masked entry of the two rows. -/
theorem chunk_entry (wct : FVec Ideal S8x512 .bf16) (D : FVec Ideal S512x512 .f32) (C : FVec Ideal S512x8 .bf16)
    (u v : Fin 512 → Fin 1024 → EReal) (β : Fin 512 → EReal) (p : Fin 8 → Fin 8 → Fin 1024 → EReal)
    (hC : ∀ (r : Fin 512) (t : Fin 8), C (ix2 r t) = fcode (u r) p t)
    (hW : ∀ (t : Fin 8) (q : Fin 512), wct (ix2 t q) = fcode (v q) p t)
    (hD : ∀ r q : Fin 512, D (ix2 r q) = dense (u r) (v q) (β q)) (r q : Fin 512) :
    maskedChunk wct D C (ix2 r q) = Cert.HashMask.entry (u r) (v q) (β q) p := by
  unfold Cert.HashMask.entry
  by_cases h : collide (u r) (v q) p
  · rw [if_pos h, maskedChunk_hit _ _ _ _ _ ?_, hD]
    obtain ⟨t, ht⟩ := (exists_fcode_eq_iff_collide _ _ _).mpr h
    exact ⟨t, by rw [hC, hW]; exact ht⟩
  · rw [if_neg h, maskedChunk_miss]
    rintro ⟨t, ht⟩
    exact h ((exists_fcode_eq_iff_collide _ _ _).mp ⟨t, by rw [← hC, ← hW]; exact ht⟩)

/-! ## The four chunk stores -/

/-- The first chunk's store is the canonical chunk of the weight codes, its dense block and its token codes. -/
theorem chunkA_eq (P : Vec Ideal S64x1024 .f32) (Wb : Vec Ideal S512x1024 .f32) (pkt : Vec Ideal S8x64 .f32)
    (bias : Vec Ideal S1x512 .f32) (Xc : Vec Ideal S512x1024 .bf16) (Cc : Vec Ideal S512x8 .bf16) :
    k1_pay12 (F := Ideal) (k1_pay3 P Wb pkt) (k1_pay5 Wb bias Xc) (k1_pay6 Cc) (k1_pay7 P Wb pkt Cc) (k1_pay8 P Wb pkt Cc)
      (k1_pay9 P Wb pkt Cc) (k1_pay10 P Wb pkt Cc) (k1_pay11 Cc)
      = maskedChunk (k1_pay3 P Wb pkt) (k1_pay5 Wb bias Xc) (k1_pay6 Cc) := rfl

/-- The first chunk's store at (r, q): the masked entry of token row r and weight row q. -/
theorem chunkA_apply (P : Vec Ideal S64x1024 .f32) (Wb : Vec Ideal S512x1024 .f32) (pkt : Vec Ideal S8x64 .f32)
    (bias : Vec Ideal S1x512 .f32) (Xc : Vec Ideal S512x1024 .bf16) (Cc : Vec Ideal S512x8 .bf16)
    (hpkt : ∀ (t : Fin 8) (j : Fin 64), pkt (ix2 t j) = packWeight j t)
    (hC : ∀ (r : Fin 512) (t : Fin 8), Cc (ix2 r t) = fcode (fun d => Xc (ix2 r d)) (rows64 P) t) (r q : Fin 512) :
    (k1_pay12 (F := Ideal) (k1_pay3 P Wb pkt) (k1_pay5 Wb bias Xc) (k1_pay6 Cc) (k1_pay7 P Wb pkt Cc) (k1_pay8 P Wb pkt Cc)
      (k1_pay9 P Wb pkt Cc) (k1_pay10 P Wb pkt Cc) (k1_pay11 Cc)) (ix2 r q)
      = Cert.HashMask.entry (fun d => Xc (ix2 r d)) (fun d => Wb (ix2 q d)) (bias (ix2 (0 : Fin 1) q)) (rows64 P) := by
  rw [chunkA_eq]
  exact chunk_entry _ _ _ (fun r d => Xc (ix2 r d)) (fun q d => Wb (ix2 q d)) (fun q => bias (ix2 (0 : Fin 1) q)) (rows64 P)
    (fun r t => by rw [k1_pay6_eq]; exact hC r t) (fun t q => k1_pay3_apply P Wb pkt hpkt t q)
    (fun r q => k1_pay5_apply Wb bias Xc r q) r q

/-- The second chunk's store is the canonical chunk of the weight codes, its dense block and its token codes. -/
theorem chunkB_eq (P : Vec Ideal S64x1024 .f32) (Wb : Vec Ideal S512x1024 .f32) (pkt : Vec Ideal S8x64 .f32)
    (bias : Vec Ideal S1x512 .f32) (Xc : Vec Ideal S512x1024 .bf16) (Cc : Vec Ideal S512x8 .bf16) :
    k1_pay18 (F := Ideal) (k1_pay3 P Wb pkt) (k1_pay13 (k1_pay2 Wb) (k1_pay4 bias) Xc) (k1_pay14 Cc)
      (k1_pay15 (k1_pay3 P Wb pkt) Cc) (k1_pay16 (k1_pay3 P Wb pkt) Cc) (k1_pay17 (k1_pay3 P Wb pkt) Cc)
      = maskedChunk (k1_pay3 P Wb pkt) (k1_pay13 (k1_pay2 Wb) (k1_pay4 bias) Xc) (k1_pay14 Cc) := rfl

/-- The second chunk's store at (r, q): the masked entry of token row r and weight row q. -/
theorem chunkB_apply (P : Vec Ideal S64x1024 .f32) (Wb : Vec Ideal S512x1024 .f32) (pkt : Vec Ideal S8x64 .f32)
    (bias : Vec Ideal S1x512 .f32) (Xc : Vec Ideal S512x1024 .bf16) (Cc : Vec Ideal S512x8 .bf16)
    (hpkt : ∀ (t : Fin 8) (j : Fin 64), pkt (ix2 t j) = packWeight j t)
    (hC : ∀ (r : Fin 512) (t : Fin 8), Cc (ix2 r t) = fcode (fun d => Xc (ix2 r d)) (rows64 P) t) (r q : Fin 512) :
    (k1_pay18 (F := Ideal) (k1_pay3 P Wb pkt) (k1_pay13 (k1_pay2 Wb) (k1_pay4 bias) Xc) (k1_pay14 Cc)
      (k1_pay15 (k1_pay3 P Wb pkt) Cc) (k1_pay16 (k1_pay3 P Wb pkt) Cc) (k1_pay17 (k1_pay3 P Wb pkt) Cc)) (ix2 r q)
      = Cert.HashMask.entry (fun d => Xc (ix2 r d)) (fun d => Wb (ix2 q d)) (bias (ix2 (0 : Fin 1) q)) (rows64 P) := by
  rw [chunkB_eq]
  exact chunk_entry _ _ _ (fun r d => Xc (ix2 r d)) (fun q d => Wb (ix2 q d)) (fun q => bias (ix2 (0 : Fin 1) q)) (rows64 P)
    (fun r t => by rw [k1_pay14_eq]; exact hC r t) (fun t q => k1_pay3_apply P Wb pkt hpkt t q)
    (fun r q => k1_pay13_apply Wb bias Xc r q) r q

/-- The third chunk's store is the canonical chunk of the weight codes, its dense block and its token codes. -/
theorem chunkC_eq (P : Vec Ideal S64x1024 .f32) (Wb : Vec Ideal S512x1024 .f32) (pkt : Vec Ideal S8x64 .f32)
    (bias : Vec Ideal S1x512 .f32) (Xc : Vec Ideal S512x1024 .bf16) (Cc : Vec Ideal S512x8 .bf16) :
    k1_pay24 (F := Ideal) (k1_pay3 P Wb pkt) (k1_pay19 (k1_pay2 Wb) (k1_pay4 bias) Xc) (k1_pay20 Cc)
      (k1_pay21 (k1_pay3 P Wb pkt) Cc) (k1_pay22 Cc) (k1_pay23 (k1_pay3 P Wb pkt))
      = maskedChunk (k1_pay3 P Wb pkt) (k1_pay19 (k1_pay2 Wb) (k1_pay4 bias) Xc) (k1_pay20 Cc) := rfl

/-- The third chunk's store at (r, q): the masked entry of token row r and weight row q. -/
theorem chunkC_apply (P : Vec Ideal S64x1024 .f32) (Wb : Vec Ideal S512x1024 .f32) (pkt : Vec Ideal S8x64 .f32)
    (bias : Vec Ideal S1x512 .f32) (Xc : Vec Ideal S512x1024 .bf16) (Cc : Vec Ideal S512x8 .bf16)
    (hpkt : ∀ (t : Fin 8) (j : Fin 64), pkt (ix2 t j) = packWeight j t)
    (hC : ∀ (r : Fin 512) (t : Fin 8), Cc (ix2 r t) = fcode (fun d => Xc (ix2 r d)) (rows64 P) t) (r q : Fin 512) :
    (k1_pay24 (F := Ideal) (k1_pay3 P Wb pkt) (k1_pay19 (k1_pay2 Wb) (k1_pay4 bias) Xc) (k1_pay20 Cc)
      (k1_pay21 (k1_pay3 P Wb pkt) Cc) (k1_pay22 Cc) (k1_pay23 (k1_pay3 P Wb pkt))) (ix2 r q)
      = Cert.HashMask.entry (fun d => Xc (ix2 r d)) (fun d => Wb (ix2 q d)) (bias (ix2 (0 : Fin 1) q)) (rows64 P) := by
  rw [chunkC_eq]
  exact chunk_entry _ _ _ (fun r d => Xc (ix2 r d)) (fun q d => Wb (ix2 q d)) (fun q => bias (ix2 (0 : Fin 1) q)) (rows64 P)
    (fun r t => by rw [k1_pay20_eq]; exact hC r t) (fun t q => k1_pay3_apply P Wb pkt hpkt t q)
    (fun r q => k1_pay19_apply Wb bias Xc r q) r q

/-- The fourth chunk's store is the canonical chunk of the weight codes, its dense block and its token codes. -/
theorem chunkD_eq (P : Vec Ideal S64x1024 .f32) (Wb : Vec Ideal S512x1024 .f32) (pkt : Vec Ideal S8x64 .f32)
    (bias : Vec Ideal S1x512 .f32) (Xc : Vec Ideal S512x1024 .bf16) (Cc : Vec Ideal S512x8 .bf16) :
    k1_pay1 (F := Ideal) (k1_pay3 P Wb pkt) (k1_pay25 (k1_pay2 Wb) (k1_pay4 bias) Xc) (k1_pay26 Cc)
      (k1_pay27 (k1_pay3 P Wb pkt)) (k1_pay28 Cc)
      = maskedChunk (k1_pay3 P Wb pkt) (k1_pay25 (k1_pay2 Wb) (k1_pay4 bias) Xc) (k1_pay26 Cc) := rfl

/-- The fourth chunk's store at (r, q): the masked entry of token row r and weight row q. -/
theorem chunkD_apply (P : Vec Ideal S64x1024 .f32) (Wb : Vec Ideal S512x1024 .f32) (pkt : Vec Ideal S8x64 .f32)
    (bias : Vec Ideal S1x512 .f32) (Xc : Vec Ideal S512x1024 .bf16) (Cc : Vec Ideal S512x8 .bf16)
    (hpkt : ∀ (t : Fin 8) (j : Fin 64), pkt (ix2 t j) = packWeight j t)
    (hC : ∀ (r : Fin 512) (t : Fin 8), Cc (ix2 r t) = fcode (fun d => Xc (ix2 r d)) (rows64 P) t) (r q : Fin 512) :
    (k1_pay1 (F := Ideal) (k1_pay3 P Wb pkt) (k1_pay25 (k1_pay2 Wb) (k1_pay4 bias) Xc) (k1_pay26 Cc)
      (k1_pay27 (k1_pay3 P Wb pkt)) (k1_pay28 Cc)) (ix2 r q)
      = Cert.HashMask.entry (fun d => Xc (ix2 r d)) (fun d => Wb (ix2 q d)) (bias (ix2 (0 : Fin 1) q)) (rows64 P) := by
  rw [chunkD_eq]
  exact chunk_entry _ _ _ (fun r d => Xc (ix2 r d)) (fun q d => Wb (ix2 q d)) (fun q => bias (ix2 (0 : Fin 1) q)) (rows64 P)
    (fun r t => by rw [k1_pay26_eq]; exact hC r t) (fun t q => k1_pay3_apply P Wb pkt hpkt t q)
    (fun r q => k1_pay25_apply Wb bias Xc r q) r q

end Cert.PayHash

end
-- ==== Proof.PrepValue.lean ====
/-
  The first region's two output arrays after its run, as functions of what it finds on entry.

  The region has one grid point and every window's block is its whole array. Its body handles the 2048 token rows
  in four chunks of 512: each chunk is stored back unchanged (a change of float format is the identity on the
  extended reals), and its hash codes — table t's code of row s is the packed 8 sign bits of that row against the
  table's 8 projections — are stored into the [2048, 8] codes array. The four stores tile each output, so each output
  is ONE function of the index, whichever store wrote it.
-/
import proofs.«148647_g61529701483102_cont_9to1_m_177_19_alg».proof.Proof.KernelArrays
import proofs.«148647_g61529701483102_cont_9to1_m_177_19_alg».proof.Proof.PackWords
import proofs.«148647_g61529701483102_cont_9to1_m_177_19_alg».proof.Proof.PayMain
import Idealize.ShloMosaic.PureOps.Ideal.Laws

set_option maxRecDepth 16384

noncomputable section

namespace Cert.KernelIdeal.HashPrep

open Cert.KernelIdeal Cert.KernelIdeal.Gen Cert.KernelIdeal.HashArrays Cert.KernelIdeal.PackWords Cert.HashMask Cert.PayHash
open Idealize.ShloMosaic Idealize.ShloMosaic.TcCoe Idealize.SL.Sem
open Idealize.ShloMosaic.Pipeline (Dat)
open Idealize.ShloMosaic.ValueIdx

local notation "𝕀" => Idealize.ShloMosaic.Ideal

theorem zero_offsets : (![0, 0] : Fin 2 → Nat) = fun _ => 0 := funext fun a => by fin_cases a <;> rfl

/-- Two codes agree when the rows agree entry by entry and the tables are the same. -/
theorem fcode_congr {u u' : Fin 1024 → EReal} {p : Fin 8 → Fin 8 → Fin 1024 → EReal} {t t' : Fin 8}
    (hu : ∀ d, u d = u' d) (ht : t = t') : fcode u p t = fcode u' p t' := by
  subst ht; rw [show u = u' from funext hu]

/-! ## What the first region's body leaves, index by index (over any blocks) -/

/-- The cast output: the four stores of 512 rows each put the token block back unchanged. -/
theorem out0_3_apply (x0 : Vec 𝕀 S2048x1024 .f32) (x1 : Vec 𝕀 S64x1024 .f32) (x2 : Vec 𝕀 S64x8 .f32) (y : S2048x1024.Idx) :
    (out0_3 (F := 𝕀) x0 x1 x2 y : EReal) = x0 y := by
  unfold out0_3
  rw [k0_pay3_eq, k0_pay1_eq, k0_pay8_eq, k0_pay6_eq]
  refine View.canon_apply_of_pieces (Val := Elt 𝕀) (e := .bf16) (fun y => x0 y) _ ?_ y (cover0_3 _ _ _ _ y)
  intro p hp x
  simp only [List.mem_cons, List.mem_nil_iff, or_false] at hp
  rcases hp with rfl | rfl | rfl | rfl <;> rfl

/-- Four stores of 512 rows each, whatever their payloads, read back as ONE function of the index when each payload
    is that function under its rectangle. -/
theorem canon_codes (p0 p1 p2 p3 : Vec 𝕀 S512x8 .bf16) (G : S2048x8.Idx → EReal)
    (h0 : ∀ x : S512x8.Idx, p0 x = G (r0_9.emb x)) (h1 : ∀ x : S512x8.Idx, p1 x = G (r0_7.emb x))
    (h2 : ∀ x : S512x8.Idx, p2 x = G (r0_5.emb x)) (h3 : ∀ x : S512x8.Idx, p3 x = G (r0_3.emb x)) (y : S2048x8.Idx) :
    (View.canon (Val := Elt 𝕀) [⟨r0_9, p0⟩, ⟨r0_7, p1⟩, ⟨r0_5, p2⟩, ⟨r0_3, p3⟩] y : EReal) = G y := by
  refine View.canon_apply_of_pieces (Val := Elt 𝕀) (e := .bf16) G _ ?_ y (cover0_4 _ _ _ _ y)
  intro p hp x
  simp only [List.mem_cons, List.mem_nil_iff, or_false] at hp
  rcases hp with rfl | rfl | rfl | rfl
  · exact h0 x
  · exact h1 x
  · exact h2 x
  · exact h3 x

/-- One chunk of 512 token rows at row offset `o`: its codes payload, read under the chunk's rectangle of the codes
    array, is the code of the token row it belongs to. -/
theorem chunk_codes (x0 : Vec 𝕀 S2048x1024 .f32) (x1 : Vec 𝕀 S64x1024 .f32) (o : Nat)
    (inbX : ∀ a, (![o, 0] : Fin 2 → Nat) a + S512x1024.size a ≤ S2048x1024.size a)
    (inbC : ∀ a, (![o, 0] : Fin 2 → Nat) a + S512x8.size a ≤ S2048x8.size a)
    (pay : Vec 𝕀 S512x8 .bf16)
    (hpay : ∀ (r : Fin 512) (t : Fin 8), pay (ix2 r t)
      = fcode (fun d => View.ld x0 (Rect.unit (s := S2048x1024) ![o, 0] S512x1024.size inbX) (ix2 r d)) (rows64 x1) t)
    (x : S512x8.Idx) :
    pay x = (fun y : S2048x8.Idx => fcode (fun d => x0 (ix2 (y 0 : Fin 2048) d)) (rows64 x1) (y 1 : Fin 8))
      ((Rect.unit (s := S2048x8) ![o, 0] S512x8.size inbC).emb x) := by
  obtain ⟨r, t, rfl⟩ : ∃ (r : Fin 512) (t : Fin 8), x = ix2 r t := ⟨x 0, x 1, eq_ix2 x⟩
  refine (hpay r t).trans (fcode_congr (fun d => ?_) (Fin.ext ?_))
  · refine congrArg x0 (funext fun a => Fin.ext ?_)
    match a with
    | ⟨0, _⟩ => show o + 1 * r.val = o + 1 * r.val; rfl
    | ⟨1, _⟩ => show 0 + 1 * d.val = d.val; omega
  · show t.val = 0 + 1 * t.val; omega

/-- The codes output: entry (s, t) is table t's code of token row s, whichever of the four stores wrote it. -/
theorem out0_4_apply (x0 : Vec 𝕀 S2048x1024 .f32) (x1 : Vec 𝕀 S64x1024 .f32) (x2 : Vec 𝕀 S64x8 .f32)
    (hpk : ∀ (j : Fin 64) (t : Fin 8), x2 (ix2 j t) = packWeight j t) (y : S2048x8.Idx) :
    (out0_4 (F := 𝕀) x0 x1 x2 y : EReal) = fcode (fun d => x0 (ix2 (y 0 : Fin 2048) d)) (rows64 x1) (y 1 : Fin 8) := by
  unfold out0_4
  have eP : View.ld x1 r0_0 = x1 := View.ld_unit_zero (S := S64x1024) zero_offsets _ x1
  have epk : View.ld x2 r0_2 = x2 := View.ld_unit_zero (S := S64x8) zero_offsets _ x2
  rw [eP, epk]
  exact canon_codes _ _ _ _ (fun y : S2048x8.Idx => fcode (fun d => x0 (ix2 (y 0 : Fin 2048) d)) (rows64 x1) (y 1 : Fin 8))
    (chunk_codes x0 x1 1536 _ _ _ (k0_pay4_apply x1 (View.ld x0 r0_8) x2 hpk))
    (chunk_codes x0 x1 1024 _ _ _ (k0_pay2_apply x1 (View.ld x0 r0_6) x2 hpk))
    (chunk_codes x0 x1 512 _ _ _ (k0_pay9_apply x1 (View.ld x0 r0_4) x2 hpk))
    (chunk_codes x0 x1 0 _ _ _ (k0_pay7_apply x1 (View.ld x0 r0_1) x2 hpk)) y

/-! ## The first region's windows: one grid point, every block the whole array -/

variable (m : (ℓ : Loc nD τ sig) → Buf (Elt 𝕀) ℓ) (ρ : Dev nD → PrngReg)

/-- Every window of the first region sits at block index (0, 0) at its one grid point. -/
theorem index_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The token window's block is the token array. -/
theorem tokens_block (c : Dev nD) (t : Fin cfg0.N) (y : S2048x1024.Idx) :
    iblk0 (V1 m ρ) c 0 t y = (V1 m ρ c main_call0_v0 : S2048x1024.Idx → EReal) y := by
  obtain ⟨e0, e1, -⟩ := index_facts t
  show (V1 m ρ c main_call0_v0 : S2048x1024.Idx → EReal) (((cfg0.win 0).blk t).view.emb y) = _
  refine congrArg _ (funext fun a => Fin.ext ?_)
  match a with
  | ⟨0, _⟩ => show win0_0.index t (0 : Fin 2) * 2048 + 1 * (y 0).val = (y 0).val; omega
  | ⟨1, _⟩ => show win0_0.index t (1 : Fin 2) * 1024 + 1 * (y 1).val = (y 1).val; omega

/-- The projection window's block is the reshaped projection array. -/
theorem proj_block (c : Dev nD) (t : Fin cfg0.N) :
    iblk0 (V1 m ρ) c 1 t = (V1 m ρ c main_call0_v1 : S64x1024.Idx → EReal) := by
  obtain ⟨-, -, e0, e1, -⟩ := index_facts t
  funext y
  show (V1 m ρ c main_call0_v1 : S64x1024.Idx → EReal) (((cfg0.win 1).blk t).view.emb y) = _
  refine congrArg _ (funext fun a => Fin.ext ?_)
  match a with
  | ⟨0, _⟩ => show win0_1.index t (0 : Fin 2) * 64 + 1 * (y 0).val = (y 0).val; omega
  | ⟨1, _⟩ => show win0_1.index t (1 : Fin 2) * 1024 + 1 * (y 1).val = (y 1).val; omega

/-- The packing window's block is the packing matrix. -/
theorem pack_block (c : Dev nD) (t : Fin cfg0.N) (y : S64x8.Idx) :
    iblk0 (V1 m ρ) c 2 t y = (V1 m ρ c main_call0_cst_0 : S64x8.Idx → EReal) y := by
  obtain ⟨-, -, -, -, e0, e1, -⟩ := index_facts t
  show (V1 m ρ c main_call0_cst_0 : S64x8.Idx → EReal) (((cfg0.win 2).blk t).view.emb y) = _
  refine congrArg _ (funext fun a => Fin.ext ?_)
  match a with
  | ⟨0, _⟩ => show win0_2.index t (0 : Fin 2) * 64 + 1 * (y 0).val = (y 0).val; omega
  | ⟨1, _⟩ => show win0_2.index t (1 : Fin 2) * 8 + 1 * (y 1).val = (y 1).val; omega

/-- An index of the token copy is in the one point's block iff each coordinate is in the block's range. -/
theorem mem_block3 (t : Fin cfg0.N) (i : S2048x1024.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_call0_v3_0).slice (win0_3.rect t)).set ↔ _
  rw [View.set_slice_whole, Rect.mem_set_unit]
  exact Iff.rfl

/-- The one point's block covers the token copy. -/
theorem cover3 (i : S2048x1024.Idx) : ∃ t : Fin cfg0.N, (cfg0.win 3).flush t = true ∧ i ∈ ((cfg0.win 3).blk t).view.set := by
  refine ⟨⟨0, by decide⟩, flush0_3 _, ?_⟩
  obtain ⟨-, -, -, -, -, -, e0, e1, -⟩ := index_facts (⟨0, by decide⟩ : Fin cfg0.N)
  rw [mem_block3]
  intro a
  have hi0 : (i 0).val < 2048 := (i 0).isLt
  have hi1 : (i 1).val < 1024 := (i 1).isLt
  match a with
  | ⟨0, _⟩ => show win0_3.index ⟨0, by decide⟩ (0 : Fin 2) * 2048 ≤ (i 0).val ∧ (i 0).val < win0_3.index ⟨0, by decide⟩ (0 : Fin 2) * 2048 + 2048; omega
  | ⟨1, _⟩ => show win0_3.index ⟨0, by decide⟩ (1 : Fin 2) * 1024 ≤ (i 1).val ∧ (i 1).val < win0_3.index ⟨0, by decide⟩ (1 : Fin 2) * 1024 + 1024; omega

/-- An index of the codes array is in the one point's block iff each coordinate is in the block's range. -/
theorem mem_block4 (t : Fin cfg0.N) (i : S2048x8.Idx) :
    i ∈ ((cfg0.win 4).blk t).view.set ↔ ∀ a : Fin 2, win0_4.index t a * S2048x8.size a ≤ (i a).val ∧ (i a).val < win0_4.index t a * S2048x8.size a + S2048x8.size a := by
  show i ∈ ((View.whole main_call0_v3_1).slice (win0_4.rect t)).set ↔ _
  rw [View.set_slice_whole, Rect.mem_set_unit]
  exact Iff.rfl

/-- The one point's block covers the codes array. -/
theorem cover4 (i : S2048x8.Idx) : ∃ t : Fin cfg0.N, (cfg0.win 4).flush t = true ∧ i ∈ ((cfg0.win 4).blk t).view.set := by
  refine ⟨⟨0, by decide⟩, flush0_4 _, ?_⟩
  obtain ⟨-, -, -, -, -, -, -, -, e0, e1⟩ := index_facts (⟨0, by decide⟩ : Fin cfg0.N)
  rw [mem_block4]
  intro a
  have hi0 : (i 0).val < 2048 := (i 0).isLt
  have hi1 : (i 1).val < 8 := (i 1).isLt
  match a with
  | ⟨0, _⟩ => show win0_4.index ⟨0, by decide⟩ (0 : Fin 2) * 2048 ≤ (i 0).val ∧ (i 0).val < win0_4.index ⟨0, by decide⟩ (0 : Fin 2) * 2048 + 2048; omega
  | ⟨1, _⟩ => show win0_4.index ⟨0, by decide⟩ (1 : Fin 2) * 8 ≤ (i 1).val ∧ (i 1).val < win0_4.index ⟨0, by decide⟩ (1 : Fin 2) * 8 + 8; omega

/-! ## The first region's two output arrays after its run -/

/-- The bf16 copy of the tokens holds the tokens (a change of float format is the identity on the extended reals). -/
theorem tokens_out (c : Dev nD) :
    (dat0 (V1 m ρ) c).arrAt 3 cfg0.N = (fun i => (V1 m ρ c main_call0_v0 : S2048x1024.Idx → EReal) i) := by
  refine (dat0 (V1 m ρ) c).arrAt_eq_of_cover 3 _ (fun t _ => ?_) cover3
  show (cfg0.win 3).cut (grid0.coords t) ((dat0 (V1 m ρ) c).after 3 t) = _
  rw [after0_3]
  obtain ⟨-, -, -, -, -, -, e0, e1, -⟩ := index_facts t
  funext j
  show out0_3 (F := 𝕀) (iblk0 (V1 m ρ) c 0 t) (iblk0 (V1 m ρ) c 1 t) (iblk0 (V1 m ρ) c 2 t) j
    = (V1 m ρ c main_call0_v0 : S2048x1024.Idx → EReal) (((cfg0.win 3).blk t).view.emb j)
  refine (out0_3_apply (iblk0 (V1 m ρ) c 0 t) (iblk0 (V1 m ρ) c 1 t) (iblk0 (V1 m ρ) c 2 t) j).trans ?_
  refine (tokens_block m ρ c t j).trans (congrArg _ (funext fun a => Fin.ext ?_))
  match a with
  | ⟨0, _⟩ => show (j 0).val = win0_3.index t (0 : Fin 2) * 2048 + 1 * (j 0).val; omega
  | ⟨1, _⟩ => show (j 1).val = win0_3.index t (1 : Fin 2) * 1024 + 1 * (j 1).val; omega

/-- The codes array holds, at (s, t), table t's code of token row s against the 64 reshaped projections. -/
theorem codes_out (c : Dev nD) :
    (dat0 (V1 m ρ) c).arrAt 4 cfg0.N
      = (fun i => fcode (fun d => (V1 m ρ c main_call0_v0 : S2048x1024.Idx → EReal) (ix2 (i 0 : Fin 2048) d))
          (rows64 (V1 m ρ c main_call0_v1 : S64x1024.Idx → EReal)) (i 1 : Fin 8)) := by
  refine (dat0 (V1 m ρ) c).arrAt_eq_of_cover 4 _ (fun t _ => ?_) cover4
  show (cfg0.win 4).cut (grid0.coords t) ((dat0 (V1 m ρ) c).after 4 t) = _
  rw [after0_4]
  obtain ⟨-, -, -, -, -, -, -, -, e0, e1⟩ := index_facts t
  funext j
  show out0_4 (F := 𝕀) (iblk0 (V1 m ρ) c 0 t) (iblk0 (V1 m ρ) c 1 t) (iblk0 (V1 m ρ) c 2 t) j
    = fcode (fun d => (V1 m ρ c main_call0_v0 : S2048x1024.Idx → EReal) (ix2 ((((cfg0.win 4).blk t).view.emb j) 0 : Fin 2048) d))
        (rows64 (V1 m ρ c main_call0_v1 : S64x1024.Idx → EReal)) ((((cfg0.win 4).blk t).view.emb j) 1 : Fin 8)
  refine (out0_4_apply (iblk0 (V1 m ρ) c 0 t) (iblk0 (V1 m ρ) c 1 t) (iblk0 (V1 m ρ) c 2 t)
    (fun j' t' => (pack_block m ρ c t (ix2 j' t')).trans (pack_apply m ρ c j' t')) j).trans ?_
  rw [proj_block m ρ c t]
  refine fcode_congr (fun d => ?_) (Fin.ext ?_)
  · refine (tokens_block m ρ c t (ix2 (j 0 : Fin 2048) d)).trans (congrArg _ (funext fun a => Fin.ext ?_))
    match a with
    | ⟨0, _⟩ => show (j 0).val = win0_4.index t (0 : Fin 2) * 2048 + 1 * (j 0).val; omega
    | ⟨1, _⟩ => rfl
  · show (j 1).val = win0_4.index t (1 : Fin 2) * 8 + 1 * (j 1).val; omega

end Cert.KernelIdeal.HashPrep

end
-- ==== Proof.MainValue.lean ====
/-
  The second region's output array after its run, as a function of the argument arrays.

  The region has eight grid points; point t handles weight rows 512·t … 512·t + 511: its weight block is those rows,
  its bias block those entries of the bias row, its output block columns 512·t … 512·t + 511 of the [2048, 4096]
  output; the token copy, the codes, the projections and the transposed packing matrix are whole-array blocks at
  every point. Entry (s, q) of a point's output block is the dense value of token row s and the block's weight row q
  where their codes collide in some table and zero elsewhere, whichever of the body's four stores (one per chunk of
  512 token rows) wrote it; the eight column blocks tile the output.
-/
import proofs.«148647_g61529701483102_cont_9to1_m_177_19_alg».proof.Proof.PrepValue

set_option maxRecDepth 16384

noncomputable section

namespace Cert.KernelIdeal.HashMain

open Cert.KernelIdeal Cert.KernelIdeal.Gen Cert.KernelIdeal.HashArrays Cert.KernelIdeal.PackWords Cert.KernelIdeal.HashPrep
open Cert.HashMask Cert.PayHash
open Idealize.ShloMosaic Idealize.ShloMosaic.TcCoe Idealize.SL.Sem
open Idealize.ShloMosaic.Pipeline (Dat)
open Idealize.ShloMosaic.ValueIdx

local notation "𝕀" => Idealize.ShloMosaic.Ideal

/-- Two masked entries agree when the rows agree entry by entry and the biases are equal. -/
theorem entry_congr {u u' v v' : Fin 1024 → EReal} {β β' : EReal} {p : Fin 8 → Fin 8 → Fin 1024 → EReal}
    (hu : ∀ d, u d = u' d) (hv : ∀ d, v d = v' d) (hβ : β = β') : entry u v β p = entry u' v' β' p := by
  subst hβ; rw [show u = u' from funext hu, show v = v' from funext hv]

/-- Entry (s, q) of a point's output block from the token block, the weight block, the bias block and the projections. -/
def blockEntry (x0 : S2048x1024.Idx → EReal) (x2 : S512x1024.Idx → EReal) (x3 : S1x512.Idx → EReal) (x4 : S64x1024.Idx → EReal) :
    S2048x512.Idx → EReal :=
  fun y => entry (fun d => x0 (ix2 (y 0 : Fin 2048) d)) (fun d => x2 (ix2 (y 1 : Fin 512) d)) (x3 (ix2 (0 : Fin 1) (y 1 : Fin 512))) (rows64 x4)

/-! ## What the second region's body leaves, index by index (over any blocks) -/

/-- Four stores of 512 rows each, whatever their payloads, read back as ONE function of the index when each payload
    is that function under its rectangle. -/
theorem canon_out (p0 p1 p2 p3 : Vec 𝕀 S512x512 .f32) (G : S2048x512.Idx → EReal)
    (h0 : ∀ x : S512x512.Idx, p0 x = G (r1_15.emb x)) (h1 : ∀ x : S512x512.Idx, p1 x = G (r1_12.emb x))
    (h2 : ∀ x : S512x512.Idx, p2 x = G (r1_9.emb x)) (h3 : ∀ x : S512x512.Idx, p3 x = G (r1_6.emb x)) (y : S2048x512.Idx) :
    (View.canon (Val := Elt 𝕀) [⟨r1_15, p0⟩, ⟨r1_12, p1⟩, ⟨r1_9, p2⟩, ⟨r1_6, p3⟩] y : EReal) = G y := by
  refine View.canon_apply_of_pieces (Val := Elt 𝕀) (e := .f32) G _ ?_ y (cover1_6 _ _ _ _ y)
  intro p hp x
  simp only [List.mem_cons, List.mem_nil_iff, or_false] at hp
  rcases hp with rfl | rfl | rfl | rfl
  · exact h0 x
  · exact h1 x
  · exact h2 x
  · exact h3 x

/-- The chunk of 512 token rows at row offset `o`: the codes the body loads for it are the codes of the token rows it
    loads, when the codes array holds every token row's codes. -/
theorem chunk_codes_in (x0 : Vec 𝕀 S2048x1024 .bf16) (x1 : Vec 𝕀 S2048x8 .bf16) (x4 : Vec 𝕀 S64x1024 .f32)
    (hC : ∀ (s : Fin 2048) (t : Fin 8), x1 (ix2 s t) = fcode (fun d => x0 (ix2 s d)) (rows64 x4) t)
    (o : Nat) (ho : o + 512 ≤ 2048)
    (inbX : ∀ a, (![o, 0] : Fin 2 → Nat) a + S512x1024.size a ≤ S2048x1024.size a)
    (inbC : ∀ a, (![o, 0] : Fin 2 → Nat) a + S512x8.size a ≤ S2048x8.size a) (r : Fin 512) (t : Fin 8) :
    View.ld x1 (Rect.unit (s := S2048x8) ![o, 0] S512x8.size inbC) (ix2 r t)
      = fcode (fun d => View.ld x0 (Rect.unit (s := S2048x1024) ![o, 0] S512x1024.size inbX) (ix2 r d)) (rows64 x4) t := by
  have hr := r.isLt
  have e1 : (Rect.unit (s := S2048x8) ![o, 0] S512x8.size inbC).idx (ix2 r t) = ix2 (⟨o + r.val, by omega⟩ : Fin 2048) t := by
    funext a
    apply Fin.ext
    match a with
    | ⟨0, _⟩ => show o + 1 * r.val = o + r.val; omega
    | ⟨1, _⟩ => show 0 + 1 * t.val = t.val; omega
  show x1 ((Rect.unit (s := S2048x8) ![o, 0] S512x8.size inbC).idx (ix2 r t)) = _
  rw [e1]
  refine (hC _ t).trans (fcode_congr (fun d => congrArg x0 ?_) rfl)
  funext a
  apply Fin.ext
  match a with
  | ⟨0, _⟩ => show o + r.val = o + 1 * r.val; omega
  | ⟨1, _⟩ => show d.val = 0 + 1 * d.val; omega

/-- The chunk at row offset `o`: its store's payload, read under the chunk's rectangle of the output block, is the
    block's entry function. -/
theorem chunk_out (x0 : Vec 𝕀 S2048x1024 .bf16) (x2 : Vec 𝕀 S512x1024 .f32) (x3 : Vec 𝕀 S1x512 .f32) (x4 : Vec 𝕀 S64x1024 .f32)
    (o : Nat)
    (inbX : ∀ a, (![o, 0] : Fin 2 → Nat) a + S512x1024.size a ≤ S2048x1024.size a)
    (inbO : ∀ a, (![o, 0] : Fin 2 → Nat) a + S512x512.size a ≤ S2048x512.size a)
    (pay : Vec 𝕀 S512x512 .f32)
    (hpay : ∀ (r q : Fin 512), pay (ix2 r q)
      = entry (fun d => View.ld x0 (Rect.unit (s := S2048x1024) ![o, 0] S512x1024.size inbX) (ix2 r d)) (fun d => x2 (ix2 q d))
          (x3 (ix2 (0 : Fin 1) q)) (rows64 x4))
    (x : S512x512.Idx) :
    pay x = blockEntry x0 x2 x3 x4 ((Rect.unit (s := S2048x512) ![o, 0] S512x512.size inbO).emb x) := by
  obtain ⟨r, q, rfl⟩ : ∃ (r q : Fin 512), x = ix2 r q := ⟨x 0, x 1, eq_ix2 x⟩
  have hq : q = (((Rect.unit (s := S2048x512) ![o, 0] S512x512.size inbO).emb (ix2 r q)) 1 : Fin 512) :=
    Fin.ext (by show q.val = 0 + 1 * q.val; omega)
  refine (hpay r q).trans ?_
  unfold blockEntry
  refine entry_congr (fun d => congrArg x0 ?_) (fun d => congrArg (fun k : Fin 512 => x2 (ix2 k d)) hq)
    (congrArg (fun k : Fin 512 => x3 (ix2 (0 : Fin 1) k)) hq)
  funext a
  apply Fin.ext
  match a with
  | ⟨0, _⟩ => show o + 1 * r.val = o + 1 * r.val; rfl
  | ⟨1, _⟩ => show 0 + 1 * d.val = d.val; omega

/-- The body's result for the output window: the block's entry function, whichever of the four stores wrote the index. -/
theorem out1_6_apply (x0 : Vec 𝕀 S2048x1024 .bf16) (x1 : Vec 𝕀 S2048x8 .bf16) (x2 : Vec 𝕀 S512x1024 .f32) (x3 : Vec 𝕀 S1x512 .f32)
    (x4 : Vec 𝕀 S64x1024 .f32) (x5 : Vec 𝕀 S8x64 .f32)
    (hpkt : ∀ (t : Fin 8) (j : Fin 64), x5 (ix2 t j) = packWeight j t)
    (hC : ∀ (s : Fin 2048) (t : Fin 8), x1 (ix2 s t) = fcode (fun d => x0 (ix2 s d)) (rows64 x4) t) (y : S2048x512.Idx) :
    (out1_6 (F := 𝕀) x0 x1 x2 x3 x4 x5 y : EReal) = blockEntry x0 x2 x3 x4 y := by
  unfold out1_6
  have e4 : View.ld x4 r1_0 = x4 := View.ld_unit_zero (S := S64x1024) zero_offsets _ x4
  have e2 : View.ld x2 r1_1 = x2 := View.ld_unit_zero (S := S512x1024) zero_offsets _ x2
  have e5 : View.ld x5 r1_2 = x5 := View.ld_unit_zero (S := S8x64) zero_offsets _ x5
  have e3 : View.ld x3 r1_3 = x3 := View.ld_unit_zero (S := S1x512) zero_offsets _ x3
  rw [e4, e2, e5, e3]
  exact canon_out _ _ _ _ (blockEntry x0 x2 x3 x4)
    (chunk_out x0 x2 x3 x4 1536 _ _ _ (chunkD_apply x4 x2 x5 x3 (View.ld x0 r1_13) (View.ld x1 r1_14) hpkt
      (chunk_codes_in x0 x1 x4 hC 1536 (by norm_num) _ _)))
    (chunk_out x0 x2 x3 x4 1024 _ _ _ (chunkC_apply x4 x2 x5 x3 (View.ld x0 r1_10) (View.ld x1 r1_11) hpkt
      (chunk_codes_in x0 x1 x4 hC 1024 (by norm_num) _ _)))
    (chunk_out x0 x2 x3 x4 512 _ _ _ (chunkB_apply x4 x2 x5 x3 (View.ld x0 r1_7) (View.ld x1 r1_8) hpkt
      (chunk_codes_in x0 x1 x4 hC 512 (by norm_num) _ _)))
    (chunk_out x0 x2 x3 x4 0 _ _ _ (chunkA_apply x4 x2 x5 x3 (View.ld x0 r1_4) (View.ld x1 r1_5) hpkt
      (chunk_codes_in x0 x1 x4 hC 0 (by norm_num) _ _))) y

/-! ## The second region's windows at a point -/

variable (m : (ℓ : Loc nD τ sig) → Buf (Elt 𝕀) ℓ) (ρ : Dev nD → PrngReg)

/-- The windows' block indices at point t: the weight rows, the bias entries and the output columns move with t,
    every other window stays at (0, 0). -/
theorem index_facts1 : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = t.val
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = t.val :=
  (by decide +kernel : ∀ t : Fin grid1.N, _)

/-- The token window's block is the bf16 token copy. -/
theorem tokens1_block (c : Dev nD) (t : Fin cfg1.N) (y : S2048x1024.Idx) :
    iblk1 (V2 m ρ) c 0 t y = (V2 m ρ c main_call0_v3_0 : S2048x1024.Idx → EReal) y := by
  obtain ⟨e0, e1, -⟩ := index_facts1 t
  show (V2 m ρ c main_call0_v3_0 : S2048x1024.Idx → EReal) (((cfg1.win 0).blk t).view.emb y) = _
  refine congrArg _ (funext fun a => Fin.ext ?_)
  match a with
  | ⟨0, _⟩ => show win1_0.index t (0 : Fin 2) * 2048 + 1 * (y 0).val = (y 0).val; omega
  | ⟨1, _⟩ => show win1_0.index t (1 : Fin 2) * 1024 + 1 * (y 1).val = (y 1).val; omega

/-- The codes window's block is the codes array. -/
theorem codes1_block (c : Dev nD) (t : Fin cfg1.N) (y : S2048x8.Idx) :
    iblk1 (V2 m ρ) c 1 t y = (V2 m ρ c main_call0_v3_1 : S2048x8.Idx → EReal) y := by
  obtain ⟨-, -, e0, e1, -⟩ := index_facts1 t
  show (V2 m ρ c main_call0_v3_1 : S2048x8.Idx → EReal) (((cfg1.win 1).blk t).view.emb y) = _
  refine congrArg _ (funext fun a => Fin.ext ?_)
  match a with
  | ⟨0, _⟩ => show win1_1.index t (0 : Fin 2) * 2048 + 1 * (y 0).val = (y 0).val; omega
  | ⟨1, _⟩ => show win1_1.index t (1 : Fin 2) * 8 + 1 * (y 1).val = (y 1).val; omega

/-- The weight window's block at point t is rows 512·t … of the weight array. -/
theorem weights_block (c : Dev nD) (t : Fin cfg1.N) (q : Fin 512) (d : Fin 1024) :
    iblk1 (V2 m ρ) c 2 t (ix2 q d)
      = (V2 m ρ c main_arg1 : S4096x1024.Idx → EReal) (ix2 (⟨t.val * 512 + q.val, by have := t.isLt; have := q.isLt; have : cfg1.N = 8 := rfl; omega⟩ : Fin 4096) d) := by
  obtain ⟨-, -, -, -, e0, e1, -⟩ := index_facts1 t
  show (V2 m ρ c main_arg1 : S4096x1024.Idx → EReal) (((cfg1.win 2).blk t).view.emb (ix2 q d)) = _
  refine congrArg _ (funext fun a => Fin.ext ?_)
  match a with
  | ⟨0, _⟩ => show win1_2.index t (0 : Fin 2) * 512 + 1 * q.val = t.val * 512 + q.val; omega
  | ⟨1, _⟩ => show win1_2.index t (1 : Fin 2) * 1024 + 1 * d.val = d.val; omega

/-- The bias window's block at point t is entries 512·t … of the bias row. -/
theorem bias_block (c : Dev nD) (t : Fin cfg1.N) (q : Fin 512) :
    iblk1 (V2 m ρ) c 3 t (ix2 (0 : Fin 1) q)
      = (V2 m ρ c main_call0_v2 : S1x4096.Idx → EReal) (ix2 (0 : Fin 1) (⟨t.val * 512 + q.val, by have := t.isLt; have := q.isLt; have : cfg1.N = 8 := rfl; omega⟩ : Fin 4096)) := by
  obtain ⟨-, -, -, -, -, -, e0, e1, -⟩ := index_facts1 t
  show (V2 m ρ c main_call0_v2 : S1x4096.Idx → EReal) (((cfg1.win 3).blk t).view.emb (ix2 (0 : Fin 1) q)) = _
  refine congrArg _ (funext fun a => Fin.ext ?_)
  match a with
  | ⟨0, _⟩ => show win1_3.index t (0 : Fin 2) * 1 + 1 * 0 = 0; omega
  | ⟨1, _⟩ => show win1_3.index t (1 : Fin 2) * 512 + 1 * q.val = t.val * 512 + q.val; omega

/-- The projection window's block is the reshaped projection array. -/
theorem proj1_block (c : Dev nD) (t : Fin cfg1.N) :
    iblk1 (V2 m ρ) c 4 t = (V2 m ρ c main_call0_v1 : S64x1024.Idx → EReal) := by
  obtain ⟨-, -, -, -, -, -, -, -, e0, e1, -⟩ := index_facts1 t
  funext y
  show (V2 m ρ c main_call0_v1 : S64x1024.Idx → EReal) (((cfg1.win 4).blk t).view.emb y) = _
  refine congrArg _ (funext fun a => Fin.ext ?_)
  match a with
  | ⟨0, _⟩ => show win1_4.index t (0 : Fin 2) * 64 + 1 * (y 0).val = (y 0).val; omega
  | ⟨1, _⟩ => show win1_4.index t (1 : Fin 2) * 1024 + 1 * (y 1).val = (y 1).val; omega

/-- The transposed packing window's block is the transposed packing matrix. -/
theorem packT_block (c : Dev nD) (t : Fin cfg1.N) (y : S8x64.Idx) :
    iblk1 (V2 m ρ) c 5 t y = (V2 m ρ c main_call0_cst : S8x64.Idx → EReal) y := by
  obtain ⟨-, -, -, -, -, -, -, -, -, -, e0, e1, -⟩ := index_facts1 t
  show (V2 m ρ c main_call0_cst : S8x64.Idx → EReal) (((cfg1.win 5).blk t).view.emb y) = _
  refine congrArg _ (funext fun a => Fin.ext ?_)
  match a with
  | ⟨0, _⟩ => show win1_5.index t (0 : Fin 2) * 8 + 1 * (y 0).val = (y 0).val; omega
  | ⟨1, _⟩ => show win1_5.index t (1 : Fin 2) * 64 + 1 * (y 1).val = (y 1).val; omega

/-! ## The cover: the eight column blocks tile the output -/

/-- An index of the output is in point t's block iff each coordinate is in the block's range. -/
theorem mem_block6 (t : Fin cfg1.N) (i : S2048x4096.Idx) :
    i ∈ ((cfg1.win 6).blk t).view.set ↔ ∀ a : Fin 2, win1_6.index t a * S2048x512.size a ≤ (i a).val ∧ (i a).val < win1_6.index t a * S2048x512.size a + S2048x512.size a := by
  show i ∈ ((View.whole main_call0_v4).slice (win1_6.rect t)).set ↔ _
  rw [View.set_slice_whole, Rect.mem_set_unit]
  exact Iff.rfl

/-- Column o of the output lies in the block of point o div 512. -/
theorem cover6 (i : S2048x4096.Idx) : ∃ t : Fin cfg1.N, (cfg1.win 6).flush t = true ∧ i ∈ ((cfg1.win 6).blk t).view.set := by
  have hi0 : (i 0).val < 2048 := (i 0).isLt
  have hi1 : (i 1).val < 4096 := (i 1).isLt
  refine ⟨⟨(i 1).val / 512, by have : cfg1.N = 8 := rfl; omega⟩, flush1_6 _, ?_⟩
  obtain ⟨-, -, -, -, -, -, -, -, -, -, -, -, e0, e1⟩ := index_facts1 (⟨(i 1).val / 512, by have : cfg1.N = 8 := rfl; omega⟩ : Fin cfg1.N)
  rw [mem_block6]
  intro a
  match a with
  | ⟨0, _⟩ =>
    show win1_6.index ⟨(i 1).val / 512, _⟩ (0 : Fin 2) * 2048 ≤ (i 0).val ∧ (i 0).val < win1_6.index ⟨(i 1).val / 512, _⟩ (0 : Fin 2) * 2048 + 2048
    omega
  | ⟨1, _⟩ =>
    show win1_6.index ⟨(i 1).val / 512, _⟩ (1 : Fin 2) * 512 ≤ (i 1).val ∧ (i 1).val < win1_6.index ⟨(i 1).val / 512, _⟩ (1 : Fin 2) * 512 + 512
    simp only [] at e1
    omega

/-! ## The output array after the run -/

/-- The output array as one function of the arrays the host left and the weight argument. -/
def outArray (c : Dev nD) : S2048x4096.Idx → EReal :=
  fun i => entry (fun d => (V1 m ρ c main_call0_v0 : S2048x1024.Idx → EReal) (ix2 (i 0 : Fin 2048) d))
    (fun d => (m ((c : Thread nD τ).loc main_arg1) : S4096x1024.Idx → EReal) (ix2 (i 1 : Fin 4096) d))
    ((V1 m ρ c main_call0_v2 : S1x4096.Idx → EReal) (ix2 (0 : Fin 1) (i 1 : Fin 4096)))
    (rows64 (V1 m ρ c main_call0_v1 : S64x1024.Idx → EReal))

/-- What the second region finds in the codes array: every token row's codes (the first region's result). -/
theorem codes_found (c : Dev nD) (t : Fin cfg1.N) (s : Fin 2048) (t' : Fin 8) :
    iblk1 (V2 m ρ) c 1 t (ix2 s t')
      = fcode (fun d => iblk1 (V2 m ρ) c 0 t (ix2 s d)) (rows64 (iblk1 (V2 m ρ) c 4 t)) t' := by
  rw [codes1_block m ρ c t (ix2 s t'), V2_codes m ρ c, codes_out m ρ c, proj1_block m ρ c t, V2_proj m ρ c]
  refine fcode_congr (fun d => ?_) rfl
  rw [tokens1_block m ρ c t (ix2 s d), V2_tokens m ρ c, tokens_out m ρ c]
  rfl

/-- After its run the second region's output array is `outArray`. -/
theorem main_out (c : Dev nD) : (dat1 (V2 m ρ) c).arrAt 6 cfg1.N = outArray m ρ c := by
  refine (dat1 (V2 m ρ) c).arrAt_eq_of_cover 6 _ (fun t _ => ?_) cover6
  show (cfg1.win 6).cut (grid1.coords t) ((dat1 (V2 m ρ) c).after 6 t) = _
  rw [after1_6]
  obtain ⟨-, -, -, -, -, -, -, -, -, -, -, -, e0, e1⟩ := index_facts1 t
  funext j
  have ht : t.val < 8 := t.isLt
  have hj1 : (j 1).val < 512 := (j 1).isLt
  show out1_6 (F := 𝕀) (iblk1 (V2 m ρ) c 0 t) (iblk1 (V2 m ρ) c 1 t) (iblk1 (V2 m ρ) c 2 t) (iblk1 (V2 m ρ) c 3 t) (iblk1 (V2 m ρ) c 4 t) (iblk1 (V2 m ρ) c 5 t) j
    = outArray m ρ c (((cfg1.win 6).blk t).view.emb j)
  refine (out1_6_apply (iblk1 (V2 m ρ) c 0 t) (iblk1 (V2 m ρ) c 1 t) (iblk1 (V2 m ρ) c 2 t) (iblk1 (V2 m ρ) c 3 t) (iblk1 (V2 m ρ) c 4 t) (iblk1 (V2 m ρ) c 5 t)
    (fun t' j' => (packT_block m ρ c t (ix2 t' j')).trans ((congrFun (V2_packT m ρ c) (ix2 t' j')).trans (packT_apply m ρ c t' j')))
    (codes_found m ρ c t) j).trans ?_
  unfold blockEntry outArray
  rw [proj1_block m ρ c t, V2_proj m ρ c]
  have hcol : (⟨t.val * 512 + (j 1).val, by omega⟩ : Fin 4096) = ((((cfg1.win 6).blk t).view.emb j) 1 : Fin 4096) :=
    Fin.ext (by show t.val * 512 + (j 1).val = win1_6.index t (1 : Fin 2) * 512 + 1 * (j 1).val; omega)
  have hrow : (j 0 : Fin 2048) = ((((cfg1.win 6).blk t).view.emb j) 0 : Fin 2048) :=
    Fin.ext (by show (j 0).val = win1_6.index t (0 : Fin 2) * 2048 + 1 * (j 0).val; omega)
  refine entry_congr (fun d => ?_) (fun d => ?_) ?_
  · rw [tokens1_block m ρ c t (ix2 (j 0 : Fin 2048) d), V2_tokens m ρ c, tokens_out m ρ c]
    exact congrArg (fun k : Fin 2048 => (V1 m ρ c main_call0_v0 : S2048x1024.Idx → EReal) (ix2 k d)) hrow
  · rw [weights_block m ρ c t (j 1 : Fin 512) d, V2_weights m ρ c]
    exact congrArg (fun k : Fin 4096 => (m ((c : Thread nD τ).loc main_arg1) : S4096x1024.Idx → EReal) (ix2 k d)) hcol
  · rw [bias_block m ρ c t (j 1 : Fin 512), V2_bias m ρ c]
    exact congrArg (fun k : Fin 4096 => (V1 m ρ c main_call0_v2 : S1x4096.Idx → EReal) (ix2 (0 : Fin 1) k)) hcol

end Cert.KernelIdeal.HashMain

end
-- ==== Proof.KernelRun.lean ====
/-
  The idealized kernel's run with its result NAMED: every weakly fair execution terminates without a fault, the
  result buffer ends at the contents the last host stretch leaves (the fold of the program's segments from the
  launch memory: the first stretch's reshapes and constants, the two regions' write-backs, the final reshape), and
  the argument arrays end as launched.
-/
import proofs.«148647_g61529701483102_cont_9to1_m_177_19_alg».proof.Proof.Gen.KernelIdeal.Frame

set_option maxRecDepth 16384

noncomputable section

namespace Cert.KernelIdeal.HashRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the program's four segments, read at the result buffer and at the four arguments: the last
    thread state holds every unscoped buffer at the contents after the final host stretch. -/
theorem run_named : θ_run defs (onTc (τ := τ) (main (F := F))) ⟨m, fun _ => 0, ρ⟩ (fun r => ∀ c : Dev nD,
      r.2.mem ((c.tc : Thread nD τ).loc main_v0) = W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.HashRun

end
-- ==== Proof.KernelValue.lean ====
/-
  The idealized kernel's result as ONE function of its four argument arrays: entry (0, s, o) of the result is the
  masked entry of token row s and weight row o — the second region's output read through the host's final reshape,
  its token rows, bias entries and projections read through the host's first reshapes of the arguments.
-/
import proofs.«148647_g61529701483102_cont_9to1_m_177_19_alg».proof.Proof.MainValue
import proofs.«148647_g61529701483102_cont_9to1_m_177_19_alg».proof.Proof.KernelRun

set_option maxRecDepth 16384

noncomputable section

namespace Cert.KernelIdeal.HashValue

open Cert.KernelIdeal Cert.KernelIdeal.Gen Cert.KernelIdeal.HashArrays Cert.KernelIdeal.HashPrep Cert.KernelIdeal.HashMain
open Cert.HashMask
open Idealize.ShloMosaic Idealize.ShloMosaic.TcCoe Idealize.SL.Sem
open Idealize.ShloMosaic.ValueIdx

local notation "𝕀" => Idealize.ShloMosaic.Ideal

variable (m : (ℓ : Loc nD τ sig) → Buf (Elt 𝕀) ℓ) (ρ : Dev nD → PrngReg)

/-- The result array on core `c`: the specification's function of the argument arrays as launched. -/
def resultBuf (c : Dev nD) : Buf (Elt 𝕀) ((c.tc : Thread nD τ).loc main_v0) :=
  Cert.HashMask.result (m ((c.tc : Thread nD τ).loc main_arg0)) (m ((c.tc : Thread nD τ).loc main_arg1))
    (m ((c.tc : Thread nD τ).loc main_arg2)) (m ((c.tc : Thread nD τ).loc main_arg3))

/-- The 64 rows of the reshaped projections are the argument's projections (t, h). -/
theorem rows64_proj (c : Dev nD) :
    rows64 (V1 m ρ c main_call0_v1 : S64x1024.Idx → EReal)
      = fun t h d => (m ((c.tc : Thread nD τ).loc main_arg3) : S8x8x1024.Idx → EReal) (ix3 t h d) := by
  funext t h d
  exact proj_apply m ρ c t h d

/-- The result buffer after the last host stretch is the specification's function of the arguments. -/
theorem result_eq (c : Dev nD) : W4 m ρ c (Proc.devRef .tc main_v0) = resultBuf m c := by
  funext i
  show (W4 m ρ c (Proc.devRef .tc main_v0) : S1x2048x4096.Idx → EReal) i = _
  rw [result_apply m ρ c i, W3_out m ρ c, main_out m ρ c]
  unfold outArray resultBuf Cert.HashMask.result
  rw [rows64_proj m ρ c]
  refine entry_congr (fun d => ?_) (fun d => rfl) ?_
  · exact tokens_apply m ρ c (i 1 : Fin 2048) d
  · exact bias_apply m ρ c (i 2 : Fin 4096)

/-- The idealized kernel's run: every weakly fair execution terminates without a fault, with the result at the
    specification's function of the arguments and the arguments unchanged. -/
theorem run : θ_run defs (onTc (τ := τ) (main (F := 𝕀))) ⟨m, fun _ => 0, ρ⟩ (fun r => ∀ c : Dev nD,
      r.2.mem ((c.tc : Thread nD τ).loc main_v0) = resultBuf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩)
    (Cert.KernelIdeal.HashRun.run_named m ρ)

end Cert.KernelIdeal.HashValue

end
-- ==== Proof.RefPack.lean ====
/-
  The arithmetic of an 8-bit hash code held in a 32-bit word.

  A table's code is the sum over its 8 sign bits of (the bit, widened to a 32-bit word) times the weight 2^h.
  That sum is below 256, so it never wraps, and bit h of the sum IS sign bit h: the code determines the 8 bits.
  Hence two codes are equal exactly when the 8 sign bits agree one by one (the packing is injective), and an OR
  over 8 one-bit comparison results is one exactly when some comparison holds.

  A fold of a commutative, associative operation over the 8 coordinates of an axis is written out as the 8
  nested applications, so that both laws reduce to a check over the 2^8 bit patterns.
-/
import Mathlib.Data.BitVec
import Idealize.ShloMosaic.PureOps.Reduce
import Idealize.ShloMosaic.Lib.WordArith

noncomputable section

namespace Cert.RefHash

open Idealize.ShloMosaic

/-- A fold over the 8 coordinates of an axis, written out. -/
theorem fold_fin8 {α : Type} (op : α → α → α) [Std.Commutative op] [Std.Associative op] (b : α) (g : Fin 8 → α) :
    (Finset.univ : Finset (Fin 8)).fold op b g
      = op (g 0) (op (g 1) (op (g 2) (op (g 3) (op (g 4) (op (g 5) (op (g 6) (op (g 7) b))))))) := by
  rfl

/-- One term of a code: the sign bit as a 32-bit word (0 or 1) times the weight 2^h. -/
def term (a : Bool) (h : Nat) : BitVec 32 :=
  IntOp.muli ((BitVec.ofBool a).setWidth 32) (BitVec.ofNat 32 (2 ^ h))

/-- The code of 8 sign bits, the 8 terms added from zero. -/
def pack8 (a0 a1 a2 a3 a4 a5 a6 a7 : Bool) : BitVec 32 :=
  IntOp.addi (term a0 0) (IntOp.addi (term a1 1) (IntOp.addi (term a2 2) (IntOp.addi (term a3 3)
    (IntOp.addi (term a4 4) (IntOp.addi (term a5 5) (IntOp.addi (term a6 6) (IntOp.addi (term a7 7) 0#32)))))))

/-- Bit h of the code is sign bit h (the sum is below 256 and each weight is a distinct power of two). -/
theorem pack8_bits : ∀ a0 a1 a2 a3 a4 a5 a6 a7 : Bool,
    (pack8 a0 a1 a2 a3 a4 a5 a6 a7).getLsbD 0 = a0 ∧ (pack8 a0 a1 a2 a3 a4 a5 a6 a7).getLsbD 1 = a1 ∧
    (pack8 a0 a1 a2 a3 a4 a5 a6 a7).getLsbD 2 = a2 ∧ (pack8 a0 a1 a2 a3 a4 a5 a6 a7).getLsbD 3 = a3 ∧
    (pack8 a0 a1 a2 a3 a4 a5 a6 a7).getLsbD 4 = a4 ∧ (pack8 a0 a1 a2 a3 a4 a5 a6 a7).getLsbD 5 = a5 ∧
    (pack8 a0 a1 a2 a3 a4 a5 a6 a7).getLsbD 6 = a6 ∧ (pack8 a0 a1 a2 a3 a4 a5 a6 a7).getLsbD 7 = a7 := by
  decide

/-- The code of a pattern of 8 sign bits: the fold by addition, from zero, of the 8 terms. -/
def pack (a : Fin 8 → Bool) : BitVec 32 :=
  (Finset.univ : Finset (Fin 8)).fold IntOp.addi 0#32 (fun h => term (a h) h.val)

theorem pack_eq_pack8 (a : Fin 8 → Bool) : pack a = pack8 (a 0) (a 1) (a 2) (a 3) (a 4) (a 5) (a 6) (a 7) := by
  unfold pack
  rw [fold_fin8]
  rfl

/-- Bit h of a pattern's code is the pattern's bit h. -/
theorem pack_getLsbD (a : Fin 8 → Bool) (h : Fin 8) : (pack a).getLsbD h.val = a h := by
  rw [pack_eq_pack8]
  have e := pack8_bits (a 0) (a 1) (a 2) (a 3) (a 4) (a 5) (a 6) (a 7)
  match h with
  | ⟨0, _⟩ => exact e.1
  | ⟨1, _⟩ => exact e.2.1
  | ⟨2, _⟩ => exact e.2.2.1
  | ⟨3, _⟩ => exact e.2.2.2.1
  | ⟨4, _⟩ => exact e.2.2.2.2.1
  | ⟨5, _⟩ => exact e.2.2.2.2.2.1
  | ⟨6, _⟩ => exact e.2.2.2.2.2.2.1
  | ⟨7, _⟩ => exact e.2.2.2.2.2.2.2

/-- THE PACKING LAW: two codes are equal exactly when the 8 sign bits agree. -/
theorem pack_eq_iff (a c : Fin 8 → Bool) : pack a = pack c ↔ ∀ h : Fin 8, a h = c h := by
  constructor
  · intro e h
    rw [← pack_getLsbD a h, e, pack_getLsbD]
  · intro e
    rw [show a = c from funext e]

/-- An OR over 8 one-bit words, from the zero bit, is one exactly when one of them is. -/
theorem or8_eq_one_iff : ∀ b0 b1 b2 b3 b4 b5 b6 b7 : Bool,
    IntOp.ori (BitVec.ofBool b0) (IntOp.ori (BitVec.ofBool b1) (IntOp.ori (BitVec.ofBool b2) (IntOp.ori (BitVec.ofBool b3)
      (IntOp.ori (BitVec.ofBool b4) (IntOp.ori (BitVec.ofBool b5) (IntOp.ori (BitVec.ofBool b6) (IntOp.ori (BitVec.ofBool b7) 0#1)))))))
      = 1#1 ↔ (b0 || b1 || b2 || b3 || b4 || b5 || b6 || b7) = true := by
  decide

/-- The OR, from the zero bit, over the 8 coordinates of an axis of one-bit comparison results is one exactly
    when some comparison holds. -/
theorem fold_ori_eq_one_iff (g : Fin 8 → Bool) :
    (Finset.univ : Finset (Fin 8)).fold IntOp.ori 0#1 (fun t => BitVec.ofBool (g t)) = 1#1 ↔ ∃ t : Fin 8, g t = true := by
  rw [fold_fin8, or8_eq_one_iff]
  simp only [Bool.or_eq_true]
  constructor
  · rintro (((((((h | h) | h) | h) | h) | h) | h) | h)
    exacts [⟨0, h⟩, ⟨1, h⟩, ⟨2, h⟩, ⟨3, h⟩, ⟨4, h⟩, ⟨5, h⟩, ⟨6, h⟩, ⟨7, h⟩]
  · rintro ⟨t, h⟩
    match t with
    | ⟨0, _⟩ => exact Or.inl (Or.inl (Or.inl (Or.inl (Or.inl (Or.inl (Or.inl h))))))
    | ⟨1, _⟩ => exact Or.inl (Or.inl (Or.inl (Or.inl (Or.inl (Or.inl (Or.inr h))))))
    | ⟨2, _⟩ => exact Or.inl (Or.inl (Or.inl (Or.inl (Or.inl (Or.inr h)))))
    | ⟨3, _⟩ => exact Or.inl (Or.inl (Or.inl (Or.inl (Or.inr h))))
    | ⟨4, _⟩ => exact Or.inl (Or.inl (Or.inl (Or.inr h)))
    | ⟨5, _⟩ => exact Or.inl (Or.inl (Or.inr h))
    | ⟨6, _⟩ => exact Or.inl (Or.inr h)
    | ⟨7, _⟩ => exact Or.inr h

end Cert.RefHash

end
-- ==== Proof.RefSign.lean ====
/-
  A sign bit of the hash: whether the inner product of a row with a projection row is strictly positive.

  On the extended reals the reference's "inner product > 0.0" is the order's strict comparison against zero (the
  word 0x00000000 reads as the extended real 0), and its one-bit result is the word of that truth value.
-/
import Idealize.ShloMosaic.PureOps.Ideal.Laws

noncomputable section

open scoped BigOperators

namespace Cert.RefHash

open Idealize.ShloMosaic

/-- Whether the inner product of the row `v` with the projection row `q` is strictly positive. -/
def sgn (v q : Fin 1024 → EReal) : Bool := decide (0 < ∑ d : Fin 1024, v d * q d)

theorem sgn_eq_true_iff (v q : Fin 1024 → EReal) : sgn v q = true ↔ 0 < ∑ d : Fin 1024, v d * q d := by
  unfold sgn
  exact decide_eq_true_iff

/-- The comparison "greater than 0.0" of the inner product, as a one-bit word, is the word of that truth value. -/
theorem cmp_gt_zero (v q : Fin 1024 → EReal) :
    FloatOps.cmpf (F := Ideal) (φ := .f32) .ogt (∑ d : Fin 1024, v d * q d) (FloatOps.ofBits .f32 0x00000000#32)
      = BitVec.ofBool (sgn v q) := by
  show Ideal.cmp .ogt (∑ d : Fin 1024, v d * q d) (Ideal.ofBits .f32 0x00000000#32) = _
  rw [Ideal.ofBits_zero_f32]
  unfold Ideal.cmp sgn
  congr

end Cert.RefHash

end
-- ==== Proof.RefCode.lean ====
/-
  A table's hash code of a row, and when two codes are equal.

  Table t's code of the row v packs its 8 sign bits (the signs of v's inner products with the table's 8 projection
  rows) into one 32-bit word. By the packing law two rows have the same code in table t exactly when those 8 signs
  agree, and the OR over the 8 tables of the comparisons "codes equal" is one exactly when that happens in some table.
-/
import proofs.«148647_g61529701483102_cont_9to1_m_177_19_alg».proof.Proof.RefPack
import proofs.«148647_g61529701483102_cont_9to1_m_177_19_alg».proof.Proof.RefSign

noncomputable section

open scoped BigOperators

namespace Cert.RefHash

open Idealize.ShloMosaic

/-- Table `t`'s code of the row `v`: its 8 sign bits packed. -/
def code (v : Fin 1024 → EReal) (p : Fin 8 → Fin 8 → Fin 1024 → EReal) (t : Fin 8) : BitVec 32 :=
  pack (fun h => sgn v (p t h))

/-- Two rows' codes in table `t` are equal exactly when their 8 sign bits in that table agree. -/
theorem code_eq_iff (u v : Fin 1024 → EReal) (p : Fin 8 → Fin 8 → Fin 1024 → EReal) (t : Fin 8) :
    code u p t = code v p t
      ↔ ∀ h : Fin 8, (0 < ∑ d : Fin 1024, u d * p t h d) ↔ (0 < ∑ d : Fin 1024, v d * p t h d) := by
  unfold code
  rw [pack_eq_iff]
  refine forall_congr' fun h => ?_
  rw [Bool.eq_iff_iff, sgn_eq_true_iff, sgn_eq_true_iff]

/-- One term of a code as the program computes it: the comparison's bit widened to 32 bits, times the weight 2^k. -/
theorem term_of_cmp (v q : Fin 1024 → EReal) (k : Nat) :
    IntOp.muli ((FloatOps.cmpf (F := Ideal) (φ := .f32) .ogt (∑ d : Fin 1024, v d * q d)
        (FloatOps.ofBits .f32 0x00000000#32)).setWidth 32) (BitVec.ofNat 32 (2 ^ k)) = term (sgn v q) k := by
  rw [cmp_gt_zero]
  rfl

/-- The OR over the 8 tables of "the two codes are equal", as a one-bit word, is one exactly when the codes agree in
    some table. -/
theorem or_cmp_eq_one_iff (cx cw : Fin 8 → BitVec 32) :
    (Finset.univ : Finset (Fin 8)).fold IntOp.ori 0#1 (fun t => IntOp.cmpi .eq (cx t) (cw t)) = 1#1
      ↔ ∃ t : Fin 8, cx t = cw t := by
  have e : (fun t => IntOp.cmpi .eq (cx t) (cw t)) = fun t => BitVec.ofBool (cx t == cw t) := rfl
  rw [e, fold_ori_eq_one_iff]
  simp only [beq_iff_eq]

end Cert.RefHash

end
-- ==== Proof.RefReduce.lean ====
/-
  The three reductions of the reference read at an index.

  Each removes ONE axis of extent 8 (the 8 hashes of a table, or the 8 tables): the source indices over a result index
  are that index with each coordinate k of the removed axis put back, so for a commutative, associative body the
  reduction at the result index is the fold, from the initial value, over those 8 coordinates. Stated over a variable
  operand and any such body; the shapes are the program's literal ones.
-/
import Idealize.ShloMosaic.PureOps.Reduce
import Idealize.ShloMosaic.Lib.ValueIdx

noncomputable section

namespace Cert.RefHash

open Idealize.ShloMosaic Idealize.ShloMosaic.ValueIdx

/-- The token rows' sign bits [1, 2048, 8, 8] with the hash axis removed: [1, 2048, 8]. -/
theorem reduces_tokens : (⟨4, ![1, 2048, 8, 8]⟩ : Shape).Reduces [3] ⟨3, ![1, 2048, 8]⟩ := by decide

/-- The source index over a result index, with coordinate k put back on the removed axis. -/
theorem lift_tokens (s : Fin 2048) (t : Fin 8) (k : Fin 8) :
    reduces_tokens.lift (ix3 (0 : Fin 1) s t) k = ix4 (0 : Fin 1) s t k := by
  funext c
  apply Fin.ext
  match c with
  | ⟨0, _⟩ => rfl
  | ⟨1, _⟩ => rfl
  | ⟨2, _⟩ => rfl
  | ⟨3, _⟩ => rfl

/-- The reduction read at a result index: the fold, from the initial value, over the 8 coordinates of the removed axis. -/
theorem reduce_tokens {α : Type} (f : α → α → α) [Std.Commutative f] [Std.Associative f]
    (x : (⟨4, ![1, 2048, 8, 8]⟩ : Shape).Idx → α) (init : (⟨0, ![]⟩ : Shape).Idx → α)
    (h' : (⟨4, ![1, 2048, 8, 8]⟩ : Shape).ReducesTo [3] ⟨3, ![1, 2048, 8]⟩) (hu : 0 < (⟨0, ![]⟩ : Shape).numel)
    (s : Fin 2048) (t : Fin 8) :
    Host.reduce f x init h' hu (ix3 (0 : Fin 1) s t)
      = (Finset.univ : Finset (Fin 8)).fold f (init ix0) (fun k => x (ix4 (0 : Fin 1) s t k)) := by
  have e0 : Shape.Idx.first hu = ix0 := funext fun a => a.elim0
  rw [Host.reduce_eq_fold_single f x init h' reduces_tokens hu, e0]
  refine Finset.fold_congr fun k _ => ?_
  exact congrArg x (lift_tokens s t k)

/-- The weight rows' sign bits [4096, 8, 8] with the hash axis removed: [4096, 8]. -/
theorem reduces_rows : (⟨3, ![4096, 8, 8]⟩ : Shape).Reduces [2] ⟨2, ![4096, 8]⟩ := by decide

/-- The source index over a result index, with coordinate k put back on the removed axis. -/
theorem lift_rows (o : Fin 4096) (t : Fin 8) (k : Fin 8) :
    reduces_rows.lift (ix2 o t) k = ix3 o t k := by
  funext c
  apply Fin.ext
  match c with
  | ⟨0, _⟩ => rfl
  | ⟨1, _⟩ => rfl
  | ⟨2, _⟩ => rfl

/-- The reduction read at a result index: the fold, from the initial value, over the 8 coordinates of the removed axis. -/
theorem reduce_rows {α : Type} (f : α → α → α) [Std.Commutative f] [Std.Associative f]
    (x : (⟨3, ![4096, 8, 8]⟩ : Shape).Idx → α) (init : (⟨0, ![]⟩ : Shape).Idx → α)
    (h' : (⟨3, ![4096, 8, 8]⟩ : Shape).ReducesTo [2] ⟨2, ![4096, 8]⟩) (hu : 0 < (⟨0, ![]⟩ : Shape).numel)
    (o : Fin 4096) (t : Fin 8) :
    Host.reduce f x init h' hu (ix2 o t)
      = (Finset.univ : Finset (Fin 8)).fold f (init ix0) (fun k => x (ix3 o t k)) := by
  have e0 : Shape.Idx.first hu = ix0 := funext fun a => a.elim0
  rw [Host.reduce_eq_fold_single f x init h' reduces_rows hu, e0]
  refine Finset.fold_congr fun k _ => ?_
  exact congrArg x (lift_rows o t k)

/-- The code comparisons [1, 2048, 4096, 8] with the table axis removed: [1, 2048, 4096]. -/
theorem reduces_tables : (⟨4, ![1, 2048, 4096, 8]⟩ : Shape).Reduces [3] ⟨3, ![1, 2048, 4096]⟩ := by decide

/-- The source index over a result index, with coordinate k put back on the removed axis. -/
theorem lift_tables (s : Fin 2048) (o : Fin 4096) (k : Fin 8) :
    reduces_tables.lift (ix3 (0 : Fin 1) s o) k = ix4 (0 : Fin 1) s o k := by
  funext c
  apply Fin.ext
  match c with
  | ⟨0, _⟩ => rfl
  | ⟨1, _⟩ => rfl
  | ⟨2, _⟩ => rfl
  | ⟨3, _⟩ => rfl

/-- The reduction read at a result index: the fold, from the initial value, over the 8 coordinates of the removed axis. -/
theorem reduce_tables {α : Type} (f : α → α → α) [Std.Commutative f] [Std.Associative f]
    (x : (⟨4, ![1, 2048, 4096, 8]⟩ : Shape).Idx → α) (init : (⟨0, ![]⟩ : Shape).Idx → α)
    (h' : (⟨4, ![1, 2048, 4096, 8]⟩ : Shape).ReducesTo [3] ⟨3, ![1, 2048, 4096]⟩) (hu : 0 < (⟨0, ![]⟩ : Shape).numel)
    (s : Fin 2048) (o : Fin 4096) :
    Host.reduce f x init h' hu (ix3 (0 : Fin 1) s o)
      = (Finset.univ : Finset (Fin 8)).fold f (init ix0) (fun k => x (ix4 (0 : Fin 1) s o k)) := by
  have e0 : Shape.Idx.first hu = ix0 := funext fun a => a.elim0
  rw [Host.reduce_eq_fold_single f x init h' reduces_tables hu, e0]
  refine Finset.fold_congr fun k _ => ?_
  exact congrArg x (lift_tables s o k)

end Cert.RefHash

end
-- ==== Proof.RefWeights.lean ====
/-
  The two weight vectors of the hash codes are the powers of two.

  The reference computes 2 ** arange(8) in 32-bit integers by repeated squaring: from the exponent vector
  (0, 1, …, 7) it peels off one binary digit of the exponent at a time (a shift right by one and an AND with one),
  multiplying the running result by the current square 2, 4, 16, … where the digit is set. The whole computation is a
  closed term on 8 words; evaluated at position h it is the word 2^h. The same closed term appears twice in the
  program (once for the token rows, once for the weight rows).
-/
import proofs.«148647_g61529701483102_cont_9to1_m_177_19_alg».proof.Proof.RefReadOps

noncomputable section

namespace Cert.RefHash

open Idealize.ShloMosaic Idealize.ShloMosaic.ValueIdx Cert.ReferenceIdeal Cert.ReferenceIdeal.ReadOps

/-- The weight vector multiplying the token rows' sign bits: position h holds 2^h. -/
theorem weight_x : ∀ h : Fin 8, val_main_v54 (F := Ideal) (ix1 h) = BitVec.ofNat 32 (2 ^ h.val) := by
  decide

/-- The weight vector multiplying the weight rows' sign bits: position h holds 2^h. -/
theorem weight_w : ∀ h : Fin 8, val_main_v117 (F := Ideal) (ix1 h) = BitVec.ofNat 32 (2 ^ h.val) := by
  decide

end Cert.RefHash

end
-- ==== Proof.RefCodeX.lean ====
/-
  The hash codes of the token rows, as the reference computes them.

  At (0, s, t) the reference's code array holds the 32-bit sum over the 8 hashes h of (the bit "inner product of token
  row s with projection (t, h) is > 0.0", widened to 32 bits) times the weight 2^h: table t's code of that row. The
  inner product is the contraction of x (left) with proj (right) over the 1024 features, factors in that order.
-/
import proofs.«148647_g61529701483102_cont_9to1_m_177_19_alg».proof.Proof.RefReadOps
import proofs.«148647_g61529701483102_cont_9to1_m_177_19_alg».proof.Proof.RefCode
import proofs.«148647_g61529701483102_cont_9to1_m_177_19_alg».proof.Proof.RefReduce
import proofs.«148647_g61529701483102_cont_9to1_m_177_19_alg».proof.Proof.RefWeights

noncomputable section

open scoped BigOperators

namespace Cert.RefHash

open Idealize.ShloMosaic Idealize.ShloMosaic.ValueIdx Cert.ReferenceIdeal Cert.ReferenceIdeal.ReadOps

/-- The contraction's left operand index at sign bit (s, t, k) and feature d: token row s of x at feature d. -/
theorem lidx_x (s : Fin 2048) (t k : Fin 8) (d : Fin 1024) :
    lidx_main_v0 (ix4 (0 : Fin 1) s t k) d = ix3 (0 : Fin 1) s d := by
  funext a; match a with | ⟨0, _⟩ => rfl | ⟨1, _⟩ => rfl | ⟨2, _⟩ => rfl

/-- Its right operand index: projection (t, k) at feature d. -/
theorem ridx_x (s : Fin 2048) (t k : Fin 8) (d : Fin 1024) :
    ridx_main_v0 (ix4 (0 : Fin 1) s t k) d = ix3 t k d := by
  funext a; match a with | ⟨0, _⟩ => rfl | ⟨1, _⟩ => rfl | ⟨2, _⟩ => rfl

/-- The weight vector read through its two broadcasts at sign bit (s, t, k): its position k. -/
theorem widx_x (s : Fin 2048) (t k : Fin 8) :
    idx_main_v59 (idx_main_v60 (ix4 (0 : Fin 1) s t k)) = ix1 k := by
  funext a; match a with | ⟨0, _⟩ => rfl

/-- The inner product behind sign bit (s, t, k). -/
theorem dot_x (x0 : (⟨S1x2048x1024, .f32⟩ : BufTy).Contents (Elt Ideal)) (x3 : (⟨S8x8x1024, .f32⟩ : BufTy).Contents (Elt Ideal)) (s : Fin 2048) (t k : Fin 8) :
    val_main_v0 (F := Ideal) x0 x3 (ix4 (0 : Fin 1) s t k) = ∑ d : Fin 1024, x0 (ix3 (0 : Fin 1) s d) * x3 (ix3 t k d) := by
  rw [val_main_v0_apply]
  exact Finset.sum_congr rfl fun d _ => by rw [lidx_x, ridx_x]

/-- One term of the code: the sign bit of (s, t, k) as a 32-bit word, times 2^k. -/
theorem term_x (x0 : (⟨S1x2048x1024, .f32⟩ : BufTy).Contents (Elt Ideal)) (x3 : (⟨S8x8x1024, .f32⟩ : BufTy).Contents (Elt Ideal)) (s : Fin 2048) (t k : Fin 8) :
    val_main_v61 (F := Ideal) x0 x3 (ix4 (0 : Fin 1) s t k)
      = term (sgn (fun d => x0 (ix3 (0 : Fin 1) s d)) (fun d => x3 (ix3 t k d))) k.val := by
  rw [val_main_v61_apply, val_main_v58_apply, val_main_v2_apply, dot_x, val_main_v1_apply, val_main_cst_apply,
    val_main_v60_apply, val_main_v59_apply, widx_x, weight_x]
  exact term_of_cmp (fun d => x0 (ix3 (0 : Fin 1) s d)) (fun d => x3 (ix3 t k d)) k.val

/-- THE CODE at (s, t): table t's code of token row s of x. -/
theorem code_x (x0 : (⟨S1x2048x1024, .f32⟩ : BufTy).Contents (Elt Ideal)) (x3 : (⟨S8x8x1024, .f32⟩ : BufTy).Contents (Elt Ideal)) (s : Fin 2048) (t : Fin 8) :
    val_main_v62 (F := Ideal) x0 x3 (ix3 (0 : Fin 1) s t)
      = code (fun d => x0 (ix3 (0 : Fin 1) s d)) (fun t h d => x3 (ix3 t h d)) t := by
  unfold val_main_v62
  rw [reduce_tokens IntOp.addi]
  unfold code pack
  refine Finset.fold_congr fun k _ => ?_
  exact term_x x0 x3 s t k

end Cert.RefHash

end
-- ==== Proof.RefCodeW.lean ====
/-
  The hash codes of the weight rows, as the reference computes them.

  At (o, t) the reference's code array holds the 32-bit sum over the 8 hashes h of (the bit "inner product of weight
  row o with projection (t, h) is > 0.0", widened to 32 bits) times the weight 2^h: table t's code of that row. The
  inner product is the contraction of W (left) with proj (right) over the 1024 features, factors in that order.
-/
import proofs.«148647_g61529701483102_cont_9to1_m_177_19_alg».proof.Proof.RefReadOps
import proofs.«148647_g61529701483102_cont_9to1_m_177_19_alg».proof.Proof.RefCode
import proofs.«148647_g61529701483102_cont_9to1_m_177_19_alg».proof.Proof.RefReduce
import proofs.«148647_g61529701483102_cont_9to1_m_177_19_alg».proof.Proof.RefWeights

noncomputable section

open scoped BigOperators

namespace Cert.RefHash

open Idealize.ShloMosaic Idealize.ShloMosaic.ValueIdx Cert.ReferenceIdeal Cert.ReferenceIdeal.ReadOps

/-- The contraction's left operand index at sign bit (o, t, k) and feature d: row o of W at feature d. -/
theorem lidx_w (o : Fin 4096) (t k : Fin 8) (d : Fin 1024) :
    lidx_main_v63 (ix3 o t k) d = ix2 o d := by
  funext a; match a with | ⟨0, _⟩ => rfl | ⟨1, _⟩ => rfl

/-- Its right operand index: projection (t, k) at feature d. -/
theorem ridx_w (o : Fin 4096) (t k : Fin 8) (d : Fin 1024) :
    ridx_main_v63 (ix3 o t k) d = ix3 t k d := by
  funext a; match a with | ⟨0, _⟩ => rfl | ⟨1, _⟩ => rfl | ⟨2, _⟩ => rfl

/-- The weight vector read through its two broadcasts at sign bit (o, t, k): its position k. -/
theorem widx_w (o : Fin 4096) (t k : Fin 8) :
    idx_main_v122 (idx_main_v123 (ix3 o t k)) = ix1 k := by
  funext a; match a with | ⟨0, _⟩ => rfl

/-- The inner product behind sign bit (o, t, k). -/
theorem dot_w (x1 : (⟨S4096x1024, .f32⟩ : BufTy).Contents (Elt Ideal)) (x3 : (⟨S8x8x1024, .f32⟩ : BufTy).Contents (Elt Ideal)) (o : Fin 4096) (t k : Fin 8) :
    val_main_v63 (F := Ideal) x1 x3 (ix3 o t k) = ∑ d : Fin 1024, x1 (ix2 o d) * x3 (ix3 t k d) := by
  rw [val_main_v63_apply]
  exact Finset.sum_congr rfl fun d _ => by rw [lidx_w, ridx_w]

/-- One term of the code: the sign bit of (o, t, k) as a 32-bit word, times 2^k. -/
theorem term_w (x1 : (⟨S4096x1024, .f32⟩ : BufTy).Contents (Elt Ideal)) (x3 : (⟨S8x8x1024, .f32⟩ : BufTy).Contents (Elt Ideal)) (o : Fin 4096) (t k : Fin 8) :
    val_main_v124 (F := Ideal) x1 x3 (ix3 o t k)
      = term (sgn (fun d => x1 (ix2 o d)) (fun d => x3 (ix3 t k d))) k.val := by
  rw [val_main_v124_apply, val_main_v121_apply, val_main_v65_apply, dot_w, val_main_v64_apply, val_main_cst_20_apply,
    val_main_v123_apply, val_main_v122_apply, widx_w, weight_w]
  exact term_of_cmp (fun d => x1 (ix2 o d)) (fun d => x3 (ix3 t k d)) k.val

/-- THE CODE at (o, t): table t's code of row o of W. -/
theorem code_w (x1 : (⟨S4096x1024, .f32⟩ : BufTy).Contents (Elt Ideal)) (x3 : (⟨S8x8x1024, .f32⟩ : BufTy).Contents (Elt Ideal)) (o : Fin 4096) (t : Fin 8) :
    val_main_v125 (F := Ideal) x1 x3 (ix2 o t)
      = code (fun d => x1 (ix2 o d)) (fun t h d => x3 (ix3 t h d)) t := by
  unfold val_main_v125
  rw [reduce_rows IntOp.addi]
  unfold code pack
  refine Finset.fold_congr fun k _ => ?_
  exact term_w x1 x3 o t k

end Cert.RefHash

end
-- ==== Proof.RefMask.lean ====
/-
  The reference's mask at an entry is the collision of the two rows.

  At (0, s, o, t) the reference compares table t's code of token row s with table t's code of weight row o (each code
  array reaches the comparison through two broadcasts), and the mask at (0, s, o) is the OR of the 8 comparisons. The
  codes are equal exactly when the rows' 8 sign bits in table t agree, so the mask is one exactly when in some table
  all 8 sign bits agree: the two rows collide.
-/
import proofs.«148647_g61529701483102_cont_9to1_m_177_19_alg».proof.Proof.RefReadOps
import proofs.«148647_g61529701483102_cont_9to1_m_177_19_alg».proof.Proof.HashMask
import proofs.«148647_g61529701483102_cont_9to1_m_177_19_alg».proof.Proof.RefCodeX
import proofs.«148647_g61529701483102_cont_9to1_m_177_19_alg».proof.Proof.RefCodeW

noncomputable section

open scoped BigOperators

namespace Cert.RefHash

open Idealize.ShloMosaic Idealize.ShloMosaic.ValueIdx Cert.ReferenceIdeal Cert.ReferenceIdeal.ReadOps

/-- The token rows' code array read through its two broadcasts at comparison (0, s, o, t): the code at (0, s, t). -/
theorem xidx_mask (s : Fin 2048) (o : Fin 4096) (t : Fin 8) :
    idx_main_v126 (idx_main_v128 (ix4 (0 : Fin 1) s o t)) = ix3 (0 : Fin 1) s t := by
  funext a; match a with | ⟨0, _⟩ => rfl | ⟨1, _⟩ => rfl | ⟨2, _⟩ => rfl

/-- The weight rows' code array read through its two broadcasts at comparison (0, s, o, t): the code at (o, t). -/
theorem widx_mask (s : Fin 2048) (o : Fin 4096) (t : Fin 8) :
    idx_main_v127 (idx_main_v129 (ix4 (0 : Fin 1) s o t)) = ix2 o t := by
  funext a; match a with | ⟨0, _⟩ => rfl | ⟨1, _⟩ => rfl

/-- Comparison (0, s, o, t): are table t's codes of token row s and of weight row o equal. -/
theorem cmp_mask (x0 : (⟨S1x2048x1024, .f32⟩ : BufTy).Contents (Elt Ideal)) (x1 : (⟨S4096x1024, .f32⟩ : BufTy).Contents (Elt Ideal)) (x3 : (⟨S8x8x1024, .f32⟩ : BufTy).Contents (Elt Ideal)) (s : Fin 2048) (o : Fin 4096) (t : Fin 8) :
    val_main_v130 (F := Ideal) x0 x1 x3 (ix4 (0 : Fin 1) s o t)
      = IntOp.cmpi .eq (code (fun d => x0 (ix3 (0 : Fin 1) s d)) (fun t h d => x3 (ix3 t h d)) t) (code (fun d => x1 (ix2 o d)) (fun t h d => x3 (ix3 t h d)) t) := by
  rw [val_main_v130_apply, val_main_v128_apply, val_main_v126_apply, xidx_mask, code_x,
    val_main_v129_apply, val_main_v127_apply, widx_mask, code_w]

/-- THE MASK at (0, s, o) is one exactly when token row s and weight row o collide. -/
theorem mask_eq_one_iff (x0 : (⟨S1x2048x1024, .f32⟩ : BufTy).Contents (Elt Ideal)) (x1 : (⟨S4096x1024, .f32⟩ : BufTy).Contents (Elt Ideal)) (x3 : (⟨S8x8x1024, .f32⟩ : BufTy).Contents (Elt Ideal)) (s : Fin 2048) (o : Fin 4096) :
    val_main_v131 (F := Ideal) x0 x1 x3 (ix3 (0 : Fin 1) s o) = 1#1
      ↔ Cert.HashMask.collide (fun d => x0 (ix3 (0 : Fin 1) s d)) (fun d => x1 (ix2 o d)) (fun t h d => x3 (ix3 t h d)) := by
  unfold val_main_v131
  rw [reduce_tables IntOp.ori]
  have e : (fun k => val_main_v130 (F := Ideal) x0 x1 x3 (ix4 (0 : Fin 1) s o k))
      = fun t => IntOp.cmpi .eq (code (fun d => x0 (ix3 (0 : Fin 1) s d)) (fun t h d => x3 (ix3 t h d)) t) (code (fun d => x1 (ix2 o d)) (fun t h d => x3 (ix3 t h d)) t) :=
    funext fun t => cmp_mask x0 x1 x3 s o t
  rw [e]
  show (Finset.univ : Finset (Fin 8)).fold IntOp.ori 0#1 _ = 1#1 ↔ _
  rw [or_cmp_eq_one_iff]
  unfold Cert.HashMask.collide Cert.HashMask.bit
  exact exists_congr fun t => code_eq_iff (fun d => x0 (ix3 (0 : Fin 1) s d)) (fun d => x1 (ix2 o d)) (fun t h d => x3 (ix3 t h d)) t

end Cert.RefHash

end
-- ==== Proof.RefDense.lean ====
/-
  The dense value of the reference at an entry.

  Entry (0, s, o) of the reference's dense layer is the contraction of token row s of x with row o of W over the
  1024 features (factors in the order x * W), plus the bias of o, which reaches the entry through two broadcasts
  [4096] → [1, 1, 4096] → [1, 2048, 4096].
-/
import proofs.«148647_g61529701483102_cont_9to1_m_177_19_alg».proof.Proof.RefReadOps
import proofs.«148647_g61529701483102_cont_9to1_m_177_19_alg».proof.Proof.HashMask

noncomputable section

open scoped BigOperators

namespace Cert.RefHash

open Idealize.ShloMosaic Idealize.ShloMosaic.ValueIdx Cert.ReferenceIdeal Cert.ReferenceIdeal.ReadOps

/-- The contraction's left operand index at entry (0, s, o) and feature d: x at (0, s, d). -/
theorem lidx_dense (s : Fin 2048) (o : Fin 4096) (d : Fin 1024) :
    lidx_main_v132 (ix3 (0 : Fin 1) s o) d = ix3 (0 : Fin 1) s d := by
  funext a; match a with | ⟨0, _⟩ => rfl | ⟨1, _⟩ => rfl | ⟨2, _⟩ => rfl

/-- Its right operand index: W at (o, d). -/
theorem ridx_dense (s : Fin 2048) (o : Fin 4096) (d : Fin 1024) :
    ridx_main_v132 (ix3 (0 : Fin 1) s o) d = ix2 o d := by
  funext a; match a with | ⟨0, _⟩ => rfl | ⟨1, _⟩ => rfl

/-- The bias read through its two broadcasts at entry (0, s, o): b at o. -/
theorem bias_idx (s : Fin 2048) (o : Fin 4096) :
    idx_main_v133 (idx_main_v134 (ix3 (0 : Fin 1) s o)) = ix1 o := by
  funext a; match a with | ⟨0, _⟩ => rfl

/-- THE DENSE VALUE at entry (0, s, o): the inner product of token row s and weight row o, plus the bias of o. -/
theorem dense_value (x0 : (⟨S1x2048x1024, .f32⟩ : BufTy).Contents (Elt Ideal)) (x1 : (⟨S4096x1024, .f32⟩ : BufTy).Contents (Elt Ideal)) (x2 : (⟨S4096, .f32⟩ : BufTy).Contents (Elt Ideal)) (s : Fin 2048) (o : Fin 4096) :
    val_main_v135 (F := Ideal) x0 x1 x2 (ix3 (0 : Fin 1) s o)
      = Cert.HashMask.dense (fun d => x0 (ix3 (0 : Fin 1) s d)) (fun d => x1 (ix2 o d)) (x2 (ix1 o)) := by
  rw [val_main_v135_apply, val_main_v132_apply, val_main_v134_apply, val_main_v133_apply, bias_idx]
  have hs : (∑ k : Fin 1024, x0 (lidx_main_v132 (ix3 (0 : Fin 1) s o) k) * x1 (ridx_main_v132 (ix3 (0 : Fin 1) s o) k))
      = ∑ d : Fin 1024, x0 (ix3 (0 : Fin 1) s d) * x1 (ix2 o d) :=
    Finset.sum_congr rfl fun d _ => by rw [lidx_dense, ridx_dense]
  rw [hs]
  rfl

end Cert.RefHash

end
-- ==== Proof.RefResult.lean ====
/-
  The reference's result is the masked dense layer.

  Entry (0, s, o) of the reference selects, on the mask bit, between the dense value and the constant 0.0. The mask
  bit is one exactly when token row s and weight row o collide, the dense value is their inner product plus the bias,
  and the word 0x00000000 reads as the extended real 0: the entry is the masked entry of the specification.
-/
import proofs.«148647_g61529701483102_cont_9to1_m_177_19_alg».proof.Proof.RefReadOps
import proofs.«148647_g61529701483102_cont_9to1_m_177_19_alg».proof.Proof.HashMask
import proofs.«148647_g61529701483102_cont_9to1_m_177_19_alg».proof.Proof.RefMask
import proofs.«148647_g61529701483102_cont_9to1_m_177_19_alg».proof.Proof.RefDense

noncomputable section

open scoped BigOperators

namespace Cert.RefHash

open Idealize.ShloMosaic Idealize.ShloMosaic.ValueIdx Cert.ReferenceIdeal Cert.ReferenceIdeal.ReadOps

/-- The constant the non-selected entries take: 0.0, the extended real 0. -/
theorem zero_value (i : S1x2048x4096.Idx) : val_main_call14_v1 (F := Ideal) i = 0 := by
  rw [val_main_call14_v1_apply, val_main_call14_v0_apply, val_main_cst_43_apply]
  exact Ideal.ofBits_zero_f32

/-- THE REFERENCE'S RESULT, as one function of the four argument arrays. -/
theorem ref_result (x0 : (⟨S1x2048x1024, .f32⟩ : BufTy).Contents (Elt Ideal)) (x1 : (⟨S4096x1024, .f32⟩ : BufTy).Contents (Elt Ideal))
    (x2 : (⟨S4096, .f32⟩ : BufTy).Contents (Elt Ideal)) (x3 : (⟨S8x8x1024, .f32⟩ : BufTy).Contents (Elt Ideal)) :
    val_main_v136 (F := Ideal) x0 x1 x2 x3 = Cert.HashMask.result x0 x1 x2 x3 := by
  funext i
  obtain ⟨a, s, o, rfl⟩ : ∃ (a : Fin 1) (s : Fin 2048) (o : Fin 4096), i = ix3 a s o := ⟨i 0, i 1, i 2, eq_ix3 i⟩
  obtain rfl : a = 0 := Subsingleton.elim _ _
  rw [val_main_v136_apply, dense_value, zero_value]
  show Scalar.select _ _ _ = Cert.HashMask.entry (fun d => x0 (ix3 (0 : Fin 1) s d)) (fun d => x1 (ix2 o d)) (x2 (ix1 o)) (fun t h d => x3 (ix3 t h d))
  unfold Cert.HashMask.entry
  by_cases hc : Cert.HashMask.collide (fun d => x0 (ix3 (0 : Fin 1) s d)) (fun d => x1 (ix2 o d)) (fun t h d => x3 (ix3 t h d))
  · rw [if_pos hc, (mask_eq_one_iff x0 x1 x3 s o).mpr hc, select_one]
  · rw [if_neg hc, eq_zero_of_ne_one (fun h1 => hc ((mask_eq_one_iff x0 x1 x3 s o).mp h1)), select_zero]

end Cert.RefHash

end
-- ==== Proof.RefRunWindows.lean ====
/-
  The reference's 225 operations, cut where the data flows.

  Running a list of operations from given buffer contents is running a first part and then the rest from what the
  first part leaves. The reference's list falls into eight consecutive parts, each reading only the arguments and one
  or two arrays that earlier parts leave: the token rows' sign bits; their weight vector 2^h; their codes; the same three
  for the weight rows; the mask and the dense values; and the final selection (the body of the called function).
-/
import proofs.«148647_g61529701483102_cont_9to1_m_177_19_alg».proof.Proof.GenRunBase

noncomputable section

namespace Cert.RefHash.Run

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F]

/-- Running two lists one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Operations 0–3: the inner products of the token rows with the projections, compared with 0.0 (the sign bits). -/
def tokenBits : List (HloOp τ sig (Elt F)) := (ops (F := F)).take 4
/-- Operations 4–98: the weight vector 2^h of the token rows' codes, by repeated squaring. -/
def tokenWeights : List (HloOp τ sig (Elt F)) := ((ops (F := F)).drop 4).take 95
/-- Operations 99–104: the token rows' codes, the weighted sign bits summed over the 8 hashes. -/
def tokenCodes : List (HloOp τ sig (Elt F)) := ((ops (F := F)).drop 99).take 6
/-- Operations 105–108: the sign bits of the weight rows. -/
def rowBits : List (HloOp τ sig (Elt F)) := ((ops (F := F)).drop 105).take 4
/-- Operations 109–203: the weight vector 2^h of the weight rows' codes. -/
def rowWeights : List (HloOp τ sig (Elt F)) := ((ops (F := F)).drop 109).take 95
/-- Operations 204–209: the weight rows' codes. -/
def rowCodes : List (HloOp τ sig (Elt F)) := ((ops (F := F)).drop 204).take 6
/-- Operations 210–220: the mask (codes compared, OR over the tables) and the dense values (inner products plus bias). -/
def maskDense : List (HloOp τ sig (Elt F)) := ((ops (F := F)).drop 210).take 11
/-- Operations 221–224: the constant 0.0 and the selection between the dense values and it, on the mask. -/
def selectOps : List (HloOp τ sig (Elt F)) := (ops (F := F)).drop 221

set_option maxRecDepth 8192 in
/-- The eight parts, in order, are the whole list. -/
theorem ops_split : (ops (F := F)) = tokenBits ++ (tokenWeights ++ (tokenCodes ++ (rowBits ++ (rowWeights ++ (rowCodes ++ (maskDense ++ selectOps)))))) := rfl

/-- So the whole run is the eight parts run in order. -/
theorem after_ops (V : Valuation τ sig (Elt F)) :
    after (ops (F := F)) V = after selectOps (after maskDense (after rowCodes (after rowWeights (after rowBits
      (after tokenCodes (after tokenWeights (after tokenBits V))))))) := by
  rw [ops_split]
  simp only [after_append]

end Cert.RefHash.Run

end
-- ==== Proof.RefRunTokens.lean ====
/-
  The token rows' side of the run: what its three parts leave.

  The first part leaves the sign bits as the comparison stage of x and proj; the second leaves the weight vector (a
  closed term); the third, from those two, leaves the token rows' codes. None of them writes an argument, and the
  weight part does not write the sign bits.
-/
import proofs.«148647_g61529701483102_cont_9to1_m_177_19_alg».proof.Proof.RefRunWindows
import proofs.«148647_g61529701483102_cont_9to1_m_177_19_alg».proof.Proof.RefReadOps

noncomputable section

namespace Cert.RefHash.Run

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadOps

variable {F : FTy → Type} [FloatOps F]

set_option maxRecDepth 8192 in
/-- The sign bits of the token rows, as the comparison stage of the arguments x and proj. -/
theorem after_tokenBits (V : Valuation τ sig (Elt F)) :
    after (tokenBits (F := F)) V (Proc.devRef .tc main_v2) = val_main_v2 (F := F) (V (Proc.devRef .tc main_arg0)) (V (Proc.devRef .tc main_arg3)) := by
  unfold tokenBits ops
  simp only [List.take_succ_cons, List.take_zero, List.drop_succ_cons, List.drop_zero]
  after_results_simp <;> rfl

/-- This part does not write the argument x. -/
theorem tokenBits_keeps_main_arg0 (V : Valuation τ sig (Elt F)) : after (tokenBits (F := F)) V (Proc.devRef .tc main_arg0) = V (Proc.devRef .tc main_arg0) := by
  unfold tokenBits ops
  simp only [List.take_succ_cons, List.take_zero, List.drop_succ_cons, List.drop_zero]
  after_results_simp

/-- This part does not write the argument W. -/
theorem tokenBits_keeps_main_arg1 (V : Valuation τ sig (Elt F)) : after (tokenBits (F := F)) V (Proc.devRef .tc main_arg1) = V (Proc.devRef .tc main_arg1) := by
  unfold tokenBits ops
  simp only [List.take_succ_cons, List.take_zero, List.drop_succ_cons, List.drop_zero]
  after_results_simp

/-- This part does not write the argument b. -/
theorem tokenBits_keeps_main_arg2 (V : Valuation τ sig (Elt F)) : after (tokenBits (F := F)) V (Proc.devRef .tc main_arg2) = V (Proc.devRef .tc main_arg2) := by
  unfold tokenBits ops
  simp only [List.take_succ_cons, List.take_zero, List.drop_succ_cons, List.drop_zero]
  after_results_simp

/-- This part does not write the argument proj. -/
theorem tokenBits_keeps_main_arg3 (V : Valuation τ sig (Elt F)) : after (tokenBits (F := F)) V (Proc.devRef .tc main_arg3) = V (Proc.devRef .tc main_arg3) := by
  unfold tokenBits ops
  simp only [List.take_succ_cons, List.take_zero, List.drop_succ_cons, List.drop_zero]
  after_results_simp

set_option maxRecDepth 8192 in
set_option maxHeartbeats 4000000 in
/-- The weight vector of the token rows' codes: the closed term of the stage. -/
theorem after_tokenWeights (V : Valuation τ sig (Elt F)) :
    after (tokenWeights (F := F)) V (Proc.devRef .tc main_v54) = val_main_v54 (F := F) := by
  unfold tokenWeights ops
  simp only [List.take_succ_cons, List.take_zero, List.drop_succ_cons, List.drop_zero]
  after_results_simp <;> rfl

/-- This part does not write the argument x. -/
theorem tokenWeights_keeps_main_arg0 (V : Valuation τ sig (Elt F)) : after (tokenWeights (F := F)) V (Proc.devRef .tc main_arg0) = V (Proc.devRef .tc main_arg0) := by
  unfold tokenWeights ops
  simp only [List.take_succ_cons, List.take_zero, List.drop_succ_cons, List.drop_zero]
  after_results_simp

/-- This part does not write the argument W. -/
theorem tokenWeights_keeps_main_arg1 (V : Valuation τ sig (Elt F)) : after (tokenWeights (F := F)) V (Proc.devRef .tc main_arg1) = V (Proc.devRef .tc main_arg1) := by
  unfold tokenWeights ops
  simp only [List.take_succ_cons, List.take_zero, List.drop_succ_cons, List.drop_zero]
  after_results_simp

/-- This part does not write the argument b. -/
theorem tokenWeights_keeps_main_arg2 (V : Valuation τ sig (Elt F)) : after (tokenWeights (F := F)) V (Proc.devRef .tc main_arg2) = V (Proc.devRef .tc main_arg2) := by
  unfold tokenWeights ops
  simp only [List.take_succ_cons, List.take_zero, List.drop_succ_cons, List.drop_zero]
  after_results_simp

/-- This part does not write the argument proj. -/
theorem tokenWeights_keeps_main_arg3 (V : Valuation τ sig (Elt F)) : after (tokenWeights (F := F)) V (Proc.devRef .tc main_arg3) = V (Proc.devRef .tc main_arg3) := by
  unfold tokenWeights ops
  simp only [List.take_succ_cons, List.take_zero, List.drop_succ_cons, List.drop_zero]
  after_results_simp

/-- The weight part does not write the sign bits. -/
theorem tokenWeights_keeps_main_v2 (V : Valuation τ sig (Elt F)) : after (tokenWeights (F := F)) V (Proc.devRef .tc main_v2) = V (Proc.devRef .tc main_v2) := by
  unfold tokenWeights ops
  simp only [List.take_succ_cons, List.take_zero, List.drop_succ_cons, List.drop_zero]
  after_results_simp

set_option maxRecDepth 8192 in
/-- The token rows' codes, from the sign bits and the weight vector. -/
theorem after_tokenCodes (V : Valuation τ sig (Elt F)) (x0 : (⟨S1x2048x1024, .f32⟩ : BufTy).Contents (Elt F)) (x3 : (⟨S8x8x1024, .f32⟩ : BufTy).Contents (Elt F))
    (h2 : V (Proc.devRef .tc main_v2) = val_main_v2 (F := F) x0 x3) (h54 : V (Proc.devRef .tc main_v54) = val_main_v54 (F := F)) :
    after (tokenCodes (F := F)) V (Proc.devRef .tc main_v62) = val_main_v62 (F := F) x0 x3 := by
  unfold tokenCodes ops
  simp only [List.take_succ_cons, List.take_zero, List.drop_succ_cons, List.drop_zero]
  after_results_simp
  rw [h2, h54]; rfl

/-- This part does not write the argument x. -/
theorem tokenCodes_keeps_main_arg0 (V : Valuation τ sig (Elt F)) : after (tokenCodes (F := F)) V (Proc.devRef .tc main_arg0) = V (Proc.devRef .tc main_arg0) := by
  unfold tokenCodes ops
  simp only [List.take_succ_cons, List.take_zero, List.drop_succ_cons, List.drop_zero]
  after_results_simp

/-- This part does not write the argument W. -/
theorem tokenCodes_keeps_main_arg1 (V : Valuation τ sig (Elt F)) : after (tokenCodes (F := F)) V (Proc.devRef .tc main_arg1) = V (Proc.devRef .tc main_arg1) := by
  unfold tokenCodes ops
  simp only [List.take_succ_cons, List.take_zero, List.drop_succ_cons, List.drop_zero]
  after_results_simp

/-- This part does not write the argument b. -/
theorem tokenCodes_keeps_main_arg2 (V : Valuation τ sig (Elt F)) : after (tokenCodes (F := F)) V (Proc.devRef .tc main_arg2) = V (Proc.devRef .tc main_arg2) := by
  unfold tokenCodes ops
  simp only [List.take_succ_cons, List.take_zero, List.drop_succ_cons, List.drop_zero]
  after_results_simp

/-- This part does not write the argument proj. -/
theorem tokenCodes_keeps_main_arg3 (V : Valuation τ sig (Elt F)) : after (tokenCodes (F := F)) V (Proc.devRef .tc main_arg3) = V (Proc.devRef .tc main_arg3) := by
  unfold tokenCodes ops
  simp only [List.take_succ_cons, List.take_zero, List.drop_succ_cons, List.drop_zero]
  after_results_simp

end Cert.RefHash.Run

end
-- ==== Proof.RefRunRows.lean ====
/-
  The weight rows' side of the run: what its three parts leave.

  As for the token rows: the sign bits as the comparison stage of W and proj, the weight vector, and from those the
  weight rows' codes. None of the three writes an argument or the token rows' codes, and the weight part does not
  write the sign bits.
-/
import proofs.«148647_g61529701483102_cont_9to1_m_177_19_alg».proof.Proof.RefRunWindows
import proofs.«148647_g61529701483102_cont_9to1_m_177_19_alg».proof.Proof.RefReadOps

noncomputable section

namespace Cert.RefHash.Run

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadOps

variable {F : FTy → Type} [FloatOps F]

set_option maxRecDepth 8192 in
/-- The sign bits of the weight rows, as the comparison stage of the arguments W and proj. -/
theorem after_rowBits (V : Valuation τ sig (Elt F)) :
    after (rowBits (F := F)) V (Proc.devRef .tc main_v65) = val_main_v65 (F := F) (V (Proc.devRef .tc main_arg1)) (V (Proc.devRef .tc main_arg3)) := by
  unfold rowBits ops
  simp only [List.take_succ_cons, List.take_zero, List.drop_succ_cons, List.drop_zero]
  after_results_simp <;> rfl

/-- This part does not write the argument x. -/
theorem rowBits_keeps_main_arg0 (V : Valuation τ sig (Elt F)) : after (rowBits (F := F)) V (Proc.devRef .tc main_arg0) = V (Proc.devRef .tc main_arg0) := by
  unfold rowBits ops
  simp only [List.take_succ_cons, List.take_zero, List.drop_succ_cons, List.drop_zero]
  after_results_simp

/-- This part does not write the argument W. -/
theorem rowBits_keeps_main_arg1 (V : Valuation τ sig (Elt F)) : after (rowBits (F := F)) V (Proc.devRef .tc main_arg1) = V (Proc.devRef .tc main_arg1) := by
  unfold rowBits ops
  simp only [List.take_succ_cons, List.take_zero, List.drop_succ_cons, List.drop_zero]
  after_results_simp

/-- This part does not write the argument b. -/
theorem rowBits_keeps_main_arg2 (V : Valuation τ sig (Elt F)) : after (rowBits (F := F)) V (Proc.devRef .tc main_arg2) = V (Proc.devRef .tc main_arg2) := by
  unfold rowBits ops
  simp only [List.take_succ_cons, List.take_zero, List.drop_succ_cons, List.drop_zero]
  after_results_simp

/-- This part does not write the argument proj. -/
theorem rowBits_keeps_main_arg3 (V : Valuation τ sig (Elt F)) : after (rowBits (F := F)) V (Proc.devRef .tc main_arg3) = V (Proc.devRef .tc main_arg3) := by
  unfold rowBits ops
  simp only [List.take_succ_cons, List.take_zero, List.drop_succ_cons, List.drop_zero]
  after_results_simp

/-- This part does not write the token rows' codes. -/
theorem rowBits_keeps_main_v62 (V : Valuation τ sig (Elt F)) : after (rowBits (F := F)) V (Proc.devRef .tc main_v62) = V (Proc.devRef .tc main_v62) := by
  unfold rowBits ops
  simp only [List.take_succ_cons, List.take_zero, List.drop_succ_cons, List.drop_zero]
  after_results_simp

set_option maxRecDepth 8192 in
set_option maxHeartbeats 4000000 in
/-- The weight vector of the weight rows' codes: the closed term of the stage. -/
theorem after_rowWeights (V : Valuation τ sig (Elt F)) :
    after (rowWeights (F := F)) V (Proc.devRef .tc main_v117) = val_main_v117 (F := F) := by
  unfold rowWeights ops
  simp only [List.take_succ_cons, List.take_zero, List.drop_succ_cons, List.drop_zero]
  after_results_simp <;> rfl

/-- This part does not write the argument x. -/
theorem rowWeights_keeps_main_arg0 (V : Valuation τ sig (Elt F)) : after (rowWeights (F := F)) V (Proc.devRef .tc main_arg0) = V (Proc.devRef .tc main_arg0) := by
  unfold rowWeights ops
  simp only [List.take_succ_cons, List.take_zero, List.drop_succ_cons, List.drop_zero]
  after_results_simp

/-- This part does not write the argument W. -/
theorem rowWeights_keeps_main_arg1 (V : Valuation τ sig (Elt F)) : after (rowWeights (F := F)) V (Proc.devRef .tc main_arg1) = V (Proc.devRef .tc main_arg1) := by
  unfold rowWeights ops
  simp only [List.take_succ_cons, List.take_zero, List.drop_succ_cons, List.drop_zero]
  after_results_simp

/-- This part does not write the argument b. -/
theorem rowWeights_keeps_main_arg2 (V : Valuation τ sig (Elt F)) : after (rowWeights (F := F)) V (Proc.devRef .tc main_arg2) = V (Proc.devRef .tc main_arg2) := by
  unfold rowWeights ops
  simp only [List.take_succ_cons, List.take_zero, List.drop_succ_cons, List.drop_zero]
  after_results_simp

/-- This part does not write the argument proj. -/
theorem rowWeights_keeps_main_arg3 (V : Valuation τ sig (Elt F)) : after (rowWeights (F := F)) V (Proc.devRef .tc main_arg3) = V (Proc.devRef .tc main_arg3) := by
  unfold rowWeights ops
  simp only [List.take_succ_cons, List.take_zero, List.drop_succ_cons, List.drop_zero]
  after_results_simp

/-- This part does not write the token rows' codes. -/
theorem rowWeights_keeps_main_v62 (V : Valuation τ sig (Elt F)) : after (rowWeights (F := F)) V (Proc.devRef .tc main_v62) = V (Proc.devRef .tc main_v62) := by
  unfold rowWeights ops
  simp only [List.take_succ_cons, List.take_zero, List.drop_succ_cons, List.drop_zero]
  after_results_simp

/-- The weight part does not write the sign bits. -/
theorem rowWeights_keeps_main_v65 (V : Valuation τ sig (Elt F)) : after (rowWeights (F := F)) V (Proc.devRef .tc main_v65) = V (Proc.devRef .tc main_v65) := by
  unfold rowWeights ops
  simp only [List.take_succ_cons, List.take_zero, List.drop_succ_cons, List.drop_zero]
  after_results_simp

set_option maxRecDepth 8192 in
/-- The weight rows' codes, from the sign bits and the weight vector. -/
theorem after_rowCodes (V : Valuation τ sig (Elt F)) (x1 : (⟨S4096x1024, .f32⟩ : BufTy).Contents (Elt F)) (x3 : (⟨S8x8x1024, .f32⟩ : BufTy).Contents (Elt F))
    (h65 : V (Proc.devRef .tc main_v65) = val_main_v65 (F := F) x1 x3) (h117 : V (Proc.devRef .tc main_v117) = val_main_v117 (F := F)) :
    after (rowCodes (F := F)) V (Proc.devRef .tc main_v125) = val_main_v125 (F := F) x1 x3 := by
  unfold rowCodes ops
  simp only [List.take_succ_cons, List.take_zero, List.drop_succ_cons, List.drop_zero]
  after_results_simp
  rw [h65, h117]; rfl

/-- This part does not write the argument x. -/
theorem rowCodes_keeps_main_arg0 (V : Valuation τ sig (Elt F)) : after (rowCodes (F := F)) V (Proc.devRef .tc main_arg0) = V (Proc.devRef .tc main_arg0) := by
  unfold rowCodes ops
  simp only [List.take_succ_cons, List.take_zero, List.drop_succ_cons, List.drop_zero]
  after_results_simp

/-- This part does not write the argument W. -/
theorem rowCodes_keeps_main_arg1 (V : Valuation τ sig (Elt F)) : after (rowCodes (F := F)) V (Proc.devRef .tc main_arg1) = V (Proc.devRef .tc main_arg1) := by
  unfold rowCodes ops
  simp only [List.take_succ_cons, List.take_zero, List.drop_succ_cons, List.drop_zero]
  after_results_simp

/-- This part does not write the argument b. -/
theorem rowCodes_keeps_main_arg2 (V : Valuation τ sig (Elt F)) : after (rowCodes (F := F)) V (Proc.devRef .tc main_arg2) = V (Proc.devRef .tc main_arg2) := by
  unfold rowCodes ops
  simp only [List.take_succ_cons, List.take_zero, List.drop_succ_cons, List.drop_zero]
  after_results_simp

/-- This part does not write the argument proj. -/
theorem rowCodes_keeps_main_arg3 (V : Valuation τ sig (Elt F)) : after (rowCodes (F := F)) V (Proc.devRef .tc main_arg3) = V (Proc.devRef .tc main_arg3) := by
  unfold rowCodes ops
  simp only [List.take_succ_cons, List.take_zero, List.drop_succ_cons, List.drop_zero]
  after_results_simp

/-- This part does not write the token rows' codes. -/
theorem rowCodes_keeps_main_v62 (V : Valuation τ sig (Elt F)) : after (rowCodes (F := F)) V (Proc.devRef .tc main_v62) = V (Proc.devRef .tc main_v62) := by
  unfold rowCodes ops
  simp only [List.take_succ_cons, List.take_zero, List.drop_succ_cons, List.drop_zero]
  after_results_simp

end Cert.RefHash.Run

end
-- ==== Proof.RefRunSelect.lean ====
/-
  The last two parts of the run: the mask and the dense values, then the selection.

  From the two code arrays the mask part leaves the mask stage, and from the arguments the dense stage. The selection
  is the body of a called function, whose operations move values between a buffer's own type and the tensor type the
  function states; it is read over ANY mask and dense arrays, so that only those small moves are computed through.
-/
import proofs.«148647_g61529701483102_cont_9to1_m_177_19_alg».proof.Proof.RefRunWindows
import proofs.«148647_g61529701483102_cont_9to1_m_177_19_alg».proof.Proof.RefReadOps

noncomputable section

namespace Cert.RefHash.Run

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadOps

variable {F : FTy → Type} [FloatOps F]

set_option maxRecDepth 8192 in
/-- The mask, from the two code arrays. -/
theorem after_maskDense_mask (V : Valuation τ sig (Elt F)) (x0 : (⟨S1x2048x1024, .f32⟩ : BufTy).Contents (Elt F)) (x1 : (⟨S4096x1024, .f32⟩ : BufTy).Contents (Elt F)) (x3 : (⟨S8x8x1024, .f32⟩ : BufTy).Contents (Elt F))
    (h62 : V (Proc.devRef .tc main_v62) = val_main_v62 (F := F) x0 x3) (h125 : V (Proc.devRef .tc main_v125) = val_main_v125 (F := F) x1 x3) :
    after (maskDense (F := F)) V (Proc.devRef .tc main_v131) = val_main_v131 (F := F) x0 x1 x3 := by
  unfold maskDense ops
  simp only [List.take_succ_cons, List.take_zero, List.drop_succ_cons, List.drop_zero]
  after_results_simp
  rw [h62, h125]; rfl

set_option maxRecDepth 8192 in
/-- The dense values, from the arguments x, W and b. -/
theorem after_maskDense_dense (V : Valuation τ sig (Elt F)) (x0 : (⟨S1x2048x1024, .f32⟩ : BufTy).Contents (Elt F)) (x1 : (⟨S4096x1024, .f32⟩ : BufTy).Contents (Elt F)) (x2 : (⟨S4096, .f32⟩ : BufTy).Contents (Elt F))
    (h0 : V (Proc.devRef .tc main_arg0) = x0) (h1 : V (Proc.devRef .tc main_arg1) = x1) (h2 : V (Proc.devRef .tc main_arg2) = x2) :
    after (maskDense (F := F)) V (Proc.devRef .tc main_v135) = val_main_v135 (F := F) x0 x1 x2 := by
  unfold maskDense ops
  simp only [List.take_succ_cons, List.take_zero, List.drop_succ_cons, List.drop_zero]
  after_results_simp
  rw [h0, h1, h2]; rfl

/-- This part does not write the argument x. -/
theorem maskDense_keeps_main_arg0 (V : Valuation τ sig (Elt F)) : after (maskDense (F := F)) V (Proc.devRef .tc main_arg0) = V (Proc.devRef .tc main_arg0) := by
  unfold maskDense ops
  simp only [List.take_succ_cons, List.take_zero, List.drop_succ_cons, List.drop_zero]
  after_results_simp

/-- This part does not write the argument W. -/
theorem maskDense_keeps_main_arg1 (V : Valuation τ sig (Elt F)) : after (maskDense (F := F)) V (Proc.devRef .tc main_arg1) = V (Proc.devRef .tc main_arg1) := by
  unfold maskDense ops
  simp only [List.take_succ_cons, List.take_zero, List.drop_succ_cons, List.drop_zero]
  after_results_simp

/-- This part does not write the argument b. -/
theorem maskDense_keeps_main_arg2 (V : Valuation τ sig (Elt F)) : after (maskDense (F := F)) V (Proc.devRef .tc main_arg2) = V (Proc.devRef .tc main_arg2) := by
  unfold maskDense ops
  simp only [List.take_succ_cons, List.take_zero, List.drop_succ_cons, List.drop_zero]
  after_results_simp

/-- This part does not write the argument proj. -/
theorem maskDense_keeps_main_arg3 (V : Valuation τ sig (Elt F)) : after (maskDense (F := F)) V (Proc.devRef .tc main_arg3) = V (Proc.devRef .tc main_arg3) := by
  unfold maskDense ops
  simp only [List.take_succ_cons, List.take_zero, List.drop_succ_cons, List.drop_zero]
  after_results_simp

set_option maxRecDepth 8192 in
/-- The selection, over any mask `c` and dense values `d`: `d` where the mask is one, the constant 0.0 elsewhere. -/
theorem after_selectOps (V : Valuation τ sig (Elt F)) (c : (⟨S1x2048x4096, .i1⟩ : BufTy).Contents (Elt F)) (d : (⟨S1x2048x4096, .f32⟩ : BufTy).Contents (Elt F))
    (h131 : V (Proc.devRef .tc main_v131) = c) (h135 : V (Proc.devRef .tc main_v135) = d) :
    after (selectOps (F := F)) V (Proc.devRef .tc main_v136) = select c d (val_main_call14_v1 (F := F)) := by
  unfold selectOps ops
  simp only [List.drop_succ_cons, List.drop_zero]
  after_results_simp
  rw [h131, h135]; rfl

/-- This part does not write the argument x. -/
theorem selectOps_keeps_main_arg0 (V : Valuation τ sig (Elt F)) : after (selectOps (F := F)) V (Proc.devRef .tc main_arg0) = V (Proc.devRef .tc main_arg0) := by
  unfold selectOps ops
  simp only [List.drop_succ_cons, List.drop_zero]
  after_results_simp

/-- This part does not write the argument W. -/
theorem selectOps_keeps_main_arg1 (V : Valuation τ sig (Elt F)) : after (selectOps (F := F)) V (Proc.devRef .tc main_arg1) = V (Proc.devRef .tc main_arg1) := by
  unfold selectOps ops
  simp only [List.drop_succ_cons, List.drop_zero]
  after_results_simp

/-- This part does not write the argument b. -/
theorem selectOps_keeps_main_arg2 (V : Valuation τ sig (Elt F)) : after (selectOps (F := F)) V (Proc.devRef .tc main_arg2) = V (Proc.devRef .tc main_arg2) := by
  unfold selectOps ops
  simp only [List.drop_succ_cons, List.drop_zero]
  after_results_simp

/-- This part does not write the argument proj. -/
theorem selectOps_keeps_main_arg3 (V : Valuation τ sig (Elt F)) : after (selectOps (F := F)) V (Proc.devRef .tc main_arg3) = V (Proc.devRef .tc main_arg3) := by
  unfold selectOps ops
  simp only [List.drop_succ_cons, List.drop_zero]
  after_results_simp

end Cert.RefHash.Run

end
-- ==== Proof.RefRun.lean ====
/-
  The reference's run: its result is the last stage's function of the four arguments.

  Every weakly fair execution of the reference terminates with each buffer at the fold of the operations over the
  launch contents. Folding the eight parts in order: the sign bits, weight vectors and codes of the token rows and of
  the weight rows are the stages of the arguments; from the codes comes the mask stage, from the arguments the dense
  stage; the selection of the two is the result stage. The argument arrays are written by no operation, so each keeps
  its launch contents through all eight parts.
-/
import proofs.«148647_g61529701483102_cont_9to1_m_177_19_alg».proof.Proof.RefRunTokens
import proofs.«148647_g61529701483102_cont_9to1_m_177_19_alg».proof.Proof.RefRunRows
import proofs.«148647_g61529701483102_cont_9to1_m_177_19_alg».proof.Proof.RefRunSelect

noncomputable section

namespace Cert.RefHash.Run

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadOps

variable {F : FTy → Type} [FloatOps F]

/-- The result buffer after the whole list: the result stage of the launch's four arguments. -/
theorem after_result (V : Valuation τ sig (Elt F)) :
    after (ops (F := F)) V (Proc.devRef .tc main_v136)
      = val_main_v136 (F := F) (V (Proc.devRef .tc main_arg0)) (V (Proc.devRef .tc main_arg1)) (V (Proc.devRef .tc main_arg2)) (V (Proc.devRef .tc main_arg3)) := by
  rw [after_ops]
  have h62 : after (tokenCodes (F := F)) (after tokenWeights (after tokenBits V)) (Proc.devRef .tc main_v62)
      = val_main_v62 (F := F) (V (Proc.devRef .tc main_arg0)) (V (Proc.devRef .tc main_arg3)) :=
    after_tokenCodes _ _ _ (by rw [tokenWeights_keeps_main_v2]; exact after_tokenBits V) (after_tokenWeights _)
  have h125 : after (rowCodes (F := F)) (after rowWeights (after rowBits (after tokenCodes (after tokenWeights (after tokenBits V))))) (Proc.devRef .tc main_v125)
      = val_main_v125 (F := F) (V (Proc.devRef .tc main_arg1)) (V (Proc.devRef .tc main_arg3)) :=
    after_rowCodes _ _ _
      (by rw [rowWeights_keeps_main_v65, after_rowBits]
          rw [tokenCodes_keeps_main_arg1, tokenWeights_keeps_main_arg1, tokenBits_keeps_main_arg1,
            tokenCodes_keeps_main_arg3, tokenWeights_keeps_main_arg3, tokenBits_keeps_main_arg3])
      (after_rowWeights _)
  refine (after_selectOps _ _ _
    (after_maskDense_mask _ (V (Proc.devRef .tc main_arg0)) (V (Proc.devRef .tc main_arg1)) (V (Proc.devRef .tc main_arg3)) ?_ h125)
    (after_maskDense_dense _ (V (Proc.devRef .tc main_arg0)) (V (Proc.devRef .tc main_arg1)) (V (Proc.devRef .tc main_arg2)) ?_ ?_ ?_)).trans rfl
  · rw [rowCodes_keeps_main_v62, rowWeights_keeps_main_v62, rowBits_keeps_main_v62]
    exact h62
  · rw [rowCodes_keeps_main_arg0, rowWeights_keeps_main_arg0, rowBits_keeps_main_arg0, tokenCodes_keeps_main_arg0, tokenWeights_keeps_main_arg0, tokenBits_keeps_main_arg0]
  · rw [rowCodes_keeps_main_arg1, rowWeights_keeps_main_arg1, rowBits_keeps_main_arg1, tokenCodes_keeps_main_arg1, tokenWeights_keeps_main_arg1, tokenBits_keeps_main_arg1]
  · rw [rowCodes_keeps_main_arg2, rowWeights_keeps_main_arg2, rowBits_keeps_main_arg2, tokenCodes_keeps_main_arg2, tokenWeights_keeps_main_arg2, tokenBits_keeps_main_arg2]

/-- No operation writes the argument x: it keeps its launch contents. -/
theorem after_keeps_main_arg0 (V : Valuation τ sig (Elt F)) : after (ops (F := F)) V (Proc.devRef .tc main_arg0) = V (Proc.devRef .tc main_arg0) := by
  rw [after_ops]
  rw [selectOps_keeps_main_arg0, maskDense_keeps_main_arg0, rowCodes_keeps_main_arg0, rowWeights_keeps_main_arg0, rowBits_keeps_main_arg0, tokenCodes_keeps_main_arg0, tokenWeights_keeps_main_arg0, tokenBits_keeps_main_arg0]

/-- No operation writes the argument W: it keeps its launch contents. -/
theorem after_keeps_main_arg1 (V : Valuation τ sig (Elt F)) : after (ops (F := F)) V (Proc.devRef .tc main_arg1) = V (Proc.devRef .tc main_arg1) := by
  rw [after_ops]
  rw [selectOps_keeps_main_arg1, maskDense_keeps_main_arg1, rowCodes_keeps_main_arg1, rowWeights_keeps_main_arg1, rowBits_keeps_main_arg1, tokenCodes_keeps_main_arg1, tokenWeights_keeps_main_arg1, tokenBits_keeps_main_arg1]

/-- No operation writes the argument b: it keeps its launch contents. -/
theorem after_keeps_main_arg2 (V : Valuation τ sig (Elt F)) : after (ops (F := F)) V (Proc.devRef .tc main_arg2) = V (Proc.devRef .tc main_arg2) := by
  rw [after_ops]
  rw [selectOps_keeps_main_arg2, maskDense_keeps_main_arg2, rowCodes_keeps_main_arg2, rowWeights_keeps_main_arg2, rowBits_keeps_main_arg2, tokenCodes_keeps_main_arg2, tokenWeights_keeps_main_arg2, tokenBits_keeps_main_arg2]

/-- No operation writes the argument proj: it keeps its launch contents. -/
theorem after_keeps_main_arg3 (V : Valuation τ sig (Elt F)) : after (ops (F := F)) V (Proc.devRef .tc main_arg3) = V (Proc.devRef .tc main_arg3) := by
  rw [after_ops]
  rw [selectOps_keeps_main_arg3, maskDense_keeps_main_arg3, rowCodes_keeps_main_arg3, rowWeights_keeps_main_arg3, rowBits_keeps_main_arg3, tokenCodes_keeps_main_arg3, tokenWeights_keeps_main_arg3, tokenBits_keeps_main_arg3]

end Cert.RefHash.Run

namespace Cert.RefHash

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadOps

variable {F : FTy → Type} [FloatOps F]

set_option maxRecDepth 8192 in
set_option maxHeartbeats 90000000 in
/-- On every device, for any float values, from any memory with zero counters: every weakly fair execution of the
    reference terminates with the result at the result stage of the four arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v136) = val_main_v136 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v136).trans (Run.after_result _),
      (h c main_arg0).trans (Run.after_keeps_main_arg0 _),
      (h c main_arg1).trans (Run.after_keeps_main_arg1 _),
      (h c main_arg2).trans (Run.after_keeps_main_arg2 _),
      (h c main_arg3).trans (Run.after_keeps_main_arg3 _)⟩)
    (run_seq scopedRefs_eq scopedSems_eq defs main (fun _ => ops) main_eq (fun _ => ops_sub) m ρ)

end Cert.RefHash

end
-- ==== Proof.lean ====
/-
  A dense layer x · Wᵀ + b whose entry (s, o) is kept only when token s and neuron o collide under a
  signed-random-projection hash — in some one of 8 tables the 8 sign bits of the token's projections equal those of
  the weight row's — and is zero otherwise: the kernel against its reference, on the extended reals.

  Both programs compute the same sign bits (an inner product with a projection is strictly positive; the two sums run
  over the same 1024 products) and the same dense value. They differ in how a table's 8 bits are packed into a code
  and compared: the kernel packs them as a sum of powers of two on the extended reals, through a constant packing
  matrix and a matrix product over all 64 bits of a row (the 56 foreign bits meet a zero weight), and compares the
  real codes; the reference packs them as a 32-bit integer sum with weights 2^h it computes by repeated squaring,
  and compares the integers. Either packing is injective on 8-bit patterns, so both comparisons say "all 8 bits
  agree", and the OR over the tables is the collision (Proof/HashMask.lean). No finiteness is needed: sums and products
  on the extended reals commute, and a sign bit times a packing weight is a real number.

  The kernel is two launches — one computing the tokens' codes, one the masked product per block of 512 weight rows —
  among host reshapes; its result is read off its run through both launches' write-backs (Proof/KernelValue.lean). The
  reference's run ends at its last operation's function of the arguments (Proof/RefRun.lean), which is the same function
  (Proof/RefResult.lean). The ideal pass rewrote nothing, so the kernel's idealization is its own text at the ideal
  instance.
-/
import proofs.«148647_g61529701483102_cont_9to1_m_177_19_alg».proof.Defs
import proofs.«148647_g61529701483102_cont_9to1_m_177_19_alg».proof.Proof.Gen.Kernel
import proofs.«148647_g61529701483102_cont_9to1_m_177_19_alg».proof.Proof.Gen.Kernel.Skeleton
import proofs.«148647_g61529701483102_cont_9to1_m_177_19_alg».proof.Proof.Gen.Kernel.Launch
import proofs.«148647_g61529701483102_cont_9to1_m_177_19_alg».proof.Proof.Gen.Kernel.Points
import proofs.«148647_g61529701483102_cont_9to1_m_177_19_alg».proof.Proof.Gen.Kernel.Frame
import proofs.«148647_g61529701483102_cont_9to1_m_177_19_alg».proof.Proof.Gen.KernelIdeal
import proofs.«148647_g61529701483102_cont_9to1_m_177_19_alg».proof.Proof.Gen.KernelIdeal.Skeleton
import proofs.«148647_g61529701483102_cont_9to1_m_177_19_alg».proof.Proof.Gen.KernelIdeal.Launch
import proofs.«148647_g61529701483102_cont_9to1_m_177_19_alg».proof.Proof.Gen.KernelIdeal.Points
import proofs.«148647_g61529701483102_cont_9to1_m_177_19_alg».proof.Proof.Gen.KernelIdeal.Frame
import proofs.«148647_g61529701483102_cont_9to1_m_177_19_alg».proof.Proof.Gen.ReferenceIdeal
import proofs.«148647_g61529701483102_cont_9to1_m_177_19_alg».proof.Proof.Gen.Pre_finite_inputs
import proofs.«148647_g61529701483102_cont_9to1_m_177_19_alg».proof.Proof.KernelValue
import proofs.«148647_g61529701483102_cont_9to1_m_177_19_alg».proof.Proof.RefResult
import proofs.«148647_g61529701483102_cont_9to1_m_177_19_alg».proof.Proof.RefRun
import Idealize.ShloMosaic.Adequacy
import Idealize.ShloMosaic.Init

noncomputable section

namespace Cert.Proof

open Idealize.ShloMosaic Idealize.SL.Sem

local notation "𝕀" => Idealize.ShloMosaic.Ideal

/-- The kernel as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments unchanged: its run, the result forgotten. -/
theorem frame_reference : Cert.frame_ReferenceIdeal := fun m ρ _ =>
  (θ_run Cert.ReferenceIdeal.defs _ _).mono (fun _ h c => (h c).2) (Cert.RefHash.run (F := 𝕀) m ρ)

/-- The ideal pass rewrote no operation. -/
theorem preserves : Cert.preserves_Kernel_KernelIdeal := trivial

/-- From memories that agree on the arguments both programs end with the specification's function of the arguments in
    their result buffers: the kernel's run ends there, and the reference's last stage is that function. -/
theorem algebraic : Cert.algebraic_KernelIdeal_ReferenceIdeal := by
  intro m ρ m' ρ' _ hagree
  refine ⟨Cert.KernelIdeal.HashValue.resultBuf m, Cert.KernelIdeal.HashValue.run m ρ, ?_⟩
  refine (θ_run Cert.ReferenceIdeal.defs _ _).mono (fun _ h c => ⟨(h c).1.trans ?_, (h c).2⟩)
    (Cert.RefHash.run (F := 𝕀) m' ρ')
  rw [Cert.RefHash.ref_result, (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
